-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32x4 : Shape := ⟨3, ![100000, 32, 4]⟩
abbrev S100000 : Shape := ⟨1, ![100000]⟩
abbrev S100000x2 : Shape := ⟨2, ![100000, 2]⟩
abbrev S64x9 : Shape := ⟨2, ![64, 9]⟩
abbrev S64 : Shape := ⟨1, ![64]⟩
abbrev S_ : Shape := ⟨0, ![]⟩

class Facts : Prop where
  bcast_S_S100000x32x4 : S_.BroadcastsInDim S100000x32x4 (![] : Fin 0 → Fin S100000x32x4.rank)
  reducesTo_S100000x32x4_S_d0_1_2 : S100000x32x4.ReducesTo [0, 1, 2] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x32x4 .f32) (main_arg1 : IVec S100000 32) (main_arg2 : FVec F S100000x2 .f32) (main_arg3 : FVec F S64x9 .f32) (main_arg4 : FVec F S64 .f32) (main_arg5 : FVec F S64 .f32) : IVec S_ 1 :=
  let main_v0 : FVec F S100000x32x4 .f32 := Host.absf main_arg0
  let main_cst : FVec F S_ .f32 := constant S_ .f32 0x7F800000#32
  let main_v1 : FVec F S100000x32x4 .f32 := broadcastInDim S100000x32x4 ![] bcast_S_S100000x32x4 main_cst
  let main_v2 : IVec S100000x32x4 1 := cmpf .olt main_v0 main_v1
  let main_c : IVec S_ 1 := constantI S_ 1 1#1
  let main_v3 : IVec S_ 1 := (fun x v => Host.reduce IntOp.andi x v reducesTo_S100000x32x4_S_d0_1_2 h_S_) main_v2 main_c
  let main_v4 : FVec F S100000x2 .f32 := Host.absf main_arg2
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S64x9 .f32 := Host.absf main_arg3
  let main_cst_2 : FVec F S_ .f32 := constant S_ .f32 0x7F800000#32
  let main_v10 : FVec F S64x9 .f32 := broadcastInDim S64x9 ![] bcast_S_S64x9 main_cst_2
  let main_v11 : IVec S64x9 1 := cmpf .olt main_v9 main_v10
  let main_c_3 : IVec S_ 1 := constantI S_ 1 1#1
  let main_v12 : IVec S_ 1 := (fun x v => Host.reduce IntOp.andi x v reducesTo_S64x9_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x32x4 : Shape := ⟨3, ![100000, 32, 4]⟩
abbrev S100000 : Shape := ⟨1, ![100000]⟩
abbrev S100000x2 : Shape := ⟨2, ![100000, 2]⟩
abbrev S64x9 : Shape := ⟨2, ![64, 9]⟩
abbrev S64 : Shape := ⟨1, ![64]⟩
abbrev S100000x1 : Shape := ⟨2, ![100000, 1]⟩
abbrev S9x64 : Shape := ⟨2, ![9, 64]⟩
abbrev S4x64 : Shape := ⟨2, ![4, 64]⟩
abbrev S3x64 : Shape := ⟨2, ![3, 64]⟩
abbrev S2x64 : Shape := ⟨2, ![2, 64]⟩
abbrev S1x64 : Shape := ⟨2, ![1, 64]⟩
abbrev S200x32x4 : Shape := ⟨3, ![200, 32, 4]⟩
abbrev S200x1 : Shape := ⟨2, ![200, 1]⟩
abbrev S200x2 : Shape := ⟨2, ![200, 2]⟩
abbrev S200x32x3 : Shape := ⟨3, ![200, 32, 3]⟩
abbrev S200x32x2 : Shape := ⟨3, ![200, 32, 2]⟩
abbrev S200x3 : Shape := ⟨2, ![200, 3]⟩
abbrev S200x1x3 : Shape := ⟨3, ![200, 1, 3]⟩
abbrev S200x1x2 : Shape := ⟨3, ![200, 1, 2]⟩
abbrev S6400x4 : Shape := ⟨2, ![6400, 4]⟩
abbrev S6400x3 : Shape := ⟨2, ![6400, 3]⟩
abbrev S6400x2 : Shape := ⟨2, ![6400, 2]⟩
abbrev S6400x64 : Shape := ⟨2, ![6400, 64]⟩
abbrev S200x32x64 : Shape := ⟨3, ![200, 32, 64]⟩
abbrev S200x32 : Shape := ⟨2, ![200, 32]⟩
abbrev S200x32x1 : Shape := ⟨3, ![200, 32, 1]⟩
abbrev S200x64 : Shape := ⟨2, ![200, 64]⟩
abbrev S_ : Shape := ⟨0, ![]⟩
abbrev S100000x64 : Shape := ⟨2, ![100000, 64]⟩
abbrev S1x1x64 : Shape := ⟨3, ![1, 1, 64]⟩

abbrev nBuf : Space → Nat
  | .hbm => 28
  | .vmem => 26
  | .smem => 0
  | _ => 0

abbrev bufTy : (tb : Table) → Fin (tcTables nBuf tb) → BufTy
  | .hbm, ⟨0, _⟩ => ⟨S100000x32x4, .f32⟩
  | .hbm, ⟨1, _⟩ => ⟨S100000, .i32⟩
  | .hbm, ⟨2, _⟩ => ⟨S100000x2, .f32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S100000x1, .i32⟩
  | .hbm, ⟨7, _⟩ => ⟨S9x64, .f32⟩
  | .hbm, ⟨8, _⟩ => ⟨S4x64, .f32⟩
  | .hbm, ⟨9, _⟩ => ⟨S3x64, .f32⟩
  | .hbm, ⟨10, _⟩ => ⟨S2x64, .f32⟩
  | .hbm, ⟨11, _⟩ => ⟨S1x64, .f32⟩
  | .hbm, ⟨12, _⟩ => ⟨S1x64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S100000x64, .f32⟩
  | .local _ .vmem, ⟨0, _⟩ => ⟨S200x32x4, .f32⟩
  | .local _ .vmem, ⟨1, _⟩ => ⟨S200x32x4, .f32⟩
  | .local _ .vmem, ⟨2, _⟩ => ⟨S200x1, .i32⟩
  | .local _ .vmem, ⟨3, _⟩ => ⟨S200x1, .i32⟩
  | .local _ .vmem, ⟨4, _⟩ => ⟨S200x2, .f32⟩
  | .local _ .vmem, ⟨5, _⟩ => ⟨S200x2, .f32⟩
  | .local _ .vmem, ⟨6, _⟩ => ⟨S4x64, .f32⟩
  | .local _ .vmem, ⟨7, _⟩ => ⟨S3x64, .f32⟩
  | .local _ .vmem, ⟨8, _⟩ => ⟨S2x64, .f32⟩
  | .local _ .vmem, ⟨9, _⟩ => ⟨S1x64, .f32⟩
  | .local _ .vmem, ⟨10, _⟩ => ⟨S1x64, .f32⟩
  | .local _ .vmem, ⟨11, _⟩ => ⟨S200x32x4, .f32⟩
  | .local _ .vmem, ⟨12, _⟩ => ⟨S200x32x4, .f32⟩
  | .local _ .vmem, ⟨13, _⟩ => ⟨S200x1, .i32⟩
  | .local _ .vmem, ⟨14, _⟩ => ⟨S200x1, .i32⟩
  | .local _ .vmem, ⟨15, _⟩ => ⟨S200x2, .f32⟩
  | .local _ .vmem, ⟨16, _⟩ => ⟨S200x2, .f32⟩
  | .local _ .vmem, ⟨17, _⟩ => ⟨S4x64, .f32⟩
  | .local _ .vmem, ⟨18, _⟩ => ⟨S3x64, .f32⟩
  | .local _ .vmem, ⟨19, _⟩ => ⟨S2x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S200x64, .f32⟩
  | .local _ .vmem, ⟨25, _⟩ => ⟨S200x64, .f32⟩
  | _, _ => ⟨S100000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![500], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![500], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x32x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S200x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S100000_S100000x1 : S100000.ShapeCasts S100000x1
  transposes_S64x9_S9x64_1_0 : S64x9.Transposes [1, 0] S9x64
  slices_S9x64_S4x64_0_0 : S9x64.Slices ![0, 0] S4x64
  slices_S9x64_S3x64_4_0 : S9x64.Slices ![4, 0] S3x64
  slices_S9x64_S2x64_7_0 : S9x64.Slices ![7, 0] S2x64
  inb_S1x64_S1x64_0_0 : ∀ a, (![0, 0] : Fin 2 → Nat) a + S1x64.size a ≤ S1x64.size a
  h_S1x64 : 0 < S1x64.numel
  inb_S200x32x4_S200x32x4_0_0_0 : ∀ a, (![0, 0, 0] : Fin 3 → Nat) a + S200x32x4.size a ≤ S200x32x4.size a
  h_S200x32x4 : 0 < S200x32x4.numel
  inb_S200x2_S200x2_0_0 : ∀ a, (![0, 0] : Fin 2 → Nat) a + S200x2.size a ≤ S200x2.size a
  h_S200x2 : 0 < S200x2.numel
  inb_S200x1_S200x1_0_0 : ∀ a, (![0, 0] : Fin 2 → Nat) a + S200x1.size a ≤ S200x1.size a
  h_S200x1 : 0 < S200x1.numel
  shapeCasts_S200x1_S200x1 : S200x1.ShapeCasts S200x1
  slices_S200x32x4_o0_0_0_S200x32x3 : S200x32x4.Slices ![0, 0, 0] S200x32x3
  slices_S200x32x4_o0_0_0_S200x32x2 : S200x32x4.Slices ![0, 0, 0] S200x32x2
  reduces_S200x32x3_S200x3 : S200x32x3.Reduces [1] S200x3
  broadcasts_S200x1_S200x3 : S200x1.Broadcasts S200x3
  shapeCasts_S200x3_S200x1x3 : S200x3.ShapeCasts S200x1x3
  broadcasts_S200x1x3_S200x32x3 : S200x1x3.Broadcasts S200x32x3
  shapeCasts_S200x2_S200x1x2 : S200x2.ShapeCasts S200x1x2
  broadcasts_S200x1x2_S200x32x2 : S200x1x2.Broadcasts S200x32x2
  shapeCasts_S200x32x4_S6400x4 : S200x32x4.ShapeCasts S6400x4
  shapeCasts_S200x32x3_S6400x3 : S200x32x3.ShapeCasts S6400x3
  shapeCasts_S200x32x2_S6400x2 : S200x32x2.ShapeCasts S6400x2
  inb_S4x64_S4x64_0_0 : ∀ a, (![0, 0] : Fin 2 → Nat) a + S4x64.size a ≤ S4x64.size a
  h_S4x64 : 0 < S4x64.numel
  shapeCasts_S4x64_S4x64 : S4x64.ShapeCasts S4x64
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S2x64_S2x64_0_0 : ∀ a, (![0, 0] : Fin 2 → Nat) a + S2x64.size a ≤ S2x64.size a
  h_S2x64 : 0 < S2x64.numel
  shapeCasts_S2x64_S2x64 : S2x64.ShapeCasts S2x64
  shapeCasts_S6400x64_S200x32x64 : S6400x64.ShapeCasts S200x32x64
  iota_S200x32_d1_w32 : S200x32.Iotas .tc 32 [1]
  broadcasts_S200x1_S200x32 : S200x1.Broadcasts S200x32
  natLt_1_32 : 1 < 32
  shapeCasts_S200x32_S200x32x1 : S200x32.ShapeCasts S200x32x1
  broadcasts_S200x32x1_S200x32x64 : S200x32x1.Broadcasts S200x32x64
  reduces_S200x32x64_S200x64 : S200x32x64.Reduces [1] S200x64
  reduces_S200x64_S64 : S200x64.Reduces [0] S64
  shapeCasts_S64_S1x64 : S64.ShapeCasts S1x64
  shapeCasts_S1x64_S1x64 : S1x64.ShapeCasts S1x64
  shapeCasts_S1x64_S64 : S1x64.ShapeCasts S64
  bcast_S_S64 : S_.BroadcastsInDim S64 (![] : Fin 0 → Fin S64.rank)
  shapeCasts_S1x64_S1x1x64 : S1x64.ShapeCasts S1x1x64
  broadcasts_S1x1x64_S200x32x64 : S1x1x64.Broadcasts S200x32x64
  inb_S200x64_S200x64_0_0 : ∀ a, (![0, 0] : Fin 2 → Nat) a + S200x64.size a ≤ S200x64.size a
  h_S200x64 : 0 < S200x64.numel
  dot_S6400x4_S4x64_S6400x64_1_0_0_1_n_n_wf : DotDims.WF S6400x4 S4x64 S6400x64 [1] [0] [0] [1] [] []
  dot_S6400x3_S3x64_S6400x64_1_0_0_1_n_n_wf : DotDims.WF S6400x3 S3x64 S6400x64 [1] [0] [0] [1] [] []
  dot_S6400x2_S2x64_S6400x64_1_0_0_1_n_n_wf : DotDims.WF S6400x2 S2x64 S6400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x32x4.size a ≤ S100000x32x4.size a
  hwx0_0 : ∀ i : grid0.Coords, EltTy.bits .f32 = 32 ∨ (Rect.block (s := S100000x32x4) S200x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x1.size a ≤ S100000x1.size a
  hwx0_1 : ∀ i : grid0.Coords, EltTy.bits .i32 = 32 ∨ (Rect.block (s := S100000x1) S200x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x2.size a ≤ S100000x2.size a
  hwx0_2 : ∀ i : grid0.Coords, EltTy.bits .f32 = 32 ∨ (Rect.block (s := S100000x2) S200x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64.size a ≤ S4x64.size a
  hwx0_3 : ∀ i : grid0.Coords, EltTy.bits .f32 = 32 ∨ (Rect.block (s := S4x64) S4x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64.size a ≤ S2x64.size a
  hwx0_5 : ∀ i : grid0.Coords, EltTy.bits .f32 = 32 ∨ (Rect.block (s := S2x64) S2x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x32x4.size a ≤ S100000x32x4.size a
  hwx1_0 : ∀ i : grid1.Coords, EltTy.bits .f32 = 32 ∨ (Rect.block (s := S100000x32x4) S200x32x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x1.size a ≤ S100000x1.size a
  hwx1_1 : ∀ i : grid1.Coords, EltTy.bits .i32 = 32 ∨ (Rect.block (s := S100000x1) S200x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x2.size a ≤ S100000x2.size a
  hwx1_2 : ∀ i : grid1.Coords, EltTy.bits .f32 = 32 ∨ (Rect.block (s := S100000x2) S200x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x64.size a ≤ S4x64.size a
  hwx1_3 : ∀ i : grid1.Coords, EltTy.bits .f32 = 32 ∨ (Rect.block (s := S4x64) S4x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x64.size a ≤ S3x64.size a
  hwx1_4 : ∀ i : grid1.Coords, EltTy.bits .f32 = 32 ∨ (Rect.block (s := S3x64) S3x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x64.size a ≤ S2x64.size a
  hwx1_5 : ∀ i : grid1.Coords, EltTy.bits .f32 = 32 ∨ (Rect.block (s := S2x64) S2x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S200x64.size a ≤ S100000x64.size a
  hwx1_10 : ∀ i : grid1.Coords, EltTy.bits .f32 = 32 ∨ (Rect.block (s := S100000x64) S200x64.size (cc1_transform_10 i) (hinb1_10 i)).WholeWords (EltTy.packing .f32)

variable [Facts₀]

def dot_S6400x4_S4x64_S6400x64_1_0_0_1_n_n : DotDims S6400x4 S4x64 S6400x64 where
  lhsContracting := [1]
  rhsContracting := [0]
  lhsNonContracting := [0]
  rhsNonContracting := [1]
  lhsBatch := []
  rhsBatch := []
  wf := dot_S6400x4_S4x64_S6400x64_1_0_0_1_n_n_wf
def dot_S6400x3_S3x64_S6400x64_1_0_0_1_n_n : DotDims S6400x3 S3x64 S6400x64 where
  lhsContracting := [1]
  rhsContracting := [0]
  lhsNonContracting := [0]
  rhsNonContracting := [1]
  lhsBatch := []
  rhsBatch := []
  wf := dot_S6400x3_S3x64_S6400x64_1_0_0_1_n_n_wf
def dot_S6400x2_S2x64_S6400x64_1_0_0_1_n_n : DotDims S6400x2 S2x64 S6400x64 where
  lhsContracting := [1]
  rhsContracting := [0]
  lhsNonContracting := [0]
  rhsNonContracting := [1]
  lhsBatch := []
  rhsBatch := []
  wf := dot_S6400x2_S2x64_S6400x64_1_0_0_1_n_n_wf

abbrev win0_0 : Pipeline.Window sig grid0 :=
  Pipeline.Window.ofSpec (Memref.whole main_arg0) S200x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S200x32x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S200x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S200x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S4x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S3x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S2x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v17) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v18) S200x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x32x4 : Shape := ⟨3, ![100000, 32, 4]⟩
abbrev S100000 : Shape := ⟨1, ![100000]⟩
abbrev S100000x2 : Shape := ⟨2, ![100000, 2]⟩
abbrev S64x9 : Shape := ⟨2, ![64, 9]⟩
abbrev S64 : Shape := ⟨1, ![64]⟩
abbrev S100000x1x1 : Shape := ⟨3, ![100000, 1, 1]⟩
abbrev S100000x32x3 : Shape := ⟨3, ![100000, 32, 3]⟩
abbrev S_ : Shape := ⟨0, ![]⟩
abbrev S100000x3 : Shape := ⟨2, ![100000, 3]⟩
abbrev S100000x1x3 : Shape := ⟨3, ![100000, 1, 3]⟩
abbrev S100000x32x2 : Shape := ⟨3, ![100000, 32, 2]⟩
abbrev S100000x1x2 : Shape := ⟨3, ![100000, 1, 2]⟩
abbrev S100000x32x9 : Shape := ⟨3, ![100000, 32, 9]⟩
abbrev S100000x1 : Shape := ⟨2, ![100000, 1]⟩
abbrev S32 : Shape := ⟨1, ![32]⟩
abbrev S1x32 : Shape := ⟨2, ![1, 32]⟩
abbrev S100000x32 : Shape := ⟨2, ![100000, 32]⟩
abbrev S100000x32x1 : Shape := ⟨3, ![100000, 32, 1]⟩
abbrev S100000x32x64 : Shape := ⟨3, ![100000, 32, 64]⟩
abbrev S1x1x64 : Shape := ⟨3, ![1, 1, 64]⟩
abbrev S100000x64 : Shape := ⟨2, ![100000, 64]⟩

abbrev nBuf : Space → Nat
  | .hbm => 68
  | .vmem => 0
  | .smem => 0
  | _ => 0

abbrev bufTy : (tb : Table) → Fin (tcTables nBuf tb) → BufTy
  | .hbm, ⟨0, _⟩ => ⟨S100000x32x4, .f32⟩
  | .hbm, ⟨1, _⟩ => ⟨S100000, .i32⟩
  | .hbm, ⟨2, _⟩ => ⟨S100000x2, .f32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S100000, .f32⟩
  | .hbm, ⟨7, _⟩ => ⟨S100000x1x1, .f32⟩
  | .hbm, ⟨8, _⟩ => ⟨S100000x32x3, .f32⟩
  | .hbm, ⟨9, _⟩ => ⟨S_, .f32⟩
  | .hbm, ⟨10, _⟩ => ⟨S100000x3, .f32⟩
  | .hbm, ⟨11, _⟩ => ⟨S100000x1x3, .f32⟩
  | .hbm, ⟨12, _⟩ => ⟨S100000x1x3, .f32⟩
  | .hbm, ⟨13, _⟩ => ⟨S100000x1x3, .f32⟩
  | .hbm, ⟨14, _⟩ => ⟨S100000x32x3, .f32⟩
  | .hbm, ⟨15, _⟩ => ⟨S100000x32x3, .f32⟩
  | .hbm, ⟨16, _⟩ => ⟨S100000x32x3, .f32⟩
  | .hbm, ⟨17, _⟩ => ⟨S100000x32x2, .f32⟩
  | .hbm, ⟨18, _⟩ => ⟨S100000x1x2, .f32⟩
  | .hbm, ⟨19, _⟩ => ⟨S100000x32x2, .f32⟩
  | .hbm, ⟨20, _⟩ => ⟨S100000x32x2, .f32⟩
  | .hbm, ⟨21, _⟩ => ⟨S100000x32x9, .f32⟩
  | .hbm, ⟨22, _⟩ => ⟨S100000x1, .i32⟩
  | .hbm, ⟨23, _⟩ => ⟨S32, .i32⟩
  | .hbm, ⟨24, _⟩ => ⟨S1x32, .i32⟩
  | .hbm, ⟨25, _⟩ => ⟨S100000x32, .i32⟩
  | .hbm, ⟨26, _⟩ => ⟨S100000x32, .i32⟩
  | .hbm, ⟨27, _⟩ => ⟨S100000x32, .i1⟩
  | .hbm, ⟨28, _⟩ => ⟨S100000x32x1, .i1⟩
  | .hbm, ⟨29, _⟩ => ⟨S100000x32x1, .f32⟩
  | .hbm, ⟨30, _⟩ => ⟨S100000x32x9, .f32⟩
  | .hbm, ⟨31, _⟩ => ⟨S100000x32x9, .f32⟩
  | .hbm, ⟨32, _⟩ => ⟨S100000x32x64, .f32⟩
  | .hbm, ⟨33, _⟩ => ⟨S_, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S1x1x64, .f32⟩
  | .hbm, ⟨39, _⟩ => ⟨S100000x32x64, .f32⟩
  | .hbm, ⟨40, _⟩ => ⟨S100000x32x64, .f32⟩
  | .hbm, ⟨41, _⟩ => ⟨S100000x32x64, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S1x1x64, .f32⟩
  | .hbm, ⟨48, _⟩ => ⟨S100000x32x64, .f32⟩
  | .hbm, ⟨49, _⟩ => ⟨S100000x32x64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S1x1x64, .f32⟩
  | .hbm, ⟨55, _⟩ => ⟨S100000x32x64, .f32⟩
  | .hbm, ⟨56, _⟩ => ⟨S100000x32x64, .f32⟩
  | .hbm, ⟨57, _⟩ => ⟨S1x1x64, .f32⟩
  | .hbm, ⟨58, _⟩ => ⟨S100000x32x64, .f32⟩
  | .hbm, ⟨59, _⟩ => ⟨S100000x32x64, .f32⟩
  | .hbm, ⟨60, _⟩ => ⟨S1x1x64, .f32⟩
  | .hbm, ⟨61, _⟩ => ⟨S100000x32x64, .f32⟩
  | .hbm, ⟨62, _⟩ => ⟨S100000x32x64, .f32⟩
  | .hbm, ⟨63, _⟩ => ⟨S_, .f32⟩
  | .hbm, ⟨64, _⟩ => ⟨S100000x32x64, .f32⟩
  | .hbm, ⟨65, _⟩ => ⟨S100000x32x64, .f32⟩
  | .hbm, ⟨66, _⟩ => ⟨S_, .f32⟩
  | .hbm, ⟨67, _⟩ => ⟨S100000x64, .f32⟩
  | _, _ => ⟨S100000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_call0_cst : Ref sig .tc := ⟨.hbm, 63, rfl⟩
abbrev main_call0_v0 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩

abbrev nD : Nat := 1
abbrev τ : Topo := Topo.v7x

variable {F : FTy → Type} [FloatOps F]

class Facts₀ : Prop where
  bcast_S100000_S100000x1x1_0 : S100000.BroadcastsInDim S100000x1x1 (![0] : Fin 1 → Fin S100000x1x1.rank)
  slices_S100000x32x4_S100000x32x3_0_0_0 : S100000x32x4.Slices ![0, 0, 0] S100000x32x3
  reducesTo_S100000x32x3_S100000x3_d1 : S100000x32x3.ReducesTo [1] S100000x3
  h_S_ : 0 < S_.numel
  bcast_S100000x3_S100000x1x3_0_2 : S100000x3.BroadcastsInDim S100000x1x3 (![0, 2] : Fin 2 → Fin S100000x1x3.rank)
  bcast_S100000x1x1_S100000x1x3_0_1_2 : S100000x1x1.BroadcastsInDim S100000x1x3 (![0, 1, 2] : Fin 3 → Fin S100000x1x3.rank)
  bcast_S100000x1x3_S100000x32x3_0_1_2 : S100000x1x3.BroadcastsInDim S100000x32x3 (![0, 1, 2] : Fin 3 → Fin S100000x32x3.rank)
  slices_S100000x32x4_S100000x32x2_0_0_0 : S100000x32x4.Slices ![0, 0, 0] S100000x32x2
  bcast_S100000x2_S100000x1x2_0_2 : S100000x2.BroadcastsInDim S100000x1x2 (![0, 2] : Fin 2 → Fin S100000x1x2.rank)
  bcast_S100000x1x2_S100000x32x2_0_1_2 : S100000x1x2.BroadcastsInDim S100000x32x2 (![0, 1, 2] : Fin 3 → Fin S100000x32x2.rank)
  concatenates_S100000x32x4_S100000x32x3_S100000x32x2_S100000x32x9_d2 : Shape.Concatenates [S100000x32x4, S100000x32x3, S100000x32x2] S100000x32x9 2
  bcast_S100000_S100000x1_0 : S100000.BroadcastsInDim S100000x1 (![0] : Fin 1 → Fin S100000x1.rank)
  bcast_S32_S1x32_1 : S32.BroadcastsInDim S1x32 (![1] : Fin 1 → Fin S1x32.rank)
  bcast_S100000x1_S100000x32_0_1 : S100000x1.BroadcastsInDim S100000x32 (![0, 1] : Fin 2 → Fin S100000x32.rank)
  bcast_S1x32_S100000x32_0_1 : S1x32.BroadcastsInDim S100000x32 (![0, 1] : Fin 2 → Fin S100000x32.rank)
  bcast_S100000x32_S100000x32x1_0_1 : S100000x32.BroadcastsInDim S100000x32x1 (![0, 1] : Fin 2 → Fin S100000x32x1.rank)
  bcast_S100000x32x1_S100000x32x9_0_1_2 : S100000x32x1.BroadcastsInDim S100000x32x9 (![0, 1, 2] : Fin 3 → Fin S100000x32x9.rank)
  reducesTo_S100000x32x64_S64_d0_1 : S100000x32x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S1x1x64_S100000x32x64_0_1_2 : S1x1x64.BroadcastsInDim S100000x32x64 (![0, 1, 2] : Fin 3 → Fin S100000x32x64.rank)
  bcast_S_S100000x32x64 : S_.BroadcastsInDim S100000x32x64 (![] : Fin 0 → Fin S100000x32x64.rank)
  reducesTo_S100000x32x64_S100000x64_d1 : S100000x32x64.ReducesTo [1] S100000x64
  dot_S100000x32x9_S64x9_S100000x32x64_2_1_01_0_n_n_wf : DotDims.WF S100000x32x9 S64x9 S100000x32x64 [2] [1] [0, 1] [0] [] []

variable [Facts₀]

def dot_S100000x32x9_S64x9_S100000x32x64_2_1_01_0_n_n : DotDims S100000x32x9 S64x9 S100000x32x64 where
  lhsContracting := [2]
  rhsContracting := [1]
  lhsNonContracting := [0, 1]
  rhsNonContracting := [0]
  lhsBatch := []
  rhsBatch := []
  wf := dot_S100000x32x9_S64x9_S100000x32x64_2_1_01_0_n_n_wf

class Facts : Prop extends Facts₀ where

variable [Facts]
-- ==== Proof.KernelRun.lean ====
/-
  The idealized kernel's run with its result kept. Every weakly fair execution of the program ends, nothing
  faulting, with the result buffer holding what the last of the four stretches (host operations, first kernel,
  host operations, second kernel) leaves there - the contents W4 of the last boundary - and the six argument
  arrays as launched.
-/
import proofs.«144879_j40235253629489_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments end as launched. -/
theorem run_result : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.RunValue

end
-- ==== Proof.LibVectorAsColumn.lean ====
/-
  A vector viewed as a one-column matrix, read at an index given by coordinates: an `[a]` array cast to `[a, 1]` (what
  `v.reshape(a, 1)` or `v[:, None]` is, as a shape cast) reads, at `(i, u)`, the vector's entry `i`. The layout library
  has the row form `[a] → [1, a]`; this is the column form, with the row-major arithmetic discharged the same way.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibTransposedEntry.lean ====
/-
  A transposed matrix read at an entry.

  Transposing an `N × K` matrix by the permutation [1, 0] gives the `K × N` matrix whose entry (k, q) is the
  operand's entry (q, k). Any extents and any element type; imports only the library.
-/
import Idealize.ShloMosaic.Lib.Pipeline.Value
import Idealize.ShloMosaic.Lib.ValueIdx

namespace Idealize.ShloMosaic.TransposedEntry

open Idealize.ShloMosaic Idealize.ShloMosaic.ValueIdx

/-- `transpose [K, N] [1, 0] w` at (k, q) is `w` at (q, k). -/
theorem transposed_apply {α : Type} {N K : ℕ} (w : (⟨2, ![N, K]⟩ : Shape).Idx → α)
    (h : (⟨2, ![N, K]⟩ : Shape).Transposes [1, 0] ⟨2, ![K, N]⟩) (k : Fin K) (q : Fin N) :
    transpose (⟨2, ![K, N]⟩ : Shape) [1, 0] w h (ix2 k q) = w (ix2 q k) :=
  transpose_apply [1, 0] w h (ix2 k q) (ix2 q k) (fun b => by
    match b with
    | ⟨0, _⟩ => rfl
    | ⟨1, _⟩ => rfl)

end Idealize.ShloMosaic.TransposedEntry
-- ==== Proof.HostBefore.lean ====
/-
  What the first kernel's windows are cut from, after the five host operations before it: the counts as a
  [100000, 1] column (entry (n, 0) is count n), the three weight pieces as row ranges 0..3, 4..6, 7..8 of the
  transposed weight (entry (k, o) of a piece is the weight at (o, first row + k)), and the voxel and centre
  arrays, which no host operation writes.
-/
import proofs.«144879_j40235253629489_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import proofs.«144879_j40235253629489_2_alg».proof.Proof.LibVectorAsColumn
import proofs.«144879_j40235253629489_2_alg».proof.Proof.LibTransposedEntry
set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostBefore

open Cert.KernelIdeal Cert.KernelIdeal.Gen

variable {F : FTy → Type} [FloatOps F]
variable (m : (ℓ : Loc nD τ sig) → Buf (Elt F) ℓ) (ρ : Dev nD → PrngReg)

open Idealize.ShloMosaic.TransposedEntry

theorem counts_eq (c : Dev nD) : (V1 m ρ c main_v0 : S100000x1.Idx → Elt F .i32)
    = shapeCast S100000x1 (m ((c : Thread nD τ).loc main_arg1)) shapeCasts_S100000_S100000x1 := by
  show StableHlo.after hostOps0 (W0 m ρ c) (Proc.devRef .tc main_v0) = _
  after_results
  rfl

/-- Entry (n, 0) of the count column is count n. -/
theorem counts_apply (c : Dev nD) (n : Fin 100000) (u : Fin 1) :
    (V1 m ρ c main_v0 : S100000x1.Idx → Elt F .i32) (ix2 n u) = (m ((c : Thread nD τ).loc main_arg1) : S100000.Idx → Elt F .i32) (ix1 n) := by
  rw [counts_eq]
  exact shapeCast_a_a1_apply _ _ n u

theorem wa_eq (c : Dev nD) : (V1 m ρ c main_v2 : S4x64.Idx → Elt F .f32)
    = extractStridedSlice S4x64 ![0, 0] (transpose S9x64 [1, 0] (m ((c : Thread nD τ).loc main_arg3)) transposes_S64x9_S9x64_1_0) slices_S9x64_S4x64_0_0 := by
  show StableHlo.after hostOps0 (W0 m ρ c) (Proc.devRef .tc main_v2) = _
  after_results

theorem wb_eq (c : Dev nD) : (V1 m ρ c main_v3 : S3x64.Idx → Elt F .f32)
    = extractStridedSlice S3x64 ![4, 0] (transpose S9x64 [1, 0] (m ((c : Thread nD τ).loc main_arg3)) transposes_S64x9_S9x64_1_0) slices_S9x64_S3x64_4_0 := by
  show StableHlo.after hostOps0 (W0 m ρ c) (Proc.devRef .tc main_v3) = _
  after_results

theorem wc_eq (c : Dev nD) : (V1 m ρ c main_v4 : S2x64.Idx → Elt F .f32)
    = extractStridedSlice S2x64 ![7, 0] (transpose S9x64 [1, 0] (m ((c : Thread nD τ).loc main_arg3)) transposes_S64x9_S9x64_1_0) slices_S9x64_S2x64_7_0 := by
  show StableHlo.after hostOps0 (W0 m ρ c) (Proc.devRef .tc main_v4) = _
  after_results

/-- Entry (k, o) of the first weight piece is the weight at (o, k). -/
theorem wa_apply (c : Dev nD) (k : Fin 4) (o : Fin 64) :
    (V1 m ρ c main_v2 : S4x64.Idx → Elt F .f32) (ix2 k o)
      = (m ((c : Thread nD τ).loc main_arg3) : S64x9.Idx → Elt F .f32) (ix2 o (Fin.castLE (by decide) k)) := by
  rw [wa_eq]
  refine (extractStridedSlice_apply _ _ _ (ix2 k o) (ix2 (Fin.castLE (by decide) k : Fin 9) o) (fun a => ?_)).trans (transposed_apply _ _ _ _)
  match a with
  | ⟨0, _⟩ => show k.val = 0 + k.val; omega
  | ⟨1, _⟩ => show o.val = 0 + o.val; omega

/-- Entry (k, o) of the second weight piece is the weight at (o, 4 + k). -/
theorem wb_apply (c : Dev nD) (k : Fin 3) (o : Fin 64) :
    (V1 m ρ c main_v3 : S3x64.Idx → Elt F .f32) (ix2 k o)
      = (m ((c : Thread nD τ).loc main_arg3) : S64x9.Idx → Elt F .f32) (ix2 o ⟨4 + k.val, by omega⟩) := by
  rw [wb_eq]
  refine (extractStridedSlice_apply _ _ _ (ix2 k o) (ix2 (⟨4 + k.val, by omega⟩ : Fin 9) o) (fun a => ?_)).trans (transposed_apply _ _ _ _)
  match a with
  | ⟨0, _⟩ => rfl
  | ⟨1, _⟩ => show o.val = 0 + o.val; omega

/-- Entry (k, o) of the third weight piece is the weight at (o, 7 + k). -/
theorem wc_apply (c : Dev nD) (k : Fin 2) (o : Fin 64) :
    (V1 m ρ c main_v4 : S2x64.Idx → Elt F .f32) (ix2 k o)
      = (m ((c : Thread nD τ).loc main_arg3) : S64x9.Idx → Elt F .f32) (ix2 o ⟨7 + k.val, by omega⟩) := by
  rw [wc_eq]
  refine (extractStridedSlice_apply _ _ _ (ix2 k o) (ix2 (⟨7 + k.val, by omega⟩ : Fin 9) o) (fun a => ?_)).trans (transposed_apply _ _ _ _)
  match a with
  | ⟨0, _⟩ => rfl
  | ⟨1, _⟩ => show o.val = 0 + o.val; omega

/-- No host operation before the first kernel writes the voxel array or the centre array. -/
theorem vox_eq (c : Dev nD) : V1 m ρ c main_arg0 = m ((c : Thread nD τ).loc main_arg0) := by
  show StableHlo.after hostOps0 (W0 m ρ c) (Proc.devRef .tc main_arg0) = _
  after_results

theorem ctr_eq (c : Dev nD) : V1 m ρ c main_arg2 = m ((c : Thread nD τ).loc main_arg2) := by
  show StableHlo.after hostOps0 (W0 m ρ c) (Proc.devRef .tc main_arg2) = _
  after_results

end Cert.KernelIdeal.HostBefore

end
-- ==== Proof.LibOneRowMatrix.lean ====
/-
  A bias as a one-row matrix, read at an entry.

  A dense layer adds its bias to every row. The vector of length n is first viewed as a 1 × n matrix, whose entry
  (0, q) is the vector's entry q, and that one-row matrix is then broadcast down the rows of an m × n array, whose
  entry (p, q) is the row's entry (0, q). Any extents and any element type; imports only the library.
-/
import Idealize.ShloMosaic.Lib.Pipeline.Value
import Idealize.ShloMosaic.Lib.ValueIdx

namespace Idealize.ShloMosaic.OneRowMatrix

open Idealize.ShloMosaic Idealize.ShloMosaic.ValueIdx

/-- A vector viewed as a one-row matrix reads, at (0, q), the vector at q. -/
theorem row_of_vector {α : Type} {n : Nat} (b : (⟨1, ![n]⟩ : Shape).Idx → α)
    (h : (⟨1, ![n]⟩ : Shape).ShapeCasts ⟨2, ![1, n]⟩) (q : Fin n) :
    shapeCast (⟨2, ![1, n]⟩ : Shape) b h (ix2 0 q) = b (ix1 q) := by
  refine shapeCast_apply b h (ix2 0 q) (ix1 q) ?_
  rw [Shape.rowMajor_val_two, Shape.rowMajor_val_one]
  show q.val = 0 * n + q.val
  omega

/-- A one-row matrix broadcast down the rows reads, at (p, q), its row at (0, q). -/
theorem broadcast_row_apply {α : Type} {m n : Nat} (b : (⟨2, ![1, n]⟩ : Shape).Idx → α)
    (h : (⟨2, ![1, n]⟩ : Shape).Broadcasts ⟨2, ![m, n]⟩) (p : Fin m) (q : Fin n) :
    broadcastTo (⟨2, ![m, n]⟩ : Shape) b h (ix2 p q) = b (ix2 0 q) :=
  broadcastTo_apply b h (ix2 p q) (ix2 0 q) (fun a => by
    match a with
    | ⟨0, _⟩ => show (0 : Nat) = if (1 : Nat) = 1 then 0 else _; rw [if_pos rfl]
    | ⟨1, _⟩ =>
      show q.val = if n = 1 then 0 else q.val
      split
      · have := q.isLt; omega
      · rfl)

end Idealize.ShloMosaic.OneRowMatrix
-- ==== Proof.PillarSpec.lean ====
/-
  The function both programs compute, over the extended reals, in two layers.

  ONE PILLAR. A pillar has 32 point slots of 4 channels (vv p c), a count cn of live slots (a 32-bit word, read
  signed) and a centre ct (2 coordinates). Slot p is live when p < cn. Its 9 features are its 4 channels, its first
  3 channels minus the pillar's centroid (that channel summed over ALL 32 slots, divided by the count), and its
  first 2 channels minus the centre. The activation of slot p in output channel o is the features contracted with
  the weights of channel o, times the liveness indicator (0 or 1). Two spellings occur: contract in three partial
  sums (4 + 3 + 2 features against three weight pieces) and multiply by the indicator afterwards (`act`), or
  multiply every feature by the indicator first and contract all 9 at once (`actR`).

  ALL PILLARS. For an activation a n p o over 100000 pillars, 32 slots and 64 channels: each channel is normalised
  by the mean and the biased variance of its activations over all 3200000 slots, scaled, shifted and clipped below
  at 0, and the result of pillar n is the maximum over its slots. The variance too has two spellings: mean of
  squares minus squared mean (`var`), or mean of squared deviations (`varR`).
-/
import Idealize.ShloMosaic.PureOps.Ideal
import Idealize.ShloMosaic.PureOps.Ideal.Laws
import Idealize.ShloMosaic.Lib.ValueIdx

noncomputable section

namespace Cert.Pillar

open Idealize.ShloMosaic Idealize.ShloMosaic.ValueIdx

/-! ## One pillar -/

section Slot

variable (vv : Fin 32 → Fin 4 → EReal) (cn : BitVec 32) (ct : Fin 2 → EReal)

/-- The count as an extended real (the signed reading of its word). -/
def count : EReal := ((cn.toInt : ℝ) : EReal)

/-- Slot p is live: the one-bit answer of the signed comparison cn > p. -/
def keepBit (p : Fin 32) : BitVec 1 := IntOp.cmpi .sgt cn (BitVec.ofNat 32 p.val)

/-- The liveness indicator, 0 or 1, as an extended real. -/
def keep (p : Fin 32) : EReal := (((keepBit cn p).toNat : ℝ) : EReal)

/-- Channel c (of the first three) of the centroid: the channel summed over all 32 slots, over the count. -/
def centroid (c : Fin 3) : EReal := Ideal.div (∑ p : Fin 32, vv p (Fin.castLE (by decide) c)) (count cn)

/-- Feature k of slot p: channels 0..3, then channels 0..2 minus the centroid, then channels 0..1 minus the centre. -/
def feat (p : Fin 32) (k : Fin 9) : EReal :=
  if h4 : k.val < 4 then vv p ⟨k.val, h4⟩
  else if h7 : k.val < 7 then vv p ⟨k.val - 4, by omega⟩ - centroid vv cn ⟨k.val - 4, by omega⟩
  else vv p ⟨k.val - 7, by omega⟩ - ct ⟨k.val - 7, by omega⟩

/-- The three partial contractions against the three weight pieces (wa k o: features 0..3; wb: 4..6; wc: 7..8),
    added left to right. -/
def lin (wa : Fin 4 → Fin 64 → EReal) (wb : Fin 3 → Fin 64 → EReal) (wc : Fin 2 → Fin 64 → EReal)
    (p : Fin 32) (o : Fin 64) : EReal :=
  (∑ k : Fin 4, vv p k * wa k o)
    + (∑ k : Fin 3, (vv p (Fin.castLE (by decide) k) - centroid vv cn k) * wb k o)
    + (∑ k : Fin 2, (vv p (Fin.castLE (by decide) k) - ct k) * wc k o)

/-- The activation, indicator applied after the contraction. -/
def act (wa : Fin 4 → Fin 64 → EReal) (wb : Fin 3 → Fin 64 → EReal) (wc : Fin 2 → Fin 64 → EReal)
    (p : Fin 32) (o : Fin 64) : EReal := lin vv cn ct wa wb wc p o * keep cn p

/-- The activation, indicator applied to every feature before one contraction over all 9 (w9 o k: channel o's weights). -/
def actR (w9 : Fin 64 → Fin 9 → EReal) (p : Fin 32) (o : Fin 64) : EReal :=
  ∑ k : Fin 9, (feat vv cn ct p k * keep cn p) * w9 o k

end Slot

/-! ## The literal words -/

/-- The number of slots, 3200000, as the f32 word both programs divide by. -/
def slots : EReal := Ideal.ofBits .f32 0x4A435000#32
/-- The variance offset, the f32 word nearest 1e-3. -/
def eps : EReal := Ideal.ofBits .f32 0x3A83126F#32
/-- The f32 word of minus infinity, from which the maximum over slots is folded. -/
def floorWord : EReal := Ideal.ofBits .f32 0xFF800000#32

/-- One activation x normalised with mean m and variance s, scaled by g, shifted by b, clipped below at 0. -/
def unitOf (x m s g b : EReal) : EReal := max ((x - m) * Ideal.rsqrt (s + eps) * g + b) 0

/-! ## All pillars -/

section Stats

variable (a : Fin 100000 → Fin 32 → Fin 64 → EReal) (g b : Fin 64 → EReal)

/-- Sum of channel o's activations over all slots, pillar by pillar. -/
def sum1 (o : Fin 64) : EReal := ∑ n : Fin 100000, ∑ p : Fin 32, a n p o
/-- Sum of their squares. -/
def sum2 (o : Fin 64) : EReal := ∑ n : Fin 100000, ∑ p : Fin 32, a n p o * a n p o

def mean (o : Fin 64) : EReal := Ideal.div (sum1 a o) slots
/-- Variance as mean of squares minus squared mean. -/
def var (o : Fin 64) : EReal := Ideal.div (sum2 a o) slots - mean a o * mean a o
/-- Variance as mean of squared deviations. -/
def varR (o : Fin 64) : EReal :=
  Ideal.div (∑ n : Fin 100000, ∑ p : Fin 32, (a n p o - mean a o) * (a n p o - mean a o)) slots

/-- The result with a given variance s: per pillar and channel the maximum over the 32 slots, folded from minus infinity. -/
def pooled (s : Fin 64 → EReal) : (⟨2, ![100000, 64]⟩ : Shape).Idx → EReal := fun j =>
  (Finset.univ : Finset (Fin 32)).fold max floorWord
    (fun p => unitOf (a (j 0) p (j 1)) (mean a (j 1)) (s (j 1)) (g (j 1)) (b (j 1)))

end Stats

/-! ## From the argument arrays -/

section Arrays

variable (v : (⟨3, ![100000, 32, 4]⟩ : Shape).Idx → EReal) (cnt : (⟨1, ![100000]⟩ : Shape).Idx → BitVec 32)
  (ctr : (⟨2, ![100000, 2]⟩ : Shape).Idx → EReal) (w : (⟨2, ![64, 9]⟩ : Shape).Idx → EReal)
  (γ β : (⟨1, ![64]⟩ : Shape).Idx → EReal)

/-- Activations from the arrays, three-piece spelling: piece k of the weight is column k, 4 + k, 7 + k of row o. -/
def actOf : Fin 100000 → Fin 32 → Fin 64 → EReal := fun n p o =>
  act (fun p c => v (ix3 n p c)) (cnt (ix1 n)) (fun c => ctr (ix2 n c))
    (fun k o => w (ix2 o (Fin.castLE (by decide) k))) (fun k o => w (ix2 o ⟨4 + k.val, by omega⟩))
    (fun k o => w (ix2 o ⟨7 + k.val, by omega⟩)) p o

/-- Activations from the arrays, one-contraction spelling. -/
def actROf : Fin 100000 → Fin 32 → Fin 64 → EReal := fun n p o =>
  actR (fun p c => v (ix3 n p c)) (cnt (ix1 n)) (fun c => ctr (ix2 n c)) (fun o k => w (ix2 o k)) p o

/-- The result in the first spellings (`act`, `var`). -/
def result : (⟨2, ![100000, 64]⟩ : Shape).Idx → EReal :=
  pooled (actOf v cnt ctr w) (fun o => γ (ix1 o)) (fun o => β (ix1 o)) (var (actOf v cnt ctr w))

/-- The result in the second spellings (`actR`, `varR`). -/
def resultR : (⟨2, ![100000, 64]⟩ : Shape).Idx → EReal :=
  pooled (actROf v cnt ctr w) (fun o => γ (ix1 o)) (fun o => β (ix1 o)) (varR (actROf v cnt ctr w))

end Arrays

end Cert.Pillar

end
-- ==== Proof.HostBetween.lean ====
/-
  The fourteen host operations between the two kernels, from ANY contents W of the buffers when they start: the sum
  row and the sum-of-squares row are divided by the number of slots (the mean, and the mean of squares), the
  variance is the mean of squares minus the squared mean, and the mean, the variance, the scale and the shift are
  laid out as [1, 64] rows for the second kernel. Nothing else the second kernel reads is written here.
-/
import proofs.«144879_j40235253629489_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import proofs.«144879_j40235253629489_2_alg».proof.Proof.LibOneRowMatrix
import proofs.«144879_j40235253629489_2_alg».proof.Proof.PillarSpec
set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostBetween

open Cert.KernelIdeal Cert.KernelIdeal.Gen

variable {F : FTy → Type} [FloatOps F]
variable (W : Valuation τ sig (Elt F))

open Idealize.ShloMosaic.OneRowMatrix

/-- The number of slots as a [64] vector. -/
abbrev slotsVec : S64.Idx → Elt F .f32 := broadcastInDim S64 ![] bcast_S_S64 (constant (F := F) S_ .f32 0x4A435000#32)

/-- The mean as a vector: the sum row, flattened, over the number of slots. -/
abbrev meanVec : S64.Idx → Elt F .f32 :=
  Host.divf (shapeCast S64 (W (Proc.devRef .tc main_v5_0) : S1x64.Idx → Elt F .f32) shapeCasts_S1x64_S64) (slotsVec (F := F))

/-- The mean of squares as a vector. -/
abbrev sqVec : S64.Idx → Elt F .f32 :=
  Host.divf (shapeCast S64 (W (Proc.devRef .tc main_v5_1) : S1x64.Idx → Elt F .f32) shapeCasts_S1x64_S64) (slotsVec (F := F))

theorem mean_eq : (StableHlo.after hostOps1 W (Proc.devRef .tc main_v14) : S1x64.Idx → Elt F .f32)
    = shapeCast S1x64 (meanVec W) shapeCasts_S64_S1x64 := by
  after_results
  rfl

theorem var_eq : (StableHlo.after hostOps1 W (Proc.devRef .tc main_v15) : S1x64.Idx → Elt F .f32)
    = shapeCast S1x64 (subf (sqVec W) (mulf (meanVec W) (meanVec W))) shapeCasts_S64_S1x64 := by
  after_results
  rfl

theorem scale_eq : (StableHlo.after hostOps1 W (Proc.devRef .tc main_v16) : S1x64.Idx → Elt F .f32)
    = shapeCast S1x64 (W (Proc.devRef .tc main_arg4) : S64.Idx → Elt F .f32) shapeCasts_S64_S1x64 := by
  after_results
  rfl

theorem shift_eq : (StableHlo.after hostOps1 W (Proc.devRef .tc main_v17) : S1x64.Idx → Elt F .f32)
    = shapeCast S1x64 (W (Proc.devRef .tc main_arg5) : S64.Idx → Elt F .f32) shapeCasts_S64_S1x64 := by
  after_results
  rfl

/-- The second kernel's other six operands are not written between the kernels. -/
theorem keep_arg0 : StableHlo.after hostOps1 W (Proc.devRef .tc main_arg0) = W (Proc.devRef .tc main_arg0) := by after_results
theorem keep_v0 : StableHlo.after hostOps1 W (Proc.devRef .tc main_v0) = W (Proc.devRef .tc main_v0) := by after_results
theorem keep_arg2 : StableHlo.after hostOps1 W (Proc.devRef .tc main_arg2) = W (Proc.devRef .tc main_arg2) := by after_results
theorem keep_v2 : StableHlo.after hostOps1 W (Proc.devRef .tc main_v2) = W (Proc.devRef .tc main_v2) := by after_results
theorem keep_v3 : StableHlo.after hostOps1 W (Proc.devRef .tc main_v3) = W (Proc.devRef .tc main_v3) := by after_results
theorem keep_v4 : StableHlo.after hostOps1 W (Proc.devRef .tc main_v4) = W (Proc.devRef .tc main_v4) := by after_results

end Cert.KernelIdeal.HostBetween

/-! ## The four rows at an entry, over the extended reals -/

namespace Cert.KernelIdeal.HostBetween

open Cert.KernelIdeal Cert.KernelIdeal.Gen Idealize.ShloMosaic.OneRowMatrix

variable (W : Valuation τ sig (Elt Ideal))

theorem meanVec_apply (o : Fin 64) :
    meanVec (F := Ideal) W (ix1 o) = Ideal.div ((W (Proc.devRef .tc main_v5_0) : S1x64.Idx → EReal) (ix2 (0 : Fin 1) o)) Cert.Pillar.slots := by
  show Ideal.div (shapeCast S64 (W (Proc.devRef .tc main_v5_0) : S1x64.Idx → EReal) shapeCasts_S1x64_S64 (ix1 o)) _ = _
  congr 1
  refine shapeCast_apply _ _ (ix1 o) (ix2 (0 : Fin 1) o) ?_
  rw [Shape.rowMajor_val_two, Shape.rowMajor_val_one]
  show 0 * 64 + o.val = o.val
  omega

theorem sqVec_apply (o : Fin 64) :
    sqVec (F := Ideal) W (ix1 o) = Ideal.div ((W (Proc.devRef .tc main_v5_1) : S1x64.Idx → EReal) (ix2 (0 : Fin 1) o)) Cert.Pillar.slots := by
  show Ideal.div (shapeCast S64 (W (Proc.devRef .tc main_v5_1) : S1x64.Idx → EReal) shapeCasts_S1x64_S64 (ix1 o)) _ = _
  congr 1
  refine shapeCast_apply _ _ (ix1 o) (ix2 (0 : Fin 1) o) ?_
  rw [Shape.rowMajor_val_two, Shape.rowMajor_val_one]
  show 0 * 64 + o.val = o.val
  omega

/-- Entry (0, o) of the mean row: the sum row's entry over the number of slots. -/
theorem mean_apply (o : Fin 64) :
    (StableHlo.after hostOps1 W (Proc.devRef .tc main_v14) : S1x64.Idx → EReal) (ix2 0 o)
      = Ideal.div ((W (Proc.devRef .tc main_v5_0) : S1x64.Idx → EReal) (ix2 (0 : Fin 1) o)) Cert.Pillar.slots := by
  rw [mean_eq]
  exact (row_of_vector _ _ o).trans (meanVec_apply W o)

/-- Entry (0, o) of the variance row: the mean of squares minus the squared mean. -/
theorem var_apply (o : Fin 64) :
    (StableHlo.after hostOps1 W (Proc.devRef .tc main_v15) : S1x64.Idx → EReal) (ix2 0 o)
      = Ideal.div ((W (Proc.devRef .tc main_v5_1) : S1x64.Idx → EReal) (ix2 (0 : Fin 1) o)) Cert.Pillar.slots
        - Ideal.div ((W (Proc.devRef .tc main_v5_0) : S1x64.Idx → EReal) (ix2 (0 : Fin 1) o)) Cert.Pillar.slots
          * Ideal.div ((W (Proc.devRef .tc main_v5_0) : S1x64.Idx → EReal) (ix2 (0 : Fin 1) o)) Cert.Pillar.slots := by
  rw [var_eq]
  refine (row_of_vector _ _ o).trans ?_
  show sqVec (F := Ideal) W (ix1 o) - meanVec (F := Ideal) W (ix1 o) * meanVec (F := Ideal) W (ix1 o) = _
  rw [sqVec_apply, meanVec_apply]

theorem scale_apply (o : Fin 64) :
    (StableHlo.after hostOps1 W (Proc.devRef .tc main_v16) : S1x64.Idx → EReal) (ix2 0 o)
      = (W (Proc.devRef .tc main_arg4) : S64.Idx → EReal) (ix1 o) := by
  rw [scale_eq]
  exact row_of_vector _ _ o

theorem shift_apply (o : Fin 64) :
    (StableHlo.after hostOps1 W (Proc.devRef .tc main_v17) : S1x64.Idx → EReal) (ix2 0 o)
      = (W (Proc.devRef .tc main_arg5) : S64.Idx → EReal) (ix1 o) := by
  rw [shift_eq]
  exact row_of_vector _ _ o

end Cert.KernelIdeal.HostBetween

end
-- ==== Proof.SumRows.lean ====
/-
  The two running rows of the first kernel (sum and sum of squares per output channel) as arrays after the kernel:
  their block never moves, so the buffer is written back once, after the last of the 500 grid points, and that one
  block is the whole [1, 64] array. Each array therefore ends holding what the last point left in its buffer.
-/
import proofs.«144879_j40235253629489_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.SumRows

open Cert.KernelIdeal Cert.KernelIdeal.Gen

variable {F : FTy → Type} [FloatOps F]
variable (V : (c : Dev nD) → (b : Ref sig .tc) → Buf (Elt F) ((c : Thread nD τ).loc b))

attribute [local irreducible] Cert.KernelIdeal.Gen.outsAt0

/-- The last grid point. -/
abbrev tLast : Fin cfg0.N := ⟨499, by rw [show cfg0.N = 500 from N_0]; decide⟩

/-- What the last point leaves in the sum row's buffer, as contents of its array. -/
def lastRow6 (c : Dev nD) : Buf (Elt F) ((c : Thread nD τ).loc main_v5_0) := (outsAt0 V c tLast.val tLast.isLt).1
/-- What the last point leaves in the sum-of-squares row's buffer, as contents of its array. -/
def lastRow7 (c : Dev nD) : Buf (Elt F) ((c : Thread nD τ).loc main_v5_1) := (outsAt0 V c tLast.val tLast.isLt).2

/-- What the buffers hold after a point depends on the point's number only, not on the proof that it is in range. -/
theorem outsAt0_congr (c : Dev nD) (u v : ℕ) (hu : u < cfg0.N) (hv : v < cfg0.N) (e : u = v) :
    outsAt0 V c u hu = outsAt0 V c v hv := by
  subst e; rfl

/-- The block index of window 6 is `(0, 0)` at every point. -/
theorem idx0_6 : ∀ t : Fin cfg0.N, win0_6.index t (0 : Fin 2) = 0 ∧ win0_6.index t (1 : Fin 2) = 0 :=
  (by decide +kernel : ∀ t : Fin grid0.N, _)

/-- The block of window 6 is the whole [1, 64] array at every point: cutting a row to it and reading an array
    through it are the same row, whatever the row. Element `(u, o)` of the block sits at `(0 · 1 + u, 0 · 64 + o)`. -/
theorem cut_whole6 (c : Dev nD) (t : Fin cfg0.N) (R : Buf (Elt F) ((c : Thread nD τ).loc main_v5_0)) :
    (cfg0.win 6).cut (grid0.coords t) R = ((cfg0.win 6).blk t).view.read (Elt F) R := by
  obtain ⟨e0, e1⟩ := idx0_6 t
  funext j
  rw [View.read_apply]
  show R ((cfg0.win 6).xinj (grid0.coords t) j) = R (((cfg0.win 6).blk t).view.emb j)
  refine congrArg R (funext fun a => Fin.ext ?_)
  match a with
  | ⟨0, _⟩ => show (j 0).val = win0_6.index t (0 : Fin 2) * 1 + 1 * (j 0).val; rw [e0]; omega
  | ⟨1, _⟩ => show (j 1).val = win0_6.index t (1 : Fin 2) * 64 + 1 * (j 1).val; rw [e1]; omega

/-- The one write-back of window 6, at the last point, writes the whole array. -/
theorem flushed6_eq (c : Dev nD) (t : Fin cfg0.N) (hf : (cfg0.win 6).flush t = true) :
    (dat0 V c).flushed 6 t = ((cfg0.win 6).blk t).view.read (Elt F) (lastRow6 V c) := by
  have hN : cfg0.N = 500 := N_0
  have h3 : t.val = 499 := by have := (flush0_6 t).mp hf; have := t.isLt; omega
  -- the point is the last one, so its buffer is the last point's
  have same : (outsAt0 V c t.val t.isLt).1 = lastRow6 V c :=
    congrArg Prod.fst (outsAt0_congr V c t.val tLast.val t.isLt tLast.isLt h3)
  show (cfg0.win 6).cut (grid0.coords t) ((dat0 V c).after 6 t) = _
  rw [after0_6, same]
  exact cut_whole6 c t _

/-- An index of the [1, 64] array is in window 6's block at a point iff each coordinate is in the block's range. -/
theorem mem6 (t : Fin cfg0.N) (i : S1x64.Idx) :
    i ∈ ((cfg0.win 6).blk t).view.set ↔ ∀ a : Fin 2, win0_6.index t a * S1x64.size a ≤ (i a).val ∧ (i a).val < win0_6.index t a * S1x64.size a + S1x64.size a := by
  show i ∈ ((View.whole main_v5_0).slice (win0_6.rect t)).set ↔ _
  rw [View.set_slice_whole, Rect.mem_set_unit]
  exact Iff.rfl

/-- So after the first kernel the array of window 6 holds what the last point left in its buffer: the last point
    writes back, and its block, at index (0, 0), holds every index of the array. -/
theorem final6 (c : Dev nD) : (dat0 V c).arrAt 6 cfg0.N = lastRow6 V c :=
  (dat0 V c).arrAt_eq_of_cover 6 (lastRow6 V c) (flushed6_eq V c) fun i =>
    ⟨tLast, (flush0_6 tLast).mpr rfl, by
      rw [mem6]
      obtain ⟨e0, e1⟩ := idx0_6 tLast
      have h0 : (i 0).val < 1 := (i 0).isLt
      have h1 : (i 1).val < 64 := (i 1).isLt
      intro a
      match a with
      | ⟨0, _⟩ => show win0_6.index tLast (0 : Fin 2) * 1 ≤ (i 0).val ∧ (i 0).val < win0_6.index tLast (0 : Fin 2) * 1 + 1; rw [e0]; omega
      | ⟨1, _⟩ => show win0_6.index tLast (1 : Fin 2) * 64 ≤ (i 1).val ∧ (i 1).val < win0_6.index tLast (1 : Fin 2) * 64 + 64; rw [e1]; omega⟩

/-- The block index of window 7 is `(0, 0)` at every point. -/
theorem idx0_7 : ∀ t : Fin cfg0.N, win0_7.index t (0 : Fin 2) = 0 ∧ win0_7.index t (1 : Fin 2) = 0 :=
  (by decide +kernel : ∀ t : Fin grid0.N, _)

/-- The block of window 7 is the whole [1, 64] array at every point: cutting a row to it and reading an array
    through it are the same row, whatever the row. Element `(u, o)` of the block sits at `(0 · 1 + u, 0 · 64 + o)`. -/
theorem cut_whole7 (c : Dev nD) (t : Fin cfg0.N) (R : Buf (Elt F) ((c : Thread nD τ).loc main_v5_1)) :
    (cfg0.win 7).cut (grid0.coords t) R = ((cfg0.win 7).blk t).view.read (Elt F) R := by
  obtain ⟨e0, e1⟩ := idx0_7 t
  funext j
  rw [View.read_apply]
  show R ((cfg0.win 7).xinj (grid0.coords t) j) = R (((cfg0.win 7).blk t).view.emb j)
  refine congrArg R (funext fun a => Fin.ext ?_)
  match a with
  | ⟨0, _⟩ => show (j 0).val = win0_7.index t (0 : Fin 2) * 1 + 1 * (j 0).val; rw [e0]; omega
  | ⟨1, _⟩ => show (j 1).val = win0_7.index t (1 : Fin 2) * 64 + 1 * (j 1).val; rw [e1]; omega

/-- The one write-back of window 7, at the last point, writes the whole array. -/
theorem flushed7_eq (c : Dev nD) (t : Fin cfg0.N) (hf : (cfg0.win 7).flush t = true) :
    (dat0 V c).flushed 7 t = ((cfg0.win 7).blk t).view.read (Elt F) (lastRow7 V c) := by
  have hN : cfg0.N = 500 := N_0
  have h3 : t.val = 499 := by have := (flush0_7 t).mp hf; have := t.isLt; omega
  -- the point is the last one, so its buffer is the last point's
  have same : (outsAt0 V c t.val t.isLt).2 = lastRow7 V c :=
    congrArg Prod.snd (outsAt0_congr V c t.val tLast.val t.isLt tLast.isLt h3)
  show (cfg0.win 7).cut (grid0.coords t) ((dat0 V c).after 7 t) = _
  rw [after0_7, same]
  exact cut_whole7 c t _

/-- An index of the [1, 64] array is in window 7's block at a point iff each coordinate is in the block's range. -/
theorem mem7 (t : Fin cfg0.N) (i : S1x64.Idx) :
    i ∈ ((cfg0.win 7).blk t).view.set ↔ ∀ a : Fin 2, win0_7.index t a * S1x64.size a ≤ (i a).val ∧ (i a).val < win0_7.index t a * S1x64.size a + S1x64.size a := by
  show i ∈ ((View.whole main_v5_1).slice (win0_7.rect t)).set ↔ _
  rw [View.set_slice_whole, Rect.mem_set_unit]
  exact Iff.rfl

/-- So after the first kernel the array of window 7 holds what the last point left in its buffer: the last point
    writes back, and its block, at index (0, 0), holds every index of the array. -/
theorem final7 (c : Dev nD) : (dat0 V c).arrAt 7 cfg0.N = lastRow7 V c :=
  (dat0 V c).arrAt_eq_of_cover 7 (lastRow7 V c) (flushed7_eq V c) fun i =>
    ⟨tLast, (flush0_7 tLast).mpr rfl, by
      rw [mem7]
      obtain ⟨e0, e1⟩ := idx0_7 tLast
      have h0 : (i 0).val < 1 := (i 0).isLt
      have h1 : (i 1).val < 64 := (i 1).isLt
      intro a
      match a with
      | ⟨0, _⟩ => show win0_7.index tLast (0 : Fin 2) * 1 ≤ (i 0).val ∧ (i 0).val < win0_7.index tLast (0 : Fin 2) * 1 + 1; rw [e0]; omega
      | ⟨1, _⟩ => show win0_7.index tLast (1 : Fin 2) * 64 ≤ (i 1).val ∧ (i 1).val < win0_7.index tLast (1 : Fin 2) * 64 + 64; rw [e1]; omega⟩

end Cert.KernelIdeal.SumRows

end
-- ==== Proof.Boundaries.lean ====
/-
  The buffers the second kernel reads, walked back through the program's four stretches (host operations, first
  kernel, host operations, second kernel). The voxel, count, centre and weight-piece arrays are inputs of the first
  kernel, which leaves them as it found them, and no host operation between the kernels writes them: they are still
  what the first stretch made of the arguments. The scale and shift rows are the scale and shift arguments laid out
  as rows. The mean and variance rows are computed from the first kernel's two result rows, which hold what its last
  grid point left in their buffers.
-/
import proofs.«144879_j40235253629489_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import proofs.«144879_j40235253629489_2_alg».proof.Proof.HostBefore
import proofs.«144879_j40235253629489_2_alg».proof.Proof.HostBetween
import proofs.«144879_j40235253629489_2_alg».proof.Proof.SumRows
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Boundaries

open Cert.KernelIdeal Cert.KernelIdeal.Gen

variable {F : FTy → Type} [FloatOps F]
variable (m : (ℓ : Loc nD τ sig) → Buf (Elt F) ℓ) (ρ : Dev nD → PrngReg)

/-! ## The six shared operands -/

theorem vox (c : Dev nD) : V3 m ρ c main_arg0 = m ((c : Thread nD τ).loc main_arg0) :=
  (Cert.KernelIdeal.HostBetween.keep_arg0 (W2 m ρ c)).trans (((W2_arr m ρ c 0).trans (((dat0 (V1 m ρ) c).arrAt_in 0 rfl _).trans (A_eq0 (V1 m ρ) c 0))).trans (Cert.KernelIdeal.HostBefore.vox_eq m ρ c))

theorem cnt (c : Dev nD) : V3 m ρ c main_v0 = V1 m ρ c main_v0 :=
  (Cert.KernelIdeal.HostBetween.keep_v0 (W2 m ρ c)).trans ((W2_arr m ρ c 1).trans (((dat0 (V1 m ρ) c).arrAt_in 1 rfl _).trans (A_eq0 (V1 m ρ) c 1)))

theorem ctr (c : Dev nD) : V3 m ρ c main_arg2 = m ((c : Thread nD τ).loc main_arg2) :=
  (Cert.KernelIdeal.HostBetween.keep_arg2 (W2 m ρ c)).trans (((W2_arr m ρ c 2).trans (((dat0 (V1 m ρ) c).arrAt_in 2 rfl _).trans (A_eq0 (V1 m ρ) c 2))).trans (Cert.KernelIdeal.HostBefore.ctr_eq m ρ c))

theorem wa (c : Dev nD) : V3 m ρ c main_v2 = V1 m ρ c main_v2 :=
  (Cert.KernelIdeal.HostBetween.keep_v2 (W2 m ρ c)).trans ((W2_arr m ρ c 3).trans (((dat0 (V1 m ρ) c).arrAt_in 3 rfl _).trans (A_eq0 (V1 m ρ) c 3)))

theorem wb (c : Dev nD) : V3 m ρ c main_v3 = V1 m ρ c main_v3 :=
  (Cert.KernelIdeal.HostBetween.keep_v3 (W2 m ρ c)).trans ((W2_arr m ρ c 4).trans (((dat0 (V1 m ρ) c).arrAt_in 4 rfl _).trans (A_eq0 (V1 m ρ) c 4)))

theorem wc (c : Dev nD) : V3 m ρ c main_v4 = V1 m ρ c main_v4 :=
  (Cert.KernelIdeal.HostBetween.keep_v4 (W2 m ρ c)).trans ((W2_arr m ρ c 5).trans (((dat0 (V1 m ρ) c).arrAt_in 5 rfl _).trans (A_eq0 (V1 m ρ) c 5)))

/-! ## The scale and shift arguments reach the second stretch untouched -/

theorem scaleArg (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)

theorem shiftArg (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

/-! ## The first kernel's two rows at its exit -/

theorem sumRow (c : Dev nD) : W2 m ρ c (Proc.devRef .tc main_v5_0) = Cert.KernelIdeal.SumRows.lastRow6 (V1 m ρ) c :=
  (W2_arr m ρ c 6).trans (Cert.KernelIdeal.SumRows.final6 (V1 m ρ) c)

theorem sqRow (c : Dev nD) : W2 m ρ c (Proc.devRef .tc main_v5_1) = Cert.KernelIdeal.SumRows.lastRow7 (V1 m ρ) c :=
  (W2_arr m ρ c 7).trans (Cert.KernelIdeal.SumRows.final7 (V1 m ρ) c)

end Cert.KernelIdeal.Boundaries

end
-- ==== Proof.StatsPieces.lean ====
/-
  What the two kernel bodies leave in their output buffers, as the bodies' own arithmetic terms of the input
  blocks. The first kernel keeps two running rows (the sum of the activations and the sum of their squares, per
  output channel): at the first grid point it overwrites each with zero and then adds the block's contribution, at
  every later point it adds the block's contribution to what it finds. The second kernel stores one [200, 64] block,
  the pooled and normalised activations of its 200 pillars. Every load and store is of a whole buffer, so a buffer's
  contents after the body are the last store's value with every load read as the block it loads.
-/
import proofs.«144879_j40235253629489_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first grid point the body stores the zero row, reads it back and stores the row plus the block's sum:
    output 6's buffer ends at that payload over the zero row. -/
theorem out_A_6 (c : Dev nD) (i : grid0.Coords) (a1 : Memref sig .tc .vmem S200x32x4 .f32) (h1 : a1.IsWhole) (a2 : Memref sig .tc .vmem S200x1 .i32) (h2 : a2.IsWhole) (a3 : Memref sig .tc .vmem S200x2 .f32) (h3 : a3.IsWhole) (a4 : Memref sig .tc .vmem S4x64 .f32) (h4 : a4.IsWhole) (a5 : Memref sig .tc .vmem S3x64 .f32) (h5 : a5.IsWhole) (a6 : Memref sig .tc .vmem S2x64 .f32) (h6 : a6.IsWhole) (a7 : Memref sig .tc .vmem S1x64 .f32) (h7 : a7.IsWhole) (a8 : Memref sig .tc .vmem S1x64 .f32) (h8 : a8.IsWhole) (hc : cond0_0 i) (x0 : Vec F S200x32x4 .f32) (x1 : Vec F S200x1 .i32) (x2 : Vec F S200x2 .f32) (x3 : Vec F S4x64 .f32) (x4 : Vec F S3x64 .f32) (x5 : Vec F S2x64 .f32) :
    out0_A_6 c i a1 h1 a2 h2 a3 h3 a4 h4 a5 h5 a6 h6 a7 h7 a8 h8 hc x0 x1 x2 x3 x4 x5 = k0_pay2 (k0_pay6 x1) (k0_pay7 x0 x2 x1 x3 x4 x5) (k0_pay4 (F := F)) := by
  unfold out0_A_6
  rw [View.read_writes_eq_canon _ _ _ (cover0_A_6 c i a1 h1 a2 h2 a3 h3 a4 h4 a5 h5 a6 h6 a7 h7 a8 h8 hc x0 x1 x2 x3 x4 x5)]
  unfold kernelRun0_A
  dsimp only
  sl_unfold_words
  rw [View.canon_cons_unit_zero (S := S1x64) hz2, View.readCov_unit_zero (S := S1x64) _ hz2]
  simp only [View.readAt_eq_ld, h1.read_unread, h2.read_unread, h3.read_unread, h4.read_unread, h5.read_unread, h6.read_unread, h7.read_unread, h8.read_unread, View.ld_unit_zero (S := S200x32x4) hz3, View.ld_unit_zero (S := S200x1) hz2, View.ld_unit_zero (S := S200x2) hz2, View.ld_unit_zero (S := S4x64) hz2, View.ld_unit_zero (S := S3x64) hz2, View.ld_unit_zero (S := S2x64) hz2, View.ld_unit_zero (S := S1x64) hz2]

/-- At the first grid point the body stores the zero row, reads it back and stores the row plus the block's sum:
    output 7's buffer ends at that payload over the zero row. -/
theorem out_A_7 (c : Dev nD) (i : grid0.Coords) (a1 : Memref sig .tc .vmem S200x32x4 .f32) (h1 : a1.IsWhole) (a2 : Memref sig .tc .vmem S200x1 .i32) (h2 : a2.IsWhole) (a3 : Memref sig .tc .vmem S200x2 .f32) (h3 : a3.IsWhole) (a4 : Memref sig .tc .vmem S4x64 .f32) (h4 : a4.IsWhole) (a5 : Memref sig .tc .vmem S3x64 .f32) (h5 : a5.IsWhole) (a6 : Memref sig .tc .vmem S2x64 .f32) (h6 : a6.IsWhole) (a7 : Memref sig .tc .vmem S1x64 .f32) (h7 : a7.IsWhole) (a8 : Memref sig .tc .vmem S1x64 .f32) (h8 : a8.IsWhole) (hc : cond0_0 i) (x0 : Vec F S200x32x4 .f32) (x1 : Vec F S200x1 .i32) (x2 : Vec F S200x2 .f32) (x3 : Vec F S4x64 .f32) (x4 : Vec F S3x64 .f32) (x5 : Vec F S2x64 .f32) :
    out0_A_7 c i a1 h1 a2 h2 a3 h3 a4 h4 a5 h5 a6 h6 a7 h7 a8 h8 hc x0 x1 x2 x3 x4 x5 = k0_pay3 (k0_pay6 x1) (k0_pay7 x0 x2 x1 x3 x4 x5) (k0_pay5 (F := F)) := by
  unfold out0_A_7
  rw [View.read_writes_eq_canon _ _ _ (cover0_A_7 c i a1 h1 a2 h2 a3 h3 a4 h4 a5 h5 a6 h6 a7 h7 a8 h8 hc x0 x1 x2 x3 x4 x5)]
  unfold kernelRun0_A
  dsimp only
  sl_unfold_words
  rw [View.canon_cons_unit_zero (S := S1x64) hz2, View.readCov_unit_zero (S := S1x64) _ hz2]
  simp only [View.readAt_eq_ld, h1.read_unread, h2.read_unread, h3.read_unread, h4.read_unread, h5.read_unread, h6.read_unread, h7.read_unread, h8.read_unread, View.ld_unit_zero (S := S200x32x4) hz3, View.ld_unit_zero (S := S200x1) hz2, View.ld_unit_zero (S := S200x2) hz2, View.ld_unit_zero (S := S4x64) hz2, View.ld_unit_zero (S := S3x64) hz2, View.ld_unit_zero (S := S2x64) hz2, View.ld_unit_zero (S := S1x64) hz2]

/-- At every later grid point the body adds the block's sum to the row it finds: output 6's buffer ends at that
    payload over what the point before left there. -/
theorem out_B_6 (c : Dev nD) (i : grid0.Coords) (a1 : Memref sig .tc .vmem S200x32x4 .f32) (h1 : a1.IsWhole) (a2 : Memref sig .tc .vmem S200x1 .i32) (h2 : a2.IsWhole) (a3 : Memref sig .tc .vmem S200x2 .f32) (h3 : a3.IsWhole) (a4 : Memref sig .tc .vmem S4x64 .f32) (h4 : a4.IsWhole) (a5 : Memref sig .tc .vmem S3x64 .f32) (h5 : a5.IsWhole) (a6 : Memref sig .tc .vmem S2x64 .f32) (h6 : a6.IsWhole) (a7 : Memref sig .tc .vmem S1x64 .f32) (h7 : a7.IsWhole) (a8 : Memref sig .tc .vmem S1x64 .f32) (h8 : a8.IsWhole) (hc : ¬cond0_0 i) (x0 : Vec F S200x32x4 .f32) (x1 : Vec F S200x1 .i32) (x2 : Vec F S200x2 .f32) (x3 : Vec F S4x64 .f32) (x4 : Vec F S3x64 .f32) (x5 : Vec F S2x64 .f32) (xo6 xo7 : Vec F S1x64 .f32) :
    out0_B_6 c i a1 h1 a2 h2 a3 h3 a4 h4 a5 h5 a6 h6 a7 h7 a8 h8 hc x0 x1 x2 x3 x4 x5 xo6 xo7 = k0_pay2 (k0_pay6 x1) (k0_pay7 x0 x2 x1 x3 x4 x5) xo6 := by
  unfold out0_B_6
  rw [View.read_writes_eq_canon _ _ _ (cover0_B_6 c i a1 h1 a2 h2 a3 h3 a4 h4 a5 h5 a6 h6 a7 h7 a8 h8 hc x0 x1 x2 x3 x4 x5 xo6 xo7)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S200x32x4) hz3, View.ld_unit_zero (S := S200x1) hz2, View.ld_unit_zero (S := S200x2) hz2, View.ld_unit_zero (S := S4x64) hz2, View.ld_unit_zero (S := S3x64) hz2, View.ld_unit_zero (S := S2x64) hz2, View.ld_unit_zero (S := S1x64) hz2]

/-- At every later grid point the body adds the block's sum to the row it finds: output 7's buffer ends at that
    payload over what the point before left there. -/
theorem out_B_7 (c : Dev nD) (i : grid0.Coords) (a1 : Memref sig .tc .vmem S200x32x4 .f32) (h1 : a1.IsWhole) (a2 : Memref sig .tc .vmem S200x1 .i32) (h2 : a2.IsWhole) (a3 : Memref sig .tc .vmem S200x2 .f32) (h3 : a3.IsWhole) (a4 : Memref sig .tc .vmem S4x64 .f32) (h4 : a4.IsWhole) (a5 : Memref sig .tc .vmem S3x64 .f32) (h5 : a5.IsWhole) (a6 : Memref sig .tc .vmem S2x64 .f32) (h6 : a6.IsWhole) (a7 : Memref sig .tc .vmem S1x64 .f32) (h7 : a7.IsWhole) (a8 : Memref sig .tc .vmem S1x64 .f32) (h8 : a8.IsWhole) (hc : ¬cond0_0 i) (x0 : Vec F S200x32x4 .f32) (x1 : Vec F S200x1 .i32) (x2 : Vec F S200x2 .f32) (x3 : Vec F S4x64 .f32) (x4 : Vec F S3x64 .f32) (x5 : Vec F S2x64 .f32) (xo6 xo7 : Vec F S1x64 .f32) :
    out0_B_7 c i a1 h1 a2 h2 a3 h3 a4 h4 a5 h5 a6 h6 a7 h7 a8 h8 hc x0 x1 x2 x3 x4 x5 xo6 xo7 = k0_pay3 (k0_pay6 x1) (k0_pay7 x0 x2 x1 x3 x4 x5) xo7 := by
  unfold out0_B_7
  rw [View.read_writes_eq_canon _ _ _ (cover0_B_7 c i a1 h1 a2 h2 a3 h3 a4 h4 a5 h5 a6 h6 a7 h7 a8 h8 hc x0 x1 x2 x3 x4 x5 xo6 xo7)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S200x32x4) hz3, View.ld_unit_zero (S := S200x1) hz2, View.ld_unit_zero (S := S200x2) hz2, View.ld_unit_zero (S := S4x64) hz2, View.ld_unit_zero (S := S3x64) hz2, View.ld_unit_zero (S := S2x64) hz2, View.ld_unit_zero (S := S1x64) hz2]

/-- The second kernel's one store: the pooled block, from the linear layer and the mask of the loaded blocks and the
    four loaded rows (mean, variance, scale, shift). -/
theorem out1_10_eq (x0 : Vec F S200x32x4 .f32) (x1 : Vec F S200x1 .i32) (x2 : Vec F S200x2 .f32) (x3 : Vec F S4x64 .f32)
    (x4 : Vec F S3x64 .f32) (x5 : Vec F S2x64 .f32) (x6 x7 x8 x9 : Vec F S1x64 .f32) :
    out1_10 x0 x1 x2 x3 x4 x5 x6 x7 x8 x9 = k1_pay1 (k1_pay3 x0 x2 x1 x3 x4 x5) (k1_pay4 x1) x6 x7 x8 x9 := by
  unfold out1_10
  rw [View.canon_unit_zero hz2]
  simp only [View.ld_unit_zero (S := S200x32x4) hz3, View.ld_unit_zero (S := S200x1) hz2, View.ld_unit_zero (S := S200x2) hz2, View.ld_unit_zero (S := S4x64) hz2, View.ld_unit_zero (S := S3x64) hz2, View.ld_unit_zero (S := S2x64) hz2, View.ld_unit_zero (S := S1x64) hz2]

end Cert.KernelIdeal.Pieces

end
-- ==== Proof.LibMiddleAxis.lean ====
/-
  Layout operations and one-axis reductions of ranks 2 and 3, read at coordinates.

  A shape cast reads its operand at the index with the same row-major position; a broadcast reads it at the index
  that is 0 on the operand's unit axes; a reduction over one axis reads, at a reduced index, the source along that
  axis with the reduced index's coordinates around it. Stated over arbitrary extents, every index written by its
  coordinates:

    a trailing unit axis added       [a, b] -> [a, b, 1]
    that unit axis repeated          [a, b, 1] -> [a, b, c]
    the middle axis reduced          [a, b, c] -> [a, c] : sum, and maximum folded from the accumulator's value
    the leading axis reduced         [a, b] -> [b] : sum

  Imports only the library.
-/
import Idealize.ShloMosaic.Lib.Pipeline.Value
import Idealize.ShloMosaic.Lib.ValueIdx
import Idealize.ShloMosaic.PureOps.Ideal.Laws

namespace Idealize.ShloMosaic.MiddleAxis

open Idealize.ShloMosaic Idealize.ShloMosaic.ValueIdx

variable {α : Type}

/-- An `[a, b]` array cast to `[a, b, 1]` reads, at `(i, j, u)`, the operand at `(i, j)`: both have row-major
    position `i · b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, k, j)`, the operand at `(i, k, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The reduced index `(i, j)` with `k` put back on the middle axis is `(i, k, j)`. -/
theorem lift_middle {a b c : ℕ} (h : (⟨3, ![a, b, c]⟩ : Shape).Reduces [1] ⟨2, ![a, c]⟩) (i : Fin a) (j : Fin c)
    (k : Fin b) : h.lift (ix2 i j) k = ix3 i k j := by
  funext d
  apply Fin.ext
  match d with
  | ⟨0, _⟩ => rfl
  | ⟨1, _⟩ => rfl
  | ⟨2, _⟩ => rfl

/-- The reduced index `j` with `k` put back on the leading axis is `(k, j)`. -/
theorem lift_leading {a b : ℕ} (h : (⟨2, ![a, b]⟩ : Shape).Reduces [0] ⟨1, ![b]⟩) (j : Fin b) (k : Fin a) :
    h.lift (ix1 j) k = ix2 k j := by
  funext d
  apply Fin.ext
  match d with
  | ⟨0, _⟩ => rfl
  | ⟨1, _⟩ => rfl

/-- A sum over the middle axis: at `(i, j)`, the sum over `k` of the entries `(i, k, j)`. -/
theorem multiReduction_add_middle {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (i : Fin a) (j : Fin c) :
    multiReduction .add [1] ⟨2, ![a, c]⟩ src acc h hφ hacc (ix2 i j) = ∑ k : Fin b, src (ix3 i k j) :=
  (Ideal.multiReduction_add_single src acc h hφ hacc (ix2 i j)).trans
    (Finset.sum_congr rfl fun k _ => congrArg src (lift_middle h i j k))

/-- A maximum over the middle axis: at `(i, j)`, the maximum folded from the accumulator's value over the entries
    `(i, k, j)`. -/
theorem multiReduction_maximumf_middle {a b c : ℕ} {φ : FTy} (src : FVec Ideal ⟨3, ![a, b, c]⟩ φ)
    (acc : BitVec φ.bits) (h : (⟨3, ![a, b, c]⟩ : Shape).Reduces [1] ⟨2, ![a, c]⟩) (hφ : FKind.Formats φ)
    (hacc : acc = FKind.maximumf.neutral φ hφ) (i : Fin a) (j : Fin c) :
    multiReduction .maximumf [1] ⟨2, ![a, c]⟩ src acc h hφ hacc (ix2 i j)
      = (Finset.univ : Finset (Fin b)).fold max (Ideal.ofBits φ acc) (fun k => src (ix3 i k j)) :=
  (Ideal.multiReduction_maximumf_single src acc h hφ hacc (ix2 i j)).trans
    (congrArg (fun f : Fin b → EReal => (Finset.univ : Finset (Fin b)).fold max (Ideal.ofBits φ acc) f)
      (funext fun k => congrArg src (lift_middle h i j k)))

/-- A sum over the leading axis: at `j`, the sum over `k` of the entries `(k, j)`. -/
theorem multiReduction_add_leading {a b : ℕ} {φ : FTy} (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_leading h j k))

end Idealize.ShloMosaic.MiddleAxis
-- ==== Proof.LibJointLayout.lean ====
/-
  Layout operations of small ranks read at coordinates: the casts and broadcasts a kernel uses to pair every row of
  one matrix with every row of another and to flatten the pairs into the rows of one matrix.

  A shape cast reads the operand at the index with the same row-major position, a broadcast at the index whose
  coordinates on the operand's unit axes are `0`. Stated here over arbitrary extents, with both indices written by
  their coordinates:

    unit axes dropped            [1, 1, a, b] → [a, b],   [1, a, 1, b] → [a, b]
    a unit axis put in the middle [a, c] → [a, 1, c]
    two leading unit axes added   [c] → [1, 1, c]
    a matrix's rows repeated      [a, 1, c] → [a, b, c]  (along the new middle axis),  [1, b, c] → [a, b, c]  (along the new leading axis)
    a vector repeated             [1, 1, c] → [a, b, c]
    pairs flattened and restored  [a, b, c] → [n, c]  and  [n, c] → [a, b, c]  with  n = a · b : row  i · b + k  is the pair  (i, k).

  Imports only the library.
-/
import Idealize.ShloMosaic.Lib.Pipeline.Value
import Idealize.ShloMosaic.Lib.ValueIdx

namespace Idealize.ShloMosaic.JointLayout

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    simp only [Nat.zero_mul, Nat.zero_add, Nat.add_zero, Nat.mul_one])

/-- An `[a, c]` array cast to `[a, 1, c]` reads, at `(i, u, j)`, the operand at `(i, j)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * c + j.val
    simp only [hu, hw, Nat.zero_mul, Nat.zero_add, Nat.mul_one])

/-- An `[a, 1, c]` array broadcast to `[a, b, c]` reads, at `(i, k, j)`, the operand at `(i, 0, j)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A `[1, 1, c]` array broadcast to `[a, b, c]` reads, at `(i, k, j)`, the operand at `(0, 0, j)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- An `[a, b, c]` array cast to `[n, c]` reads, at row `r = i · b + k` and column `j`, the operand at `(i, k, j)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (i : Fin a) (k : Fin b) (j : Fin c)
    (hr : r.val = i.val * b + k.val) :
    shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[n, c]` array cast to `[a, b, c]` reads, at `(i, k, j)`, the operand at row `r = i · b + k` and column `j`. -/
theorem shapeCast_nc_abc_apply {a b c n : ℕ} (x : (⟨2, ![n, c]⟩ : Shape).Idx → α)
    (h : (⟨2, ![n, c]⟩ : Shape).ShapeCasts ⟨3, ![a, b, c]⟩) (r : Fin n) (i : Fin a) (k : Fin b) (j : Fin c)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

end Idealize.ShloMosaic.JointLayout
-- ==== Proof.BodyStats.lean ====
/-
  What each kernel body stores, read at an index.

  The second kernel's body multiplies an activation array a[r, p, o] by a 0/1 mask m[r, p], normalises each channel o
  with a mean row, a variance row, a scale row and a shift row (each one row of 64 channels, repeated over the 200
  pillars and 32 slots of the block), clips below at 0 and takes, per pillar r and channel o, the maximum over the
  32 slots folded from minus infinity.  The first kernel's body adds to a running row, per channel o, the sum over
  the block's 200 pillars and 32 slots of the masked activation, and to a second running row the sum of its square;
  at the first grid point both running rows are set to zero.
-/
import proofs.«144879_j40235253629489_2_alg».proof.Proof.Gen.KernelIdeal.Skeleton
import proofs.«144879_j40235253629489_2_alg».proof.Proof.PillarSpec
import proofs.«144879_j40235253629489_2_alg».proof.Proof.LibMiddleAxis
import proofs.«144879_j40235253629489_2_alg».proof.Proof.LibJointLayout
import Idealize.ShloMosaic.Lib.ValueLayout

noncomputable section

namespace Cert.KernelIdeal.BodyStats

open Cert.KernelIdeal Cert.KernelIdeal.Gen Idealize.ShloMosaic Idealize.ShloMosaic.ValueIdx Idealize.ShloMosaic.MiddleAxis

/-- The mask, given a trailing unit axis and repeated over the channels, reads at `(r, p, o)` the mask at `(r, p)`. -/
theorem mask_at (m : FVec Ideal S200x32 .f32) (r : Fin 200) (p : Fin 32) (o : Fin 64) :
    broadcastTo S200x32x64 (shapeCast S200x32x1 m shapeCasts_S200x32_S200x32x1) broadcasts_S200x32x1_S200x32x64
      (ix3 r p o) = m (ix2 r p) :=
  (broadcastTo_ab1_abc_apply _ _ r p o).trans (shapeCast_ab_ab1_apply m _ r p 0)

/-- A loaded row of 64 channels, given two leading unit axes and repeated over pillars and slots, reads at
    `(r, p, o)` the row's entry of channel `o`. -/
theorem row_at (v : Vec Ideal S1x64 .f32) (r : Fin 200) (p : Fin 32) (o : Fin 64) :
    broadcastTo S200x32x64 (shapeCast S1x1x64 (shapeCast S1x64 v shapeCasts_S1x64_S1x64) shapeCasts_S1x64_S1x1x64)
      broadcasts_S1x1x64_S200x32x64 (ix3 r p o) = v (ix2 0 o) :=
  (JointLayout.broadcastTo_11c_abc_apply _ _ r p o).trans
    ((shapeCast_ab_1ab_apply _ _ 0 0 o).trans (congrFun (shapeCast_self v _) (ix2 0 o)))

/-- The reciprocal square root of the variance row plus the offset, taken on the one row and then repeated, reads at
    `(r, p, o)` the reciprocal square root of channel `o`'s entry plus the offset. -/
theorem rsqrt_row_at (v : Vec Ideal S1x64 .f32) (w : BitVec 32) (r : Fin 200) (p : Fin 32) (o : Fin 64) :
    broadcastTo S200x32x64
        (rsqrt (addf (shapeCast S1x1x64 (shapeCast S1x64 v shapeCasts_S1x64_S1x64) shapeCasts_S1x64_S1x1x64)
          (broadcast S1x1x64 (FloatOps.ofBits (F := Ideal) .f32 w))))
        broadcasts_S1x1x64_S200x32x64 (ix3 r p o)
      = Ideal.rsqrt (v (ix2 0 o) + Ideal.ofBits .f32 w) :=
  (JointLayout.broadcastTo_11c_abc_apply _ _ r p o).trans
    (congrArg (fun x : EReal => Ideal.rsqrt (x + Ideal.ofBits .f32 w))
      ((shapeCast_ab_1ab_apply _ _ 0 0 o).trans (congrFun (shapeCast_self v _) (ix2 0 o))))

/-- The second kernel's stored block at pillar `r` and channel `o`: the maximum over the 32 slots, folded from minus
    infinity, of the masked activation normalised, scaled, shifted and clipped below at 0. -/
theorem k1_pool (v36 : FVec Ideal S200x32x64 .f32) (v41 : FVec Ideal S200x32 .f32)
    (v45 v48 v51 v54 : Vec Ideal S1x64 .f32) (r : Fin 200) (o : Fin 64) :
    k1_pay1 (F := Ideal) v36 v41 v45 v48 v51 v54 (ix2 r o)
      = (Finset.univ : Finset (Fin 32)).fold max Cert.Pillar.floorWord
          (fun p => Cert.Pillar.unitOf (v36 (ix3 r p o) * v41 (ix2 r p)) (v45 (ix2 0 o)) (v48 (ix2 0 o))
            (v51 (ix2 0 o)) (v54 (ix2 0 o))) := by
  unfold k1_pay1
  refine (multiReduction_maximumf_middle _ _ _ _ _ r o).trans ?_
  refine congrArg (fun f : Fin 32 → EReal => (Finset.univ : Finset (Fin 32)).fold max _ f) (funext fun p => ?_)
  rw [maximumf_apply, addf_apply, mulf_apply, mulf_apply, subf_apply, mulf_apply, mask_at, row_at, row_at, row_at,
    rsqrt_row_at, broadcast_apply]
  exact congrArg (max _) Ideal.ofBits_zero_f32

/-- A block summed over its slots, then over its pillars, viewed as one row: at channel `o`, the sum over the 200
    pillars and the 32 slots of the block's entries of that channel. -/
theorem sum_row_at (src : FVec Ideal S200x32x64 .f32) (o : Fin 64) :
    shapeCast S1x64
        (multiReduction .add [0] S64
          (multiReduction .add [1] S200x64 src 0x00000000#32 reduces_S200x32x64_S200x64 (.inl rfl) rfl)
          0x00000000#32 reduces_S200x64_S64 (.inl rfl) rfl)
        shapeCasts_S64_S1x64 (ix2 0 o)
      = ∑ r : Fin 200, ∑ p : Fin 32, src (ix3 r p o) :=
  (shapeCast_a_1a_apply _ _ 0 o).trans
    ((multiReduction_add_leading _ _ _ _ _ o).trans
      (Finset.sum_congr rfl fun r _ => multiReduction_add_middle src _ _ _ _ r o))

/-- The first kernel's first stored row at channel `o`: the running row's entry plus the sum of the block's masked
    activations of that channel. -/
theorem k0_add1 (v6 : IVec S200x1 32) (v38 : FVec Ideal S6400x64 .f32) (v55 : Vec Ideal S1x64 .f32) (o : Fin 64) :
    k0_pay2 (F := Ideal) v6 v38 v55 (ix2 0 o)
      = v55 (ix2 0 o) + ∑ r : Fin 200, ∑ p : Fin 32, k0_pay1 (F := Ideal) v6 v38 (ix3 r p o) := by
  unfold k0_pay2
  rw [addf_apply, sum_row_at, shapeCast_self]

/-- The first kernel's second stored row at channel `o`: the running row's entry plus the sum of the squares of the
    block's masked activations of that channel. -/
theorem k0_add2 (v6 : IVec S200x1 32) (v38 : FVec Ideal S6400x64 .f32) (v59 : Vec Ideal S1x64 .f32) (o : Fin 64) :
    k0_pay3 (F := Ideal) v6 v38 v59 (ix2 0 o)
      = v59 (ix2 0 o) + ∑ r : Fin 200, ∑ p : Fin 32,
          k0_pay1 (F := Ideal) v6 v38 (ix3 r p o) * k0_pay1 (F := Ideal) v6 v38 (ix3 r p o) := by
  unfold k0_pay3
  rw [addf_apply, sum_row_at, shapeCast_self]
  rfl

/-- The row the first kernel stores into the first running row at the first grid point is zero at every channel. -/
theorem k0_zero4 (o : Fin 64) : k0_pay4 (F := Ideal) (ix2 0 o) = 0 := by
  unfold k0_pay4
  exact Ideal.ofBits_zero_f32

/-- The row it stores into the second running row there is zero at every channel too. -/
theorem k0_zero5 (o : Fin 64) : k0_pay5 (F := Ideal) (ix2 0 o) = 0 := by
  unfold k0_pay5
  exact Ideal.ofBits_zero_f32

end Cert.KernelIdeal.BodyStats

end
-- ==== Proof.LibColumnLayout.lean ====
/-
  Layout operations read at an index given by coordinates, for the shapes a kernel meets when it works on a square
  tile one column at a time and stores the tile into a stack of tiles:

  * a column `[a, 1]` broadcast over `[a, b]` reads, at `(p, c)`, the column's entry `p`;
  * an `[a, b]` array cast to `[1, 1, a, b]` reads, at `(u, v, i, j)`, the operand at `(i, j)`;
  * a rank-4 array whose axes are permuted by `[0, 2, 3, 1]` (a channel axis moved from second to last) reads, at
    `(m, i, j, c)`, the operand at `(m, c, i, j)`.

  Each is the general lemma of the layout library with the coordinate arithmetic discharged.
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A rank-4 array with its second axis moved last (permutation `[0, 2, 3, 1]`) reads, at `(m, i, j, c)`, the
    operand at `(m, c, i, j)`. -/
theorem transpose_ix4_0231_apply {n c a b : ℕ} (x : (⟨4, ![n, c, a, b]⟩ : Shape).Idx → α)
    (h : (⟨4, ![n, c, a, b]⟩ : Shape).Transposes [0, 2, 3, 1] ⟨4, ![n, a, b, c]⟩)
    (m : Fin n) (i : Fin a) (j : Fin b) (k : Fin c) :
    transpose ⟨4, ![n, a, b, c]⟩ [0, 2, 3, 1] x h (ix4 m i j k) = x (ix4 m k i j) :=
  transpose_apply _ x h _ _ fun d => match d with
    | ⟨0, _⟩ => rfl | ⟨1, _⟩ => rfl | ⟨2, _⟩ => rfl | ⟨3, _⟩ => rfl

end Idealize.ShloMosaic.ValueIdx
-- ==== Proof.BodyActLayout.lean ====
/-
  Four layout readings the masked activation needs and the layout library does not state.

  A slice that keeps the leading channels of the last axis reads the operand at the same coordinates; a sum over the
  middle axis of a rank-3 array is, at (i, j), the sum over k of the entries (i, k, j); a matrix cast to rank 3 with a
  trailing unit axis reads the matrix at the first two coordinates; and a rank-3 array with a trailing unit axis
  repeated along that axis reads the operand at (i, k, 0).
-/
import Idealize.ShloMosaic.PureOps.Ideal.Laws
import Idealize.ShloMosaic.Lib.ValueIdx
import Idealize.ShloMosaic.Lib.Pipeline.Value

namespace Cert.KernelIdeal.BodyAct

open Idealize.ShloMosaic Idealize.ShloMosaic.ValueIdx

variable {α : Type}

/-- The slice at offset (0, 0, 0) keeping the first c' of c channels reads, at (i, k, j), the operand at (i, k, j). -/
theorem slice_lead_apply {a b c c' : ℕ} (hle : c' ≤ c) (x : (⟨3, ![a, b, c]⟩ : Shape).Idx → α)
    (h : (⟨3, ![a, b, c]⟩ : Shape).Slices ![0, 0, 0] ⟨3, ![a, b, c']⟩) (i : Fin a) (k : Fin b) (j : Fin c') :
    extractStridedSlice ⟨3, ![a, b, c']⟩ ![0, 0, 0] x h (ix3 i k j) = x (ix3 i k (Fin.castLE hle j)) :=
  extractStridedSlice_apply _ x h _ _ fun ax => by
    match ax with
    | ⟨0, _⟩ => exact (Nat.zero_add _).symm
    | ⟨1, _⟩ => exact (Nat.zero_add _).symm
    | ⟨2, _⟩ => exact (Nat.zero_add _).symm

/-- Entry (i, j) of the reduced array with k put back on the middle axis is the index (i, k, j). -/
theorem lift_middle {a b c : ℕ} (h : (⟨3, ![a, b, c]⟩ : Shape).Reduces [1] ⟨2, ![a, c]⟩) (i : Fin a) (j : Fin c)
    (k : Fin b) : h.lift (ix2 i j) k = ix3 i k j := by
  funext ax
  apply Fin.ext
  match ax with
  | ⟨0, _⟩ => rfl
  | ⟨1, _⟩ => rfl
  | ⟨2, _⟩ => rfl

/-- A sum over the middle axis: at (i, j), the sum over k of the entries (i, k, j). -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (i : Fin a) (j : Fin c) :
    multiReduction .add [1] ⟨2, ![a, c]⟩ src acc h hφ hacc (ix2 i j) = ∑ k : Fin b, src (ix3 i k j) := by
  refine (Ideal.multiReduction_add_single src acc h hφ hacc (ix2 i j)).trans ?_
  exact Finset.sum_congr rfl fun k _ => congrArg src (lift_middle h i j k)

/-- An [a, b] array cast to [a, b, 1] reads, at (i, k, u), the operand at (i, k). -/
theorem shapeCast_ab_ab1_apply {a b : ℕ} (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array repeated along its last axis to [a, b, c] reads, at (i, k, j), the operand at (i, k, 0). -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

end Cert.KernelIdeal.BodyAct
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.BodyActMatmul.lean ====
/-
  The three matrix products of the linear layer, read at an entry.

  Each product multiplies the 6400 rows (one row per pillar and slot) of a feature piece by the 64 columns of a weight
  piece and accumulates into zero; on the extended reals its entry (q, o) is the plain sum, over the piece's 4, 3 or 2
  features k, of row q's feature k times weight (k, o). What is checked here, per dimension record, is only that it
  contracts the left operand's second axis with the right operand's first and has no batch axis.
-/
import proofs.«144879_j40235253629489_2_alg».proof.Proof.Gen.KernelIdeal.Skeleton
import proofs.«144879_j40235253629489_2_alg».proof.Proof.LibMatmulRowsByCols

namespace Cert.KernelIdeal.BodyAct

open Cert.KernelIdeal Cert.KernelIdeal.Gen Idealize.ShloMosaic Idealize.ShloMosaic.ValueIdx

/-- The dimension records of the three products, by their contraction length. -/
abbrev dims4 : DotDims S6400x4 S4x64 S6400x64 := dot_S6400x4_S4x64_S6400x64_1_0_0_1_n_n
abbrev dims3 : DotDims S6400x3 S3x64 S6400x64 := dot_S6400x3_S3x64_S6400x64_1_0_0_1_n_n
abbrev dims2 : DotDims S6400x2 S2x64 S6400x64 := dot_S6400x2_S2x64_S6400x64_1_0_0_1_n_n

/-- Four features against the first weight piece. -/
theorem matmul4_apply (l : FVec Ideal S6400x4 .bf16) (w : FVec Ideal S4x64 .bf16) (q : Fin 6400) (o : Fin 64) :
    matmul dims4 none l w (constant (F := Ideal) S6400x64 .f32 0x00000000#32) (ix2 q o)
      = ∑ k : Fin 4, l (ix2 q k) * w (ix2 k o) :=
  MatmulRowsByCols.matmul_zero_apply dims4 rfl rfl
    (fun j c => by
      unfold DotDims.lhsIdx
      rw [dif_neg (show ¬(0 : Fin S6400x4.rank) ∈ dims4.lhsBatch by decide),
        dif_pos (show (0 : Fin S6400x4.rank) ∈ dims4.lhsNonContracting by decide)]
      rfl)
    (fun j c => dims4.lhsIdx_val_of_single rfl j c)
    (fun j c => dims4.rhsIdx_val_of_single rfl j c)
    (fun j c => by
      unfold DotDims.rhsIdx
      rw [dif_neg (show ¬(1 : Fin S4x64.rank) ∈ dims4.rhsBatch by decide),
        dif_pos (show (1 : Fin S4x64.rank) ∈ dims4.rhsNonContracting by decide)]
      rfl)
    none l w q o

/-- Three features against the second weight piece. -/
theorem matmul3_apply (l : FVec Ideal S6400x3 .bf16) (w : FVec Ideal S3x64 .bf16) (q : Fin 6400) (o : Fin 64) :
    matmul dims3 none l w (constant (F := Ideal) S6400x64 .f32 0x00000000#32) (ix2 q o)
      = ∑ k : Fin 3, l (ix2 q k) * w (ix2 k o) :=
  MatmulRowsByCols.matmul_zero_apply dims3 rfl rfl
    (fun j c => by
      unfold DotDims.lhsIdx
      rw [dif_neg (show ¬(0 : Fin S6400x3.rank) ∈ dims3.lhsBatch by decide),
        dif_pos (show (0 : Fin S6400x3.rank) ∈ dims3.lhsNonContracting by decide)]
      rfl)
    (fun j c => dims3.lhsIdx_val_of_single rfl j c)
    (fun j c => dims3.rhsIdx_val_of_single rfl j c)
    (fun j c => by
      unfold DotDims.rhsIdx
      rw [dif_neg (show ¬(1 : Fin S3x64.rank) ∈ dims3.rhsBatch by decide),
        dif_pos (show (1 : Fin S3x64.rank) ∈ dims3.rhsNonContracting by decide)]
      rfl)
    none l w q o

/-- Two features against the third weight piece. -/
theorem matmul2_apply (l : FVec Ideal S6400x2 .bf16) (w : FVec Ideal S2x64 .bf16) (q : Fin 6400) (o : Fin 64) :
    matmul dims2 none l w (constant (F := Ideal) S6400x64 .f32 0x00000000#32) (ix2 q o)
      = ∑ k : Fin 2, l (ix2 q k) * w (ix2 k o) :=
  MatmulRowsByCols.matmul_zero_apply dims2 rfl rfl
    (fun j c => by
      unfold DotDims.lhsIdx
      rw [dif_neg (show ¬(0 : Fin S6400x2.rank) ∈ dims2.lhsBatch by decide),
        dif_pos (show (0 : Fin S6400x2.rank) ∈ dims2.lhsNonContracting by decide)]
      rfl)
    (fun j c => dims2.lhsIdx_val_of_single rfl j c)
    (fun j c => dims2.rhsIdx_val_of_single rfl j c)
    (fun j c => by
      unfold DotDims.rhsIdx
      rw [dif_neg (show ¬(1 : Fin S2x64.rank) ∈ dims2.rhsBatch by decide),
        dif_pos (show (1 : Fin S2x64.rank) ∈ dims2.rhsNonContracting by decide)]
      rfl)
    none l w q o

end Cert.KernelIdeal.BodyAct
-- ==== Proof.BodyAct.lean ====
/-
  The masked activation of a block of 200 pillars, as each of the two kernels computes it, read at one slot and one
  output channel.

  Both kernels build the same [6400, 64] array, one row per pillar r and slot p (row 32 r + p): the row's four
  channels, its first three channels minus the pillar's centroid and its first two minus the pillar's centre, each
  multiplied into its own weight piece, the three products added left to right. Read at row 32 r + p and column o this
  is the three-piece contraction of the specification (Pillar.lin) on pillar r's 32 x 4 points, its count word and its
  centre. Both also build the same [200, 32] liveness mask: the count compared (signed) with the slot number, the one-bit
  answer widened and converted, which is the specification's 0/1 indicator (Pillar.keep). The second kernel keeps the
  two apart; the first multiplies them, which is Pillar.act.

  Every step is a reading of one operation at an index: a sum over the slot axis is a finite sum, a division by the
  broadcast count is the division by that pillar's count, a change of layout moves coordinates and nothing else, a
  change of float format is the identity on the extended reals, and a matrix product into zero is a finite sum.
-/
import proofs.«144879_j40235253629489_2_alg».proof.Proof.Gen.KernelIdeal.Skeleton
import proofs.«144879_j40235253629489_2_alg».proof.Proof.PillarSpec
import proofs.«144879_j40235253629489_2_alg».proof.Proof.LibColumnLayout
import proofs.«144879_j40235253629489_2_alg».proof.Proof.LibJointLayout
import proofs.«144879_j40235253629489_2_alg».proof.Proof.BodyActLayout
import proofs.«144879_j40235253629489_2_alg».proof.Proof.BodyActMatmul
import Idealize.ShloMosaic.Lib.ValueIdx
import Idealize.ShloMosaic.Lib.Pipeline.Value
import Idealize.ShloMosaic.PureOps.Ideal.Laws

noncomputable section

namespace Cert.KernelIdeal.BodyAct

open Cert.KernelIdeal Cert.KernelIdeal.Gen Idealize.ShloMosaic Idealize.ShloMosaic.ValueIdx

/-! ## The liveness mask -/

/-- A one-bit word widened to 32 bits and converted as a signed integer is the bit's value, 0 or 1. -/
theorem sitofp_bit (c : BitVec 1) :
    FloatOps.sitofp (F := Ideal) .f32 (c.setWidth 32) = (((c.toNat : ℕ) : ℝ) : EReal) := by
  have h : ((c.setWidth 32).toInt : ℤ) = ((c.toNat : ℕ) : ℤ) := by
    rcases BitVec.eq_zero_or_eq_one c with h | h <;> subst h <;> decide
  show ((((c.setWidth 32).toInt : ℤ) : ℝ) : EReal) = _
  rw [h, Int.cast_natCast]

/-- The second kernel's mask at pillar r, slot p: the indicator of p being below pillar r's count. The count column is
    repeated along the slots, the slot numbers are the coordinates of the slot axis, and the comparison bit is
    converted to 0 or 1. -/
theorem k1_keep (v2 : Vec Ideal S200x1 .i32) (r : Fin 200) (p : Fin 32) :
    k1_pay4 (F := Ideal) v2 (ix2 r p) = Cert.Pillar.keep (v2 (ix2 r 0)) p := by
  unfold k1_pay4 k1_pay2
  refine (sitofp_bit _).trans ?_
  unfold Cert.Pillar.keep Cert.Pillar.keepBit
  have hA : broadcastTo S200x32 (shapeCast S200x1 v2 shapeCasts_S200x1_S200x1) broadcasts_S200x1_S200x32 (ix2 r p)
      = v2 (ix2 r 0) :=
    (broadcastTo_a1_ab_apply _ _ r p).trans (congrFun (shapeCast_self v2 _) _)
  have hB : iota .tc S200x32 32 [1] iota_S200x32_d1_w32 (ix2 r p) = BitVec.ofNat 32 p.val :=
    iota_single_apply .tc S200x32 32 1 iota_S200x32_d1_w32 (ix2 r p)
  exact congrArg (fun c : BitVec 1 => (((c.toNat : ℕ) : ℝ) : EReal)) (congrArg₂ (IntOp.cmpi .sgt) hA hB)

/-! ## The linear layer -/

/-- The row of the [6400, 64] array that holds pillar r's slot p. -/
def row (r : Fin 200) (p : Fin 32) : Fin 6400 := ⟨r.val * 32 + p.val, by have := r.isLt; have := p.isLt; omega⟩

/-- The [6400, 64] sum of the three products at the row q of pillar r's slot p and column o: the specification's
    three-piece contraction on pillar r. In each product the row's feature k is read back through the flattening of
    (pillar, slot) into rows; the centroid's channel k is the sum over all 32 slots of channel k divided by the
    pillar's count, repeated along the slots; the centre is repeated along the slots. -/
theorem rows_lin (v3 : Vec Ideal S200x32x4 .f32) (v4 : Vec Ideal S200x2 .f32) (v5 : Vec Ideal S200x1 .i32)
    (v22 : Vec Ideal S4x64 .f32) (v25 : Vec Ideal S3x64 .f32) (v28 : Vec Ideal S2x64 .f32)
    (r : Fin 200) (p : Fin 32) (o : Fin 64) (q : Fin 6400) (hq : q.val = r.val * 32 + p.val) :
    k0_pay7 (F := Ideal) v3 v4 v5 v22 v25 v28 (ix2 q o)
      = Cert.Pillar.lin (fun p c => v3 (ix3 r p c)) (v5 (ix2 r 0)) (fun c => v4 (ix2 r c))
          (fun k o => v22 (ix2 k o)) (fun k o => v25 (ix2 k o)) (fun k o => v28 (ix2 k o)) p o := by
  unfold k0_pay7 k0_pay6 Cert.Pillar.lin
  rw [addf_apply, addf_apply]
  refine congrArg₂ (· + ·) (congrArg₂ (· + ·) ?_ ?_) ?_
  · -- the four channels themselves
    refine (matmul4_apply _ _ q o).trans (Finset.sum_congr rfl fun k _ => ?_)
    rw [truncf_apply, truncf_apply, shapeCast_self, JointLayout.shapeCast_abc_nc_apply v3 _ q r p k hq]
  · -- the first three channels minus the centroid
    refine (matmul3_apply _ _ q o).trans (Finset.sum_congr rfl fun k _ => ?_)
    rw [truncf_apply, truncf_apply, shapeCast_self v25, JointLayout.shapeCast_abc_nc_apply _ _ q r p k hq, subf_apply]
    refine congrArg₂ (· * ·) (congrArg₂ (· - ·) (slice_lead_apply _ v3 _ r p k) ?_) rfl
    refine (JointLayout.broadcastTo_a1c_abc_apply _ _ r p k).trans
      ((JointLayout.shapeCast_ac_a1c_apply _ _ r 0 k).trans ?_)
    rw [divf_apply]
    unfold Cert.Pillar.centroid Cert.Pillar.count
    refine congrArg₂ Ideal.div ?_ ?_
    · exact (sum_middle_apply _ _ _ _ _ r k).trans
        (Finset.sum_congr rfl fun p' _ => slice_lead_apply _ v3 _ r p' k)
    · refine (broadcastTo_a1_ab_apply _ _ r k).trans ?_
      rw [sitofp_apply, shapeCast_self]
      rfl
  · -- the first two channels minus the centre
    refine (matmul2_apply _ _ q o).trans (Finset.sum_congr rfl fun k _ => ?_)
    rw [truncf_apply, truncf_apply, shapeCast_self, JointLayout.shapeCast_abc_nc_apply _ _ q r p k hq, subf_apply]
    refine congrArg₂ (· * ·) (congrArg₂ (· - ·) (slice_lead_apply _ v3 _ r p k) ?_) rfl
    exact (JointLayout.broadcastTo_a1c_abc_apply _ _ r p k).trans (JointLayout.shapeCast_ac_a1c_apply _ _ r 0 k)

/-- The second kernel's linear layer at pillar r, slot p, channel o: the [6400, 64] sum viewed as [200, 32, 64]. -/
theorem k1_lin (v0 : Vec Ideal S200x32x4 .f32) (v1 : Vec Ideal S200x2 .f32) (v2 : Vec Ideal S200x1 .i32)
    (v19 : Vec Ideal S4x64 .f32) (v22 : Vec Ideal S3x64 .f32) (v25 : Vec Ideal S2x64 .f32)
    (r : Fin 200) (p : Fin 32) (o : Fin 64) :
    k1_pay3 (F := Ideal) v0 v1 v2 v19 v22 v25 (ix3 r p o)
      = Cert.Pillar.lin (fun p c => v0 (ix3 r p c)) (v2 (ix2 r 0)) (fun c => v1 (ix2 r c))
          (fun k o => v19 (ix2 k o)) (fun k o => v22 (ix2 k o)) (fun k o => v25 (ix2 k o)) p o := by
  -- the two kernels spell the [6400, 64] sum with the same operations
  have e : k1_pay3 (F := Ideal) v0 v1 v2 v19 v22 v25
      = shapeCast S200x32x64 (k0_pay7 (F := Ideal) v0 v1 v2 v19 v22 v25) shapeCasts_S6400x64_S200x32x64 := rfl
  rw [e]
  exact (JointLayout.shapeCast_nc_abc_apply _ _ (row r p) r p o rfl).trans
    (rows_lin v0 v1 v2 v19 v22 v25 r p o (row r p) rfl)

/-- The first kernel's masked activation at pillar r, slot p, channel o: the linear layer there times the indicator
    of the slot being live, the mask being repeated along the channels. -/
theorem k0_act (v3 : Vec Ideal S200x32x4 .f32) (v4 : Vec Ideal S200x2 .f32) (v5 : Vec Ideal S200x1 .i32)
    (v22 : Vec Ideal S4x64 .f32) (v25 : Vec Ideal S3x64 .f32) (v28 : Vec Ideal S2x64 .f32)
    (r : Fin 200) (p : Fin 32) (o : Fin 64) :
    k0_pay1 (F := Ideal) (k0_pay6 v5) (k0_pay7 v3 v4 v5 v22 v25 v28) (ix3 r p o)
      = Cert.Pillar.act (fun p c => v3 (ix3 r p c)) (v5 (ix2 r 0)) (fun c => v4 (ix2 r c))
          (fun k o => v22 (ix2 k o)) (fun k o => v25 (ix2 k o)) (fun k o => v28 (ix2 k o)) p o := by
  unfold k0_pay1 Cert.Pillar.act
  rw [mulf_apply]
  refine congrArg₂ (· * ·) ?_ ?_
  · exact (JointLayout.shapeCast_nc_abc_apply _ _ (row r p) r p o rfl).trans
      (rows_lin v3 v4 v5 v22 v25 v28 r p o (row r p) rfl)
  · refine (broadcastTo_ab1_abc_apply _ _ r p o).trans ((shapeCast_ab_ab1_apply _ _ r p 0).trans ?_)
    exact k1_keep v5 r p

end Cert.KernelIdeal.BodyAct

end
-- ==== Proof.AccumulateRows.lean ====
/-
  The two running rows of the first kernel, over the extended reals, after each grid point: channel o of the sum
  row is the sum, over the points so far, of each point's block contribution - the activations of the block's 200
  pillars and 32 slots in channel o, added up - and channel o of the sum-of-squares row is the same with every
  activation squared. The first point starts both rows from zero; every later point adds to what it finds. By
  induction on the point, never by running through the 500 points.
-/
import proofs.«144879_j40235253629489_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import proofs.«144879_j40235253629489_2_alg».proof.Proof.StatsPieces
import proofs.«144879_j40235253629489_2_alg».proof.Proof.BodyStats
import proofs.«144879_j40235253629489_2_alg».proof.Proof.BodyAct
import proofs.«144879_j40235253629489_2_alg».proof.Proof.PillarSpec
set_option maxRecDepth 16384

noncomputable section

open Idealize.ShloMosaic Idealize.ShloMosaic.TcCoe Idealize.SL.Sem Idealize.ShloMosaic.ValueIdx
open Idealize.ShloMosaic.Pipeline (Dat)

namespace Cert.KernelIdeal.AccumulateRows

open Cert.KernelIdeal Cert.KernelIdeal.Gen

variable (V : (c : Dev nD) → (b : Ref sig .tc) → Buf (Elt Ideal) ((c : Thread nD τ).loc b))

attribute [local irreducible] Cert.KernelIdeal.Gen.outsAt0

/-- One pillar of a block of 200: slot p's activation in channel o, from the six loaded blocks. -/
abbrev blockAct (x0 : Vec Ideal S200x32x4 .f32) (x1 : Vec Ideal S200x1 .i32) (x2 : Vec Ideal S200x2 .f32) (x3 : Vec Ideal S4x64 .f32) (x4 : Vec Ideal S3x64 .f32) (x5 : Vec Ideal S2x64 .f32) (r : Fin 200) (p : Fin 32) (o : Fin 64) : EReal :=
  Cert.Pillar.act (fun p c => x0 (ix3 r p c)) (x1 (ix2 r 0)) (fun c => x2 (ix2 r c)) (fun k o => x3 (ix2 k o))
    (fun k o => x4 (ix2 k o)) (fun k o => x5 (ix2 k o)) p o

/-- A block's contribution to channel o of the sum row. -/
def blockSum1 (x0 : Vec Ideal S200x32x4 .f32) (x1 : Vec Ideal S200x1 .i32) (x2 : Vec Ideal S200x2 .f32) (x3 : Vec Ideal S4x64 .f32) (x4 : Vec Ideal S3x64 .f32) (x5 : Vec Ideal S2x64 .f32) (o : Fin 64) : EReal := ∑ r : Fin 200, ∑ p : Fin 32, blockAct x0 x1 x2 x3 x4 x5 r p o
/-- A block's contribution to channel o of the sum-of-squares row. -/
def blockSum2 (x0 : Vec Ideal S200x32x4 .f32) (x1 : Vec Ideal S200x1 .i32) (x2 : Vec Ideal S200x2 .f32) (x3 : Vec Ideal S4x64 .f32) (x4 : Vec Ideal S3x64 .f32) (x5 : Vec Ideal S2x64 .f32) (o : Fin 64) : EReal :=
  ∑ r : Fin 200, ∑ p : Fin 32, blockAct x0 x1 x2 x3 x4 x5 r p o * blockAct x0 x1 x2 x3 x4 x5 r p o

/-- The body's new sum row: the row it loaded plus the block's contribution. -/
theorem pay2_apply (x0 : Vec Ideal S200x32x4 .f32) (x1 : Vec Ideal S200x1 .i32) (x2 : Vec Ideal S200x2 .f32) (x3 : Vec Ideal S4x64 .f32) (x4 : Vec Ideal S3x64 .f32) (x5 : Vec Ideal S2x64 .f32) (acc : Vec Ideal S1x64 .f32) (o : Fin 64) :
    k0_pay2 (F := Ideal) (k0_pay6 x1) (k0_pay7 x0 x2 x1 x3 x4 x5) acc (ix2 0 o) = acc (ix2 0 o) + blockSum1 x0 x1 x2 x3 x4 x5 o := by
  rw [Cert.KernelIdeal.BodyStats.k0_add1]
  unfold blockSum1
  congr 1
  exact Finset.sum_congr rfl fun r _ => Finset.sum_congr rfl fun p _ => Cert.KernelIdeal.BodyAct.k0_act x0 x2 x1 x3 x4 x5 r p o

/-- The body's new sum-of-squares row. -/
theorem pay3_apply (x0 : Vec Ideal S200x32x4 .f32) (x1 : Vec Ideal S200x1 .i32) (x2 : Vec Ideal S200x2 .f32) (x3 : Vec Ideal S4x64 .f32) (x4 : Vec Ideal S3x64 .f32) (x5 : Vec Ideal S2x64 .f32) (acc : Vec Ideal S1x64 .f32) (o : Fin 64) :
    k0_pay3 (F := Ideal) (k0_pay6 x1) (k0_pay7 x0 x2 x1 x3 x4 x5) acc (ix2 0 o) = acc (ix2 0 o) + blockSum2 x0 x1 x2 x3 x4 x5 o := by
  rw [Cert.KernelIdeal.BodyStats.k0_add2]
  unfold blockSum2
  congr 1
  exact Finset.sum_congr rfl fun r _ => Finset.sum_congr rfl fun p _ => by
    rw [Cert.KernelIdeal.BodyAct.k0_act x0 x2 x1 x3 x4 x5 r p o]

/-- The first point: both rows are the block's contribution (zero plus it). -/
theorem first_point (c : Dev nD) (t : Fin cfg0.N) (h0 : t.val % 500 = 0) (o : Fin 64) :
    (outsAt0 V c t.val t.isLt).1 (ix2 0 o) = blockSum1 (iblk0 V c 0 t) (iblk0 V c 1 t) (iblk0 V c 2 t) (iblk0 V c 3 t) (iblk0 V c 4 t) (iblk0 V c 5 t) o
    ∧ (outsAt0 V c t.val t.isLt).2 (ix2 0 o) = blockSum2 (iblk0 V c 0 t) (iblk0 V c 1 t) (iblk0 V c 2 t) (iblk0 V c 3 t) (iblk0 V c 4 t) (iblk0 V c 5 t) o := by
  rw [outsAt0_A V c t h0]
  dsimp only
  rw [Cert.KernelIdeal.Pieces.out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t) (iblk0 V c 5 t),
    Cert.KernelIdeal.Pieces.out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t) (iblk0 V c 5 t),
    pay2_apply (iblk0 V c 0 t) (iblk0 V c 1 t) (iblk0 V c 2 t) (iblk0 V c 3 t) (iblk0 V c 4 t) (iblk0 V c 5 t) (k0_pay4 (F := Ideal)) o, pay3_apply (iblk0 V c 0 t) (iblk0 V c 1 t) (iblk0 V c 2 t) (iblk0 V c 3 t) (iblk0 V c 4 t) (iblk0 V c 5 t) (k0_pay5 (F := Ideal)) o,
    Cert.KernelIdeal.BodyStats.k0_zero4, Cert.KernelIdeal.BodyStats.k0_zero5, zero_add, zero_add]
  exact ⟨rfl, rfl⟩

/-- A later point: each row is what the point before left plus the block's contribution. -/
theorem later_point (c : Dev nD) (t : Fin cfg0.N) (h0 : ¬t.val % 500 = 0) (o : Fin 64) :
    (outsAt0 V c t.val t.isLt).1 (ix2 0 o)
      = (outsAt0 V c (t.val - 1) (Nat.lt_of_le_of_lt (Nat.sub_le _ _) t.isLt)).1 (ix2 0 o) + blockSum1 (iblk0 V c 0 t) (iblk0 V c 1 t) (iblk0 V c 2 t) (iblk0 V c 3 t) (iblk0 V c 4 t) (iblk0 V c 5 t) o
    ∧ (outsAt0 V c t.val t.isLt).2 (ix2 0 o)
      = (outsAt0 V c (t.val - 1) (Nat.lt_of_le_of_lt (Nat.sub_le _ _) t.isLt)).2 (ix2 0 o) + blockSum2 (iblk0 V c 0 t) (iblk0 V c 1 t) (iblk0 V c 2 t) (iblk0 V c 3 t) (iblk0 V c 4 t) (iblk0 V c 5 t) o := by
  rw [outsAt0_B V c t h0]
  dsimp only
  rw [Cert.KernelIdeal.Pieces.out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (iblk0 V c 5 t)
      (outsAt0 V c (t.val - 1) (Nat.lt_of_le_of_lt (Nat.sub_le _ _) t.isLt)).1 (outsAt0 V c (t.val - 1) (Nat.lt_of_le_of_lt (Nat.sub_le _ _) t.isLt)).2,
    Cert.KernelIdeal.Pieces.out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (iblk0 V c 5 t)
      (outsAt0 V c (t.val - 1) (Nat.lt_of_le_of_lt (Nat.sub_le _ _) t.isLt)).1 (outsAt0 V c (t.val - 1) (Nat.lt_of_le_of_lt (Nat.sub_le _ _) t.isLt)).2,
    pay2_apply (iblk0 V c 0 t) (iblk0 V c 1 t) (iblk0 V c 2 t) (iblk0 V c 3 t) (iblk0 V c 4 t) (iblk0 V c 5 t) _ o, pay3_apply (iblk0 V c 0 t) (iblk0 V c 1 t) (iblk0 V c 2 t) (iblk0 V c 3 t) (iblk0 V c 4 t) (iblk0 V c 5 t) _ o]
  exact ⟨rfl, rfl⟩

/-- Point n's contribution to channel o of the sum row (nothing past the grid). -/
def term1 (c : Dev nD) (n : ℕ) (o : Fin 64) : EReal :=
  if h : n < cfg0.N then blockSum1 (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) o else 0
/-- Point n's contribution to channel o of the sum-of-squares row. -/
def term2 (c : Dev nD) (n : ℕ) (o : Fin 64) : EReal :=
  if h : n < cfg0.N then blockSum2 (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) o else 0

/-- After point n the rows hold the contributions of points 0 .. n, added up. -/
theorem rows_at (c : Dev nD) (o : Fin 64) : ∀ (n : ℕ) (h : n < cfg0.N),
    (outsAt0 V c n h).1 (ix2 0 o) = ∑ s ∈ Finset.range (n + 1), term1 V c s o
    ∧ (outsAt0 V c n h).2 (ix2 0 o) = ∑ s ∈ Finset.range (n + 1), term2 V c s o
  | 0, h => by
    have e := first_point V c ⟨0, h⟩ rfl o
    rw [Finset.sum_range_one, Finset.sum_range_one]
    unfold term1 term2
    rw [dif_pos h, dif_pos h]
    exact e
  | n + 1, h => by
    have hN : cfg0.N = 500 := N_0
    have hB : ¬(⟨n + 1, h⟩ : Fin cfg0.N).val % 500 = 0 := by dsimp only; omega
    have e := later_point V c ⟨n + 1, h⟩ hB o
    have ih := rows_at c o n (Nat.lt_of_succ_lt h)
    rw [Finset.sum_range_succ _ (n + 1), Finset.sum_range_succ _ (n + 1), ← ih.1, ← ih.2]
    have t1 : term1 V c (n + 1) o = blockSum1 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) o := by unfold term1; rw [dif_pos h]
    have t2 : term2 V c (n + 1) o = blockSum2 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) o := by unfold term2; rw [dif_pos h]
    rw [t1, t2]
    exact e

end Cert.KernelIdeal.AccumulateRows

end
-- ==== Proof.LastRows.lean ====
/-
  What the first kernel's last grid point leaves in its two running rows, over the extended reals: channel o of the
  sum row is the 500 points' contributions to that channel added up, and channel o of the sum-of-squares row
  likewise - the rows after a point hold the contributions of the points so far, read at the last point.
-/
import proofs.«144879_j40235253629489_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import proofs.«144879_j40235253629489_2_alg».proof.Proof.SumRows
import proofs.«144879_j40235253629489_2_alg».proof.Proof.AccumulateRows
import proofs.«144879_j40235253629489_2_alg».proof.Proof.PillarSpec
set_option maxRecDepth 16384

noncomputable section

open Idealize.ShloMosaic Idealize.ShloMosaic.TcCoe Idealize.SL.Sem Idealize.ShloMosaic.ValueIdx
open Idealize.ShloMosaic.Pipeline (Dat)

namespace Cert.KernelIdeal.LastRows

open Cert.KernelIdeal Cert.KernelIdeal.Gen

variable (V : (c : Dev nD) → (b : Ref sig .tc) → Buf (Elt Ideal) ((c : Thread nD τ).loc b))

attribute [local irreducible] Cert.KernelIdeal.Gen.outsAt0

open Cert.KernelIdeal.SumRows Cert.KernelIdeal.AccumulateRows

theorem lastRow6_apply (c : Dev nD) (o : Fin 64) :
    (lastRow6 V c : S1x64.Idx → EReal) (ix2 (0 : Fin 1) o) = ∑ s ∈ Finset.range 500, term1 V c s o := by
  unfold lastRow6
  refine ((rows_at V c o tLast.val _).1).trans ?_
  rfl

theorem lastRow7_apply (c : Dev nD) (o : Fin 64) :
    (lastRow7 V c : S1x64.Idx → EReal) (ix2 (0 : Fin 1) o) = ∑ s ∈ Finset.range 500, term2 V c s o := by
  unfold lastRow7
  refine ((rows_at V c o tLast.val _).2).trans ?_
  rfl

end Cert.KernelIdeal.LastRows

end
-- ==== Proof.BlockReads0.lean ====
/-
  The first kernel's blocks at a grid point, read at coordinates of the whole array.

  The first kernel too runs over 500 grid points, point t on pillars 200 t .. 200 t + 199 of the voxel array, the
  count column and the centre array; its three weight pieces are not cut, their one block being the whole array at
  every point.
-/
import proofs.«144879_j40235253629489_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BlockReads

open Cert.KernelIdeal Cert.KernelIdeal.Gen

variable {F : FTy → Type} [FloatOps F]
variable (V : (c : Dev nD) → (b : Ref sig .tc) → Buf (Elt F) ((c : Thread nD τ).loc b))

/-- Pillar `r` of the block of point `t`, as a pillar of the whole array: pillar `200 t + r`. -/
abbrev pil0 (t : Fin cfg0.N) (r : Fin 200) : Fin 100000 :=
  ⟨200 * t.val + r.val, by have := t.isLt; have : cfg0.N = 500 := N_0; omega⟩

/-! ## The printed index maps, decided once over the grid -/

/-- The voxel window's block index at point `t` is `(t, 0, 0)`. -/
theorem idx0_0 : ∀ t : Fin cfg0.N,
    win0_0.index t (0 : Fin 3) = t.val ∧ win0_0.index t (1 : Fin 3) = 0 ∧ win0_0.index t (2 : Fin 3) = 0 :=
  (by decide +kernel : ∀ t : Fin grid0.N, _)
/-- The count column's block index at point `t` is `(t, 0)`. -/
theorem idx0_1 : ∀ t : Fin cfg0.N, win0_1.index t (0 : Fin 2) = t.val ∧ win0_1.index t (1 : Fin 2) = 0 :=
  (by decide +kernel : ∀ t : Fin grid0.N, _)
/-- The centre window's block index at point `t` is `(t, 0)`. -/
theorem idx0_2 : ∀ t : Fin cfg0.N, win0_2.index t (0 : Fin 2) = t.val ∧ win0_2.index t (1 : Fin 2) = 0 :=
  (by decide +kernel : ∀ t : Fin grid0.N, _)
/-- The three weight pieces' block index is `(0, 0)` at every point. -/
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)

/-! ## The blocks that move with the point -/

/-- The voxel block at point `t`: slot `p`, channel `ch4` of its pillar `r` is that of the array's pillar `200 t + r`. -/
theorem vox0 (c : Dev nD) (t : Fin cfg0.N) (r : Fin 200) (p : Fin 32) (ch4 : Fin 4) :
    iblk0 V c 0 t (ix3 r p ch4) = (V c main_arg0 : S100000x32x4.Idx → Elt F .f32) (ix3 (pil0 t r) p ch4) := by
  obtain ⟨e0, e1, e2⟩ := idx0_0 t
  unfold iblk0
  rw [View.read_apply]
  show V c main_arg0 (((cfg0.win 0).blk t).view.emb (ix3 r p ch4)) = V c main_arg0 (ix3 (pil0 t r) p ch4)
  refine congrArg (V c main_arg0) (funext fun a => Fin.ext ?_)
  match a with
  | ⟨0, _⟩ => show win0_0.index t (0 : Fin 3) * 200 + 1 * r.val = 200 * t.val + r.val; rw [e0]; omega
  | ⟨1, _⟩ => show win0_0.index t (1 : Fin 3) * 32 + 1 * p.val = p.val; rw [e1]; omega
  | ⟨2, _⟩ => show win0_0.index t (2 : Fin 3) * 4 + 1 * ch4.val = ch4.val; rw [e2]; omega

/-- The count block at point `t`: its pillar `r` is the column's pillar `200 t + r`. -/
theorem cnt0 (c : Dev nD) (t : Fin cfg0.N) (r : Fin 200) (u : Fin 1) :
    iblk0 V c 1 t (ix2 r u) = (V c main_v0 : S100000x1.Idx → Elt F .i32) (ix2 (pil0 t r) u) := by
  obtain ⟨e0, e1⟩ := idx0_1 t
  unfold iblk0
  rw [View.read_apply]
  show V c main_v0 (((cfg0.win 1).blk t).view.emb (ix2 r u)) = V c main_v0 (ix2 (pil0 t r) u)
  refine congrArg (V c main_v0) (funext fun a => Fin.ext ?_)
  match a with
  | ⟨0, _⟩ => show win0_1.index t (0 : Fin 2) * 200 + 1 * r.val = 200 * t.val + r.val; rw [e0]; omega
  | ⟨1, _⟩ => show win0_1.index t (1 : Fin 2) * 1 + 1 * u.val = u.val; rw [e1]; omega

/-- The centre block at point `t`: coordinate `ch2` of its pillar `r` is that of the array's pillar `200 t + r`. -/
theorem ctr0 (c : Dev nD) (t : Fin cfg0.N) (r : Fin 200) (ch2 : Fin 2) :
    iblk0 V c 2 t (ix2 r ch2) = (V c main_arg2 : S100000x2.Idx → Elt F .f32) (ix2 (pil0 t r) ch2) := by
  obtain ⟨e0, e1⟩ := idx0_2 t
  unfold iblk0
  rw [View.read_apply]
  show V c main_arg2 (((cfg0.win 2).blk t).view.emb (ix2 r ch2)) = V c main_arg2 (ix2 (pil0 t r) ch2)
  refine congrArg (V c main_arg2) (funext fun a => Fin.ext ?_)
  match a with
  | ⟨0, _⟩ => show win0_2.index t (0 : Fin 2) * 200 + 1 * r.val = 200 * t.val + r.val; rw [e0]; omega
  | ⟨1, _⟩ => show win0_2.index t (1 : Fin 2) * 2 + 1 * ch2.val = ch2.val; rw [e1]; omega

/-! ## The blocks that are the whole array at every point -/

/-- The first weight piece's block is the piece itself. -/
theorem wa0 (c : Dev nD) (t : Fin cfg0.N) (k : Fin 4) (o : Fin 64) :
    iblk0 V c 3 t (ix2 k o) = (V c main_v2 : S4x64.Idx → Elt F .f32) (ix2 k o) := by
  obtain ⟨e0, e1⟩ := idx0_3 t
  unfold iblk0
  rw [View.read_apply]
  show V c main_v2 (((cfg0.win 3).blk t).view.emb (ix2 k o)) = V c main_v2 (ix2 k o)
  refine congrArg (V c main_v2) (funext fun a => Fin.ext ?_)
  match a with
  | ⟨0, _⟩ => show win0_3.index t (0 : Fin 2) * 4 + 1 * k.val = k.val; rw [e0]; omega
  | ⟨1, _⟩ => show win0_3.index t (1 : Fin 2) * 64 + 1 * o.val = o.val; rw [e1]; omega

/-- The second weight piece's block is the piece itself. -/
theorem wb0 (c : Dev nD) (t : Fin cfg0.N) (k : Fin 3) (o : Fin 64) :
    iblk0 V c 4 t (ix2 k o) = (V c main_v3 : S3x64.Idx → Elt F .f32) (ix2 k o) := by
  obtain ⟨e0, e1⟩ := idx0_4 t
  unfold iblk0
  rw [View.read_apply]
  show V c main_v3 (((cfg0.win 4).blk t).view.emb (ix2 k o)) = V c main_v3 (ix2 k o)
  refine congrArg (V c main_v3) (funext fun a => Fin.ext ?_)
  match a with
  | ⟨0, _⟩ => show win0_4.index t (0 : Fin 2) * 3 + 1 * k.val = k.val; rw [e0]; omega
  | ⟨1, _⟩ => show win0_4.index t (1 : Fin 2) * 64 + 1 * o.val = o.val; rw [e1]; omega

/-- The third weight piece's block is the piece itself. -/
theorem wc0 (c : Dev nD) (t : Fin cfg0.N) (k : Fin 2) (o : Fin 64) :
    iblk0 V c 5 t (ix2 k o) = (V c main_v4 : S2x64.Idx → Elt F .f32) (ix2 k o) := by
  obtain ⟨e0, e1⟩ := idx0_5 t
  unfold iblk0
  rw [View.read_apply]
  show V c main_v4 (((cfg0.win 5).blk t).view.emb (ix2 k o)) = V c main_v4 (ix2 k o)
  refine congrArg (V c main_v4) (funext fun a => Fin.ext ?_)
  match a with
  | ⟨0, _⟩ => show win0_5.index t (0 : Fin 2) * 2 + 1 * k.val = k.val; rw [e0]; omega
  | ⟨1, _⟩ => show win0_5.index t (1 : Fin 2) * 64 + 1 * o.val = o.val; rw [e1]; omega

end Cert.KernelIdeal.BlockReads

end
-- ==== Proof.StatsTotalPoint.lean ====
/-
  One pillar of one block of the first kernel, read from the arrays as launched.

  At grid point t the first kernel sees pillars 200 t .. 200 t + 199: its voxel, count and centre blocks are those
  rows of the voxel array, of the count column and of the centre array, and its three weight blocks are the three
  row ranges of the transposed weight. The count column is the count vector reshaped, the weight pieces are cut from
  the weight array, and the voxel and centre arrays are as launched. So the six things the pillar function is
  applied to, for pillar r of the block, are the six things `Pillar.actOf` applies it to for pillar 200 t + r of the
  launched arrays, and the block's activation is the array's.
-/
import proofs.«144879_j40235253629489_2_alg».proof.Proof.Gen.KernelIdeal.Frame
import Idealize.ShloMosaic.Lib.ValueIdx
import proofs.«144879_j40235253629489_2_alg».proof.Proof.PillarSpec
import proofs.«144879_j40235253629489_2_alg».proof.Proof.BlockReads0
import proofs.«144879_j40235253629489_2_alg».proof.Proof.HostBefore
set_option maxRecDepth 16384

noncomputable section

open Idealize.ShloMosaic Idealize.ShloMosaic.TcCoe Idealize.SL.Sem Idealize.ShloMosaic.ValueIdx

namespace Cert.KernelIdeal.StatsTotal

open Cert.KernelIdeal Cert.KernelIdeal.Gen

variable (m : (ℓ : Loc nD τ sig) → Buf (Elt Ideal) ℓ) (ρ : Dev nD → PrngReg)

/-- The activations of all 100000 pillars, from the arrays as launched. -/
abbrev launchAct (c : Dev nD) : Fin 100000 → Fin 32 → Fin 64 → EReal :=
  Cert.Pillar.actOf (m ((c : Thread nD τ).loc main_arg0)) (m ((c : Thread nD τ).loc main_arg1))
    (m ((c : Thread nD τ).loc main_arg2)) (m ((c : Thread nD τ).loc main_arg3))

/-- The pillar function depends on its six arguments only. -/
theorem act_congr {vv vv' : Fin 32 → Fin 4 → EReal} {cn cn' : BitVec 32} {ct ct' : Fin 2 → EReal}
    {wa wa' : Fin 4 → Fin 64 → EReal} {wb wb' : Fin 3 → Fin 64 → EReal} {wc wc' : Fin 2 → Fin 64 → EReal}
    (hv : vv = vv') (hn : cn = cn') (ht : ct = ct') (ha : wa = wa') (hb : wb = wb') (hc : wc = wc')
    (p : Fin 32) (o : Fin 64) :
    Cert.Pillar.act vv cn ct wa wb wc p o = Cert.Pillar.act vv' cn' ct' wa' wb' wc' p o := by
  subst hv hn ht ha hb hc
  rfl

/-- Slot p, channel o of pillar r of the block at point t is slot p, channel o of pillar 200 t + r of the arrays. -/
theorem point_act (c : Dev nD) (t : Fin cfg0.N) (r : Fin 200) (p : Fin 32) (o : Fin 64) :
    Cert.Pillar.act (fun p ch => iblk0 (V1 m ρ) c 0 t (ix3 r p ch)) (iblk0 (V1 m ρ) c 1 t (ix2 r 0))
        (fun ch => iblk0 (V1 m ρ) c 2 t (ix2 r ch)) (fun k o => iblk0 (V1 m ρ) c 3 t (ix2 k o))
        (fun k o => iblk0 (V1 m ρ) c 4 t (ix2 k o)) (fun k o => iblk0 (V1 m ρ) c 5 t (ix2 k o)) p o
      = launchAct m c (BlockReads.pil0 t r) p o :=
  act_congr
    (funext fun p => funext fun ch =>
      (BlockReads.vox0 (V1 m ρ) c t r p ch).trans (congrFun (HostBefore.vox_eq m ρ c) (ix3 (BlockReads.pil0 t r) p ch)))
    ((BlockReads.cnt0 (V1 m ρ) c t r 0).trans (HostBefore.counts_apply m ρ c (BlockReads.pil0 t r) 0))
    (funext fun ch =>
      (BlockReads.ctr0 (V1 m ρ) c t r ch).trans (congrFun (HostBefore.ctr_eq m ρ c) (ix2 (BlockReads.pil0 t r) ch)))
    (funext fun k => funext fun o => (BlockReads.wa0 (V1 m ρ) c t k o).trans (HostBefore.wa_apply m ρ c k o))
    (funext fun k => funext fun o => (BlockReads.wb0 (V1 m ρ) c t k o).trans (HostBefore.wb_apply m ρ c k o))
    (funext fun k => funext fun o => (BlockReads.wc0 (V1 m ρ) c t k o).trans (HostBefore.wc_apply m ρ c k o))
    p o

end Cert.KernelIdeal.StatsTotal

end
-- ==== Proof.PillarLawsReal.lean ====
/-
  Reals inside the extended reals: the embedding commutes with finite sums, and sums, differences, products and
  finite sums of embedded reals are embedded reals. (Addition of extended reals is only a commutative monoid, so the
  statement about sums is an induction on the index set.)
-/
import Mathlib.Data.EReal.Operations
import Mathlib.Algebra.BigOperators.Group.Finset.Basic
import Mathlib.Data.Fintype.BigOperators

noncomputable section

namespace Cert.Pillar

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The same for a double sum. -/
theorem coe_sum_sum {ι κ : Type*} [Fintype ι] [Fintype κ] (f : ι → κ → ℝ) :
    ((∑ i, ∑ k, f i k : ℝ) : EReal) = ∑ i, ∑ k, (f i k : EReal) := by
  rw [coe_sum]
  exact Finset.sum_congr rfl fun i _ => coe_sum _ _

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_sub {x y : EReal} (hx : ∃ r : ℝ, x = r) (hy : ∃ r : ℝ, y = r) : ∃ r : ℝ, x - y = r := by
  obtain ⟨a, rfl⟩ := hx
  obtain ⟨b, rfl⟩ := hy
  exact ⟨a - b, (EReal.coe_sub a b).symm⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A finite sum of embedded reals is an embedded real. -/
theorem real_sum {ι : Type*} [Fintype ι] (x : ι → EReal) (hx : ∀ i, ∃ r : ℝ, x i = r) : ∃ r : ℝ, ∑ i, x i = r := by
  choose f hf using hx
  exact ⟨∑ i, f i, by rw [coe_sum]; exact Finset.sum_congr rfl fun i _ => hf i⟩

end Cert.Pillar

end
-- ==== Proof.PillarLawsAct.lean ====
/-
  One pillar: the two spellings of the activation agree, and the activation of real data is a real.

  The liveness indicator of a slot is the natural-number value of a one-bit word, so it is 0 or 1. At 0 both
  spellings are 0, because a product with 0 vanishes on the extended reals whatever the other factor is. At 1 the
  indicator drops out of every product, and the contraction over the 9 features splits into its first 4, next 3
  and last 2 terms by associativity of the sum alone. No distributivity is used, so nothing has to be finite.

  For real data the activation is a real: at indicator 0 it is 0; at indicator 1 the signed comparison says the
  count exceeds a non-negative slot number, so the count is a nonzero real, the centroid is a real sum times a real
  reciprocal, and the rest is finite sums, differences and products of reals.
-/
import Mathlib.Algebra.BigOperators.Fin
import Idealize.ShloMosaic.PureOps.Ideal
import Idealize.ShloMosaic.PureOps.Ideal.Laws
import proofs.«144879_j40235253629489_2_alg».proof.Proof.PillarSpec
import proofs.«144879_j40235253629489_2_alg».proof.Proof.PillarLawsReal

noncomputable section

namespace Cert.Pillar

open Idealize.ShloMosaic

/-- A sum of 9 terms is the sum of its first 4, its next 3 and its last 2. -/
theorem sum_nine_split {M : Type*} [AddCommMonoid M] (g : Fin 9 → M) :
    ∑ k, g k = (∑ k : Fin 4, g (Fin.castLE (by decide) k)) + (∑ k : Fin 3, g ⟨4 + k.val, by omega⟩)
      + (∑ k : Fin 2, g ⟨7 + k.val, by omega⟩) := by
  simp only [Fin.sum_univ_succ, Fin.sum_univ_zero, add_zero, add_assoc]
  rfl

/-- The indicator is 0 or 1. -/
theorem keep_zero_or_one (cn : BitVec 32) (p : Fin 32) : keep cn p = 0 ∨ keep cn p = 1 := by
  unfold keep
  rcases BitVec.eq_zero_or_eq_one (keepBit cn p) with h | h
  · left; rw [h]; simp
  · right; rw [h]; simp

section Slot

variable (vv : Fin 32 → Fin 4 → EReal) (cn : BitVec 32) (ct : Fin 2 → EReal)

/-- The first four features are the channels. -/
theorem feat_chan (p : Fin 32) (k : Fin 4) : feat vv cn ct p (Fin.castLE (by decide) k) = vv p k := by
  unfold feat
  rw [dif_pos (show (Fin.castLE (by decide) k : Fin 9).val < 4 from k.isLt)]
  rfl

/-- The next three are the first three channels minus the centroid. -/
theorem feat_centroid (p : Fin 32) (k : Fin 3) :
    feat vv cn ct p ⟨4 + k.val, by omega⟩ = vv p (Fin.castLE (by decide) k) - centroid vv cn k := by
  unfold feat
  rw [dif_neg (show ¬ (4 + k.val < 4) by omega), dif_pos (show 4 + k.val < 7 by omega)]
  have e : ∀ (h : 4 + k.val - 4 < 3), (⟨4 + k.val - 4, h⟩ : Fin 3) = k := fun h => Fin.ext (by simp)
  have e' : ∀ (h : 4 + k.val - 4 < 4), (⟨4 + k.val - 4, h⟩ : Fin 4) = Fin.castLE (by decide) k :=
    fun h => Fin.ext (by simp)
  rw [e, e']

/-- The last two are the first two channels minus the centre. -/
theorem feat_centre (p : Fin 32) (k : Fin 2) :
    feat vv cn ct p ⟨7 + k.val, by omega⟩ = vv p (Fin.castLE (by decide) k) - ct k := by
  unfold feat
  rw [dif_neg (show ¬ (7 + k.val < 4) by omega), dif_neg (show ¬ (7 + k.val < 7) by omega)]
  have e : ∀ (h : 7 + k.val - 7 < 2), (⟨7 + k.val - 7, h⟩ : Fin 2) = k := fun h => Fin.ext (by simp)
  have e' : ∀ (h : 7 + k.val - 7 < 4), (⟨7 + k.val - 7, h⟩ : Fin 4) = Fin.castLE (by decide) k :=
    fun h => Fin.ext (by simp)
  rw [e, e']

/-- The two spellings of the activation agree, with no hypothesis on the data. -/
theorem actR_eq_act (w9 : Fin 64 → Fin 9 → EReal) (p : Fin 32) (o : Fin 64) :
    actR vv cn ct w9 p o
      = act vv cn ct (fun k o => w9 o (Fin.castLE (by decide) k)) (fun k o => w9 o ⟨4 + k.val, by omega⟩)
          (fun k o => w9 o ⟨7 + k.val, by omega⟩) p o := by
  unfold actR act lin
  rcases keep_zero_or_one cn p with h | h
  · rw [h]
    simp only [mul_zero, zero_mul, Finset.sum_const_zero]
  · rw [h, mul_one, sum_nine_split]
    simp only [mul_one, feat_chan, feat_centroid, feat_centre]

end Slot

/-- A live slot forces a positive count: the signed comparison says the count exceeds the slot number, and a slot
    number below 32 reads as itself, hence as a non-negative integer. -/
theorem count_pos_of_keepBit (cn : BitVec 32) (p : Fin 32) (h : keepBit cn p = 1#1) : 0 < cn.toInt := by
  have h2 : BitVec.ofBool ((BitVec.ofNat 32 p.val).slt cn) = 1#1 := h
  have h' : (BitVec.ofNat 32 p.val).slt cn = true := by
    cases hb : (BitVec.ofNat 32 p.val).slt cn
    · rw [hb] at h2; exact absurd h2 (by decide)
    · rfl
  rw [BitVec.slt, decide_eq_true_iff] at h'
  have e : (BitVec.ofNat 32 p.val).toInt = (p.val : ℤ) := by
    have := p.isLt
    simp [BitVec.toInt, BitVec.toNat_ofNat]
    omega
  omega

section Real

variable {vv : Fin 32 → Fin 4 → EReal} {cn : BitVec 32} {ct : Fin 2 → EReal}
  {wa : Fin 4 → Fin 64 → EReal} {wb : Fin 3 → Fin 64 → EReal} {wc : Fin 2 → Fin 64 → EReal}

/-- With a nonzero count and real channels the centroid is a real: a real sum times the real reciprocal. -/
theorem centroid_real (hv : ∀ p c, ∃ r : ℝ, vv p c = r) (hcn : cn.toInt ≠ 0) (c : Fin 3) :
    ∃ r : ℝ, centroid vv cn c = r := by
  unfold centroid count
  rw [Ideal.div_coe (Int.cast_ne_zero.mpr hcn)]
  exact real_mul (real_sum _ fun p => hv p _) ⟨_, rfl⟩

/-- The three partial contractions of real data with a nonzero count add up to a real. -/
theorem lin_real (hv : ∀ p c, ∃ r : ℝ, vv p c = r) (hct : ∀ c, ∃ r : ℝ, ct c = r)
    (ha : ∀ k o, ∃ r : ℝ, wa k o = r) (hb : ∀ k o, ∃ r : ℝ, wb k o = r) (hc : ∀ k o, ∃ r : ℝ, wc k o = r)
    (hcn : cn.toInt ≠ 0) (p : Fin 32) (o : Fin 64) : ∃ r : ℝ, lin vv cn ct wa wb wc p o = r := by
  unfold lin
  refine real_add (real_add ?_ ?_) ?_
  · exact real_sum _ fun k => real_mul (hv p k) (ha k o)
  · exact real_sum _ fun k => real_mul (real_sub (hv p _) (centroid_real hv hcn k)) (hb k o)
  · exact real_sum _ fun k => real_mul (real_sub (hv p _) (hct k)) (hc k o)

/-- The activation of real data is a real: a dead slot gives 0, a live one forces a nonzero count. -/
theorem act_real (hv : ∀ p c, ∃ r : ℝ, vv p c = r) (hct : ∀ c, ∃ r : ℝ, ct c = r)
    (ha : ∀ k o, ∃ r : ℝ, wa k o = r) (hb : ∀ k o, ∃ r : ℝ, wb k o = r) (hc : ∀ k o, ∃ r : ℝ, wc k o = r)
    (p : Fin 32) (o : Fin 64) : ∃ r : ℝ, act vv cn ct wa wb wc p o = r := by
  unfold act keep
  rcases BitVec.eq_zero_or_eq_one (keepBit cn p) with h | h
  · rw [h]
    exact ⟨0, by simp⟩
  · have hcn : cn.toInt ≠ 0 := (count_pos_of_keepBit cn p h).ne'
    rw [h]
    exact real_mul (lin_real hv hct ha hb hc hcn p o) ⟨1, by simp⟩

end Real

end Cert.Pillar

end
-- ==== Proof.PillarLawsVar.lean ====
/-
  All pillars: the two spellings of the variance agree on real data.

  For real activations x over a finite index set of N members, with S1 their sum, S2 the sum of their squares and
  m = S1 / T: the squared deviations sum to S2 - 2 m S1 + N m^2. When the divisor T is the number of members N,
  dividing by T gives S2 / T - m^2. Distributivity is used, so this is a statement about reals; the extended-real
  statement follows because every quantity involved is the embedding of a real, the divisor being the real 3200000,
  which is also the number 100000 * 32 of slots.
-/
import Mathlib.Data.Fintype.BigOperators
import Mathlib.Data.Fintype.Prod
import Mathlib.Tactic.Ring
import Mathlib.Tactic.FieldSimp
import Mathlib.Tactic.NormNum
import Idealize.ShloMosaic.PureOps.Ideal
import Idealize.ShloMosaic.PureOps.Ideal.Laws
import proofs.«144879_j40235253629489_2_alg».proof.Proof.PillarSpec
import proofs.«144879_j40235253629489_2_alg».proof.Proof.PillarLawsReal

noncomputable section

namespace Cert.Pillar

open Idealize.ShloMosaic

/-- The divisor word denotes the real 3200000. -/
theorem slots_eq : slots = ((3200000 : ℝ) : EReal) := by
  unfold slots
  simp [Ideal.ofBits, Ideal.ieee, -EReal.coe_mul]; norm_num

/-- Mean of squared deviations is mean of squares minus squared mean, over the reals, when the divisor is the
    number of terms. -/
theorem real_var {ι : Type*} [Fintype ι] (x : ι → ℝ) (T : ℝ) (hT : (Fintype.card ι : ℝ) = T) (hT0 : T ≠ 0) :
    (∑ i, (x i - (∑ j, x j) * (1 / T)) * (x i - (∑ j, x j) * (1 / T))) * (1 / T)
      = (∑ i, x i * x i) * (1 / T) - ((∑ j, x j) * (1 / T)) * ((∑ j, x j) * (1 / T)) := by
  generalize hm : (∑ j, x j) * (1 / T) = m
  have e : ∑ i, (x i - m) * (x i - m) = (∑ i, x i * x i) - 2 * m * (∑ i, x i) + T * (m * m) := by
    have e1 : ∀ i, (x i - m) * (x i - m) = x i * x i - 2 * m * x i + m * m := fun i => by ring
    rw [Finset.sum_congr rfl fun i _ => e1 i, Finset.sum_add_distrib, Finset.sum_sub_distrib, ← Finset.mul_sum,
      Finset.sum_const, Finset.card_univ, nsmul_eq_mul, hT]
  rw [e, ← hm]
  field_simp
  ring

section Stats

variable (r : Fin 100000 → Fin 32 → Fin 64 → ℝ)

/-- The two variances of embedded real activations agree, channel by channel. -/
theorem varR_eq_var_coe (o : Fin 64) :
    varR (fun n p o => (r n p o : EReal)) o = var (fun n p o => (r n p o : EReal)) o := by
  have hT : (3200000 : ℝ) ≠ 0 := by norm_num
  unfold varR var mean sum1 sum2
  rw [slots_eq]
  have h1 : (∑ n : Fin 100000, ∑ p : Fin 32, (r n p o : EReal)) = ((∑ n : Fin 100000, ∑ p : Fin 32, r n p o : ℝ) : EReal) :=
    (coe_sum_sum _).symm
  have h2 : (∑ n : Fin 100000, ∑ p : Fin 32, (r n p o : EReal) * (r n p o : EReal))
      = ((∑ n : Fin 100000, ∑ p : Fin 32, r n p o * r n p o : ℝ) : EReal) := by
    rw [coe_sum_sum]
    exact Finset.sum_congr rfl fun n _ => Finset.sum_congr rfl fun p _ => (EReal.coe_mul _ _).symm
  rw [h1, h2, Ideal.div_coe hT, Ideal.div_coe hT, ← EReal.coe_mul, ← EReal.coe_mul]
  generalize hm : (∑ n : Fin 100000, ∑ p : Fin 32, r n p o) * (1 / 3200000) = m
  have h3 : (∑ n : Fin 100000, ∑ p : Fin 32, ((r n p o : EReal) - (m : EReal)) * ((r n p o : EReal) - (m : EReal)))
      = ((∑ n : Fin 100000, ∑ p : Fin 32, (r n p o - m) * (r n p o - m) : ℝ) : EReal) := by
    rw [coe_sum_sum]
    exact Finset.sum_congr rfl fun n _ => Finset.sum_congr rfl fun p _ => by
      rw [← EReal.coe_sub, ← EReal.coe_mul]
  rw [h3, Ideal.div_coe hT, ← EReal.coe_mul, ← EReal.coe_mul, ← EReal.coe_sub]
  refine congrArg Real.toEReal ?_
  subst hm
  have key := real_var (ι := Fin 100000 × Fin 32) (fun i => r i.1 i.2 o) 3200000
    (by rw [Fintype.card_prod, Fintype.card_fin, Fintype.card_fin]; norm_num) hT
  simp only [Fintype.sum_prod_type] at key
  exact key

end Stats

/-- The two spellings of the variance agree when every activation is a real. -/
theorem varR_eq_var (a : Fin 100000 → Fin 32 → Fin 64 → EReal) (ha : ∀ n p o, ∃ r : ℝ, a n p o = r) :
    varR a = var a := by
  choose r hr using ha
  have e : a = fun n p o => (r n p o : EReal) := funext fun n => funext fun p => funext fun o => hr n p o
  rw [e]
  exact funext fun o => varR_eq_var_coe r o

end Cert.Pillar

end
-- ==== Proof.PillarLaws.lean ====
/-
  The laws that join the two spellings of the pillar function, assembled for the argument arrays.

  One pillar: the one-contraction spelling of the activation equals the three-piece spelling, unconditionally, and
  on real data the activation is a real. All pillars: on real activations the mean of squared deviations equals the
  mean of squares minus the squared mean. Hence the whole result in the second spellings equals the result in the
  first when the data arrays hold reals (the scale and shift may be anything). Finally a sum over the 100000 pillars
  is the sum over 500 consecutive blocks of 200 pillars of each block's sum, which is only a regrouping.
-/
import Mathlib.Logic.Equiv.Fin.Basic
import Mathlib.Data.Fintype.BigOperators
import Mathlib.Algebra.BigOperators.Fin
import Idealize.ShloMosaic.PureOps.Ideal
import Idealize.ShloMosaic.PureOps.Ideal.Laws
import proofs.«144879_j40235253629489_2_alg».proof.Proof.PillarSpec
import proofs.«144879_j40235253629489_2_alg».proof.Proof.PillarLawsAct
import proofs.«144879_j40235253629489_2_alg».proof.Proof.PillarLawsVar

noncomputable section

namespace Cert.Pillar

open Idealize.ShloMosaic Idealize.ShloMosaic.ValueIdx

section Arrays

variable (v : (⟨3, ![100000, 32, 4]⟩ : Shape).Idx → EReal) (cnt : (⟨1, ![100000]⟩ : Shape).Idx → BitVec 32)
  (ctr : (⟨2, ![100000, 2]⟩ : Shape).Idx → EReal) (w : (⟨2, ![64, 9]⟩ : Shape).Idx → EReal)
  (γ β : (⟨1, ![64]⟩ : Shape).Idx → EReal)

/-- The two spellings of the activations read from the arrays agree. -/
theorem actROf_eq_actOf : actROf v cnt ctr w = actOf v cnt ctr w :=
  funext fun n => funext fun p => funext fun o =>
    actR_eq_act (fun p c => v (ix3 n p c)) (cnt (ix1 n)) (fun c => ctr (ix2 n c)) (fun o k => w (ix2 o k)) p o

variable {v cnt ctr w γ β}

/-- Activations read from arrays of reals are reals. -/
theorem actOf_real (hv : ∀ i, ∃ r : ℝ, v i = r) (hctr : ∀ i, ∃ r : ℝ, ctr i = r) (hw : ∀ i, ∃ r : ℝ, w i = r)
    (n : Fin 100000) (p : Fin 32) (o : Fin 64) : ∃ r : ℝ, actOf v cnt ctr w n p o = r :=
  act_real (fun p c => hv (ix3 n p c)) (fun c => hctr (ix2 n c)) (fun k o => hw (ix2 o _)) (fun k o => hw (ix2 o _))
    (fun k o => hw (ix2 o _)) p o

/-- The result in the second spellings is the result in the first, for arrays of reals. -/
theorem resultR_eq_result (hv : ∀ i, ∃ r : ℝ, v i = r) (hctr : ∀ i, ∃ r : ℝ, ctr i = r)
    (hw : ∀ i, ∃ r : ℝ, w i = r) : resultR v cnt ctr w γ β = result v cnt ctr w γ β := by
  unfold resultR result
  rw [actROf_eq_actOf, varR_eq_var _ (actOf_real hv hctr hw)]

end Arrays

/-- In a range of a * b members, member r of block t has a number below a * b. -/
theorem block_member_lt {a b : ℕ} (t : Fin a) (r : Fin b) : b * t.val + r.val < a * b := by
  have h1 : b * (t.val + 1) ≤ b * a := Nat.mul_le_mul_left b t.isLt
  have h2 := r.isLt
  rw [Nat.mul_add, Nat.mul_one] at h1
  rw [Nat.mul_comm a b]
  omega

/-- A sum over a * b members, taken block by block: a blocks of b consecutive members. -/
theorem sum_blocks {M : Type*} [AddCommMonoid M] (a b : ℕ) (f : Fin (a * b) → M) :
    ∑ i, f i = ∑ t : Fin a, ∑ r : Fin b, f ⟨b * t.val + r.val, block_member_lt t r⟩ := by
  rw [← Equiv.sum_comp finProdFinEquiv f, Fintype.sum_prod_type]
  refine Finset.sum_congr rfl fun t _ => Finset.sum_congr rfl fun r _ => congrArg f (Fin.ext ?_)
  simp [finProdFinEquiv, Nat.add_comm]

/-- A sum over the 100000 pillars is the sum over 500 blocks of the sums over each block's 200 pillars. -/
theorem sum_pillars_blocks {M : Type*} [AddCommMonoid M] (f : Fin 100000 → M) :
    ∑ n, f n = ∑ t : Fin 500, ∑ r : Fin 200, f ⟨200 * t.val + r.val, by omega⟩ :=
  sum_blocks 500 200 f

end Cert.Pillar

end
-- ==== Proof.StatsTotal.lean ====
/-
  The 500 per-point contributions of the first kernel add up to the specification's sums over all pillars.

  Point t contributes, to channel o of the sum row, the activations of its block's 200 pillars and 32 slots added
  up, and to the sum-of-squares row the same with every activation squared. Pillar r of that block is pillar
  200 t + r of the launched arrays, so the contribution is the sum over pillars 200 t .. 200 t + 199 of the
  arrays' activations (or their squares). Adding the 500 contributions is then the sum over all 100000 pillars
  taken in 500 consecutive blocks of 200, which is only a regrouping of the specification's `sum1` and `sum2`.
-/
import proofs.«144879_j40235253629489_2_alg».proof.Proof.AccumulateRows
import proofs.«144879_j40235253629489_2_alg».proof.Proof.StatsTotalPoint
import proofs.«144879_j40235253629489_2_alg».proof.Proof.PillarLaws
set_option maxRecDepth 16384

noncomputable section

open Idealize.ShloMosaic Idealize.ShloMosaic.TcCoe Idealize.SL.Sem Idealize.ShloMosaic.ValueIdx

namespace Cert.KernelIdeal.StatsTotal

open Cert.KernelIdeal Cert.KernelIdeal.Gen

variable (m : (ℓ : Loc nD τ sig) → Buf (Elt Ideal) ℓ) (ρ : Dev nD → PrngReg)

/-! ## One point's contribution -/

/-- Point t's contribution to the sum row: the arrays' activations over pillars 200 t .. 200 t + 199. -/
theorem block_sum1 (c : Dev nD) (t : Fin cfg0.N) (o : Fin 64) :
    AccumulateRows.blockSum1 (iblk0 (V1 m ρ) c 0 t) (iblk0 (V1 m ρ) c 1 t) (iblk0 (V1 m ρ) c 2 t)
        (iblk0 (V1 m ρ) c 3 t) (iblk0 (V1 m ρ) c 4 t) (iblk0 (V1 m ρ) c 5 t) o
      = ∑ r : Fin 200, ∑ p : Fin 32, launchAct m c (BlockReads.pil0 t r) p o := by
  unfold AccumulateRows.blockSum1
  exact Finset.sum_congr rfl fun r _ => Finset.sum_congr rfl fun p _ => point_act m ρ c t r p o

/-- Point t's contribution to the sum-of-squares row: the squares of the same activations. -/
theorem block_sum2 (c : Dev nD) (t : Fin cfg0.N) (o : Fin 64) :
    AccumulateRows.blockSum2 (iblk0 (V1 m ρ) c 0 t) (iblk0 (V1 m ρ) c 1 t) (iblk0 (V1 m ρ) c 2 t)
        (iblk0 (V1 m ρ) c 3 t) (iblk0 (V1 m ρ) c 4 t) (iblk0 (V1 m ρ) c 5 t) o
      = ∑ r : Fin 200, ∑ p : Fin 32,
          launchAct m c (BlockReads.pil0 t r) p o * launchAct m c (BlockReads.pil0 t r) p o := by
  unfold AccumulateRows.blockSum2
  exact Finset.sum_congr rfl fun r _ => Finset.sum_congr rfl fun p _ =>
    congrArg (fun a => a * a) (point_act m ρ c t r p o)

/-- The same for the numbered term of a point inside the grid. -/
theorem term1_eq (c : Dev nD) (t : Fin cfg0.N) (o : Fin 64) :
    AccumulateRows.term1 (V1 m ρ) c t.val o
      = ∑ r : Fin 200, ∑ p : Fin 32, launchAct m c (BlockReads.pil0 t r) p o := by
  unfold AccumulateRows.term1
  rw [dif_pos t.isLt]
  exact block_sum1 m ρ c t o

theorem term2_eq (c : Dev nD) (t : Fin cfg0.N) (o : Fin 64) :
    AccumulateRows.term2 (V1 m ρ) c t.val o
      = ∑ r : Fin 200, ∑ p : Fin 32,
          launchAct m c (BlockReads.pil0 t r) p o * launchAct m c (BlockReads.pil0 t r) p o := by
  unfold AccumulateRows.term2
  rw [dif_pos t.isLt]
  exact block_sum2 m ρ c t o

/-! ## All 500 points -/

/-- The contributions to the sum row, added over the 500 points, are the sum of all activations. -/
theorem total1 (c : Dev nD) (o : Fin 64) :
    ∑ s ∈ Finset.range 500, Cert.KernelIdeal.AccumulateRows.term1 (V1 m ρ) c s o
      = Cert.Pillar.sum1 (Cert.Pillar.actOf (m ((c : Thread nD τ).loc main_arg0)) (m ((c : Thread nD τ).loc main_arg1))
          (m ((c : Thread nD τ).loc main_arg2)) (m ((c : Thread nD τ).loc main_arg3))) o := by
  have hN : cfg0.N = 500 := N_0
  rw [Finset.sum_range]
  refine Eq.trans ?_ (Cert.Pillar.sum_pillars_blocks (fun n => ∑ p : Fin 32, launchAct m c n p o)).symm
  exact Finset.sum_congr rfl fun t _ => term1_eq m ρ c ⟨t.val, lt_of_lt_of_eq t.isLt hN.symm⟩ o

/-- The contributions to the sum-of-squares row, added over the 500 points, are the sum of all squared activations. -/
theorem total2 (c : Dev nD) (o : Fin 64) :
    ∑ s ∈ Finset.range 500, Cert.KernelIdeal.AccumulateRows.term2 (V1 m ρ) c s o
      = Cert.Pillar.sum2 (Cert.Pillar.actOf (m ((c : Thread nD τ).loc main_arg0)) (m ((c : Thread nD τ).loc main_arg1))
          (m ((c : Thread nD τ).loc main_arg2)) (m ((c : Thread nD τ).loc main_arg3))) o := by
  have hN : cfg0.N = 500 := N_0
  rw [Finset.sum_range]
  refine Eq.trans ?_
    (Cert.Pillar.sum_pillars_blocks (fun n => ∑ p : Fin 32, launchAct m c n p o * launchAct m c n p o)).symm
  exact Finset.sum_congr rfl fun t _ => term2_eq m ρ c ⟨t.val, lt_of_lt_of_eq t.isLt hN.symm⟩ o

end Cert.KernelIdeal.StatsTotal

end
-- ==== Proof.StatsLink.lean ====
/-
  The four [1, 64] rows the second kernel reads, over the extended reals, as the specification's per-channel
  statistics of the activations of ALL pillars: the mean row is the sum of the activations over the number of
  slots, the variance row the mean of squares minus the squared mean, the scale and shift rows the two arguments.
  The first kernel's sum row holds, after its last grid point, the 500 points' contributions added up, and those
  are the activations of all 100000 pillars, 200 at a time.
-/
import proofs.«144879_j40235253629489_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import proofs.«144879_j40235253629489_2_alg».proof.Proof.Boundaries
import proofs.«144879_j40235253629489_2_alg».proof.Proof.LastRows
import proofs.«144879_j40235253629489_2_alg».proof.Proof.StatsTotal
import proofs.«144879_j40235253629489_2_alg».proof.Proof.PillarSpec
set_option maxRecDepth 16384

noncomputable section

open Idealize.ShloMosaic Idealize.ShloMosaic.TcCoe Idealize.SL.Sem Idealize.ShloMosaic.ValueIdx
open Idealize.ShloMosaic.Pipeline (Dat)

namespace Cert.KernelIdeal.StatsLink

open Cert.KernelIdeal Cert.KernelIdeal.Gen

variable (m : (ℓ : Loc nD τ sig) → Buf (Elt Ideal) ℓ) (ρ : Dev nD → PrngReg)

/-- The activations of all pillars, from the launch memory's argument arrays. -/
abbrev acts (c : Dev nD) : Fin 100000 → Fin 32 → Fin 64 → EReal := Cert.Pillar.actOf (m ((c : Thread nD τ).loc main_arg0)) (m ((c : Thread nD τ).loc main_arg1)) (m ((c : Thread nD τ).loc main_arg2)) (m ((c : Thread nD τ).loc main_arg3))

/-- Channel o of the first kernel's sum row at its exit: the sum of channel o's activations over all slots. -/
theorem sumRow_apply (c : Dev nD) (o : Fin 64) :
    (W2 m ρ c (Proc.devRef .tc main_v5_0) : S1x64.Idx → EReal) (ix2 (0 : Fin 1) o) = Cert.Pillar.sum1 (acts m c) o := by
  rw [Cert.KernelIdeal.Boundaries.sumRow]
  exact (Cert.KernelIdeal.LastRows.lastRow6_apply (V1 m ρ) c o).trans (Cert.KernelIdeal.StatsTotal.total1 m ρ c o)

/-- Channel o of the sum-of-squares row at the first kernel's exit. -/
theorem sqRow_apply (c : Dev nD) (o : Fin 64) :
    (W2 m ρ c (Proc.devRef .tc main_v5_1) : S1x64.Idx → EReal) (ix2 (0 : Fin 1) o) = Cert.Pillar.sum2 (acts m c) o := by
  rw [Cert.KernelIdeal.Boundaries.sqRow]
  exact (Cert.KernelIdeal.LastRows.lastRow7_apply (V1 m ρ) c o).trans (Cert.KernelIdeal.StatsTotal.total2 m ρ c o)

theorem mean_row (c : Dev nD) (o : Fin 64) :
    (V3 m ρ c main_v14 : S1x64.Idx → EReal) (ix2 0 o) = Cert.Pillar.mean (acts m c) o := by
  refine (Cert.KernelIdeal.HostBetween.mean_apply (W2 m ρ c) o).trans ?_
  rw [sumRow_apply]
  rfl

theorem var_row (c : Dev nD) (o : Fin 64) :
    (V3 m ρ c main_v15 : S1x64.Idx → EReal) (ix2 0 o) = Cert.Pillar.var (acts m c) o := by
  refine (Cert.KernelIdeal.HostBetween.var_apply (W2 m ρ c) o).trans ?_
  rw [sumRow_apply, sqRow_apply]
  rfl

theorem scale_row (c : Dev nD) (o : Fin 64) :
    (V3 m ρ c main_v16 : S1x64.Idx → EReal) (ix2 0 o) = (m ((c : Thread nD τ).loc main_arg4) : S64.Idx → EReal) (ix1 o) := by
  refine (Cert.KernelIdeal.HostBetween.scale_apply (W2 m ρ c) o).trans ?_
  rw [Cert.KernelIdeal.Boundaries.scaleArg]

theorem shift_row (c : Dev nD) (o : Fin 64) :
    (V3 m ρ c main_v17 : S1x64.Idx → EReal) (ix2 0 o) = (m ((c : Thread nD τ).loc main_arg5) : S64.Idx → EReal) (ix1 o) := by
  refine (Cert.KernelIdeal.HostBetween.shift_apply (W2 m ρ c) o).trans ?_
  rw [Cert.KernelIdeal.Boundaries.shiftArg]

end Cert.KernelIdeal.StatsLink

end
-- ==== Proof.BlockReads1.lean ====
/-
  Each window's block at a grid point, read at coordinates of the whole array.

  Both kernels run over 500 grid points, and point t works on pillars 200 t .. 200 t + 199: the blocks of the voxel
  array, of the count column and of the centre array are those 200 pillars, so the block's element at pillar r is the
  array's element at pillar 200 t + r, every other coordinate unchanged. The three weight pieces and the second
  kernel's four rows are not cut: their one block is the whole array at every point. The second kernel's result is
  written back block by block, pillars 200 t .. 200 t + 199 at point t, and these 500 blocks fill the result array:
  pillar n lies in the block of point n / 200, at place n % 200.
-/
import proofs.«144879_j40235253629489_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BlockReads

open Cert.KernelIdeal Cert.KernelIdeal.Gen

variable {F : FTy → Type} [FloatOps F]
variable (V : (c : Dev nD) → (b : Ref sig .tc) → Buf (Elt F) ((c : Thread nD τ).loc b))

/-- Pillar `r` of the block of point `t`, as a pillar of the whole array: pillar `200 t + r`. -/
abbrev pil1 (t : Fin cfg1.N) (r : Fin 200) : Fin 100000 :=
  ⟨200 * t.val + r.val, by have := t.isLt; have : cfg1.N = 500 := N_1; omega⟩

/-! ## The printed index maps, decided once over the grid -/

/-- The voxel window's block index at point `t` is `(t, 0, 0)`. -/
theorem idx1_0 : ∀ t : Fin cfg1.N,
    win1_0.index t (0 : Fin 3) = t.val ∧ win1_0.index t (1 : Fin 3) = 0 ∧ win1_0.index t (2 : Fin 3) = 0 :=
  (by decide +kernel : ∀ t : Fin grid1.N, _)
/-- The count column's block index at point `t` is `(t, 0)`. -/
theorem idx1_1 : ∀ t : Fin cfg1.N, win1_1.index t (0 : Fin 2) = t.val ∧ win1_1.index t (1 : Fin 2) = 0 :=
  (by decide +kernel : ∀ t : Fin grid1.N, _)
/-- The centre window's block index at point `t` is `(t, 0)`. -/
theorem idx1_2 : ∀ t : Fin cfg1.N, win1_2.index t (0 : Fin 2) = t.val ∧ win1_2.index t (1 : Fin 2) = 0 :=
  (by decide +kernel : ∀ t : Fin grid1.N, _)
/-- The three weight pieces' block index is `(0, 0)` at every point. -/
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)

/-! The four rows' block index is `(0, 0)` at every point, and the result window's is `(t, 0)`. -/
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)

/-! ## The blocks that move with the point -/

/-- The voxel block at point `t`: slot `p`, channel `ch4` of its pillar `r` is that of the array's pillar `200 t + r`. -/
theorem vox1 (c : Dev nD) (t : Fin cfg1.N) (r : Fin 200) (p : Fin 32) (ch4 : Fin 4) :
    iblk1 V c 0 t (ix3 r p ch4) = (V c main_arg0 : S100000x32x4.Idx → Elt F .f32) (ix3 (pil1 t r) p ch4) := by
  obtain ⟨e0, e1, e2⟩ := idx1_0 t
  unfold iblk1
  rw [View.read_apply]
  show V c main_arg0 (((cfg1.win 0).blk t).view.emb (ix3 r p ch4)) = V c main_arg0 (ix3 (pil1 t r) p ch4)
  refine congrArg (V c main_arg0) (funext fun a => Fin.ext ?_)
  match a with
  | ⟨0, _⟩ => show win1_0.index t (0 : Fin 3) * 200 + 1 * r.val = 200 * t.val + r.val; rw [e0]; omega
  | ⟨1, _⟩ => show win1_0.index t (1 : Fin 3) * 32 + 1 * p.val = p.val; rw [e1]; omega
  | ⟨2, _⟩ => show win1_0.index t (2 : Fin 3) * 4 + 1 * ch4.val = ch4.val; rw [e2]; omega

/-- The count block at point `t`: its pillar `r` is the column's pillar `200 t + r`. -/
theorem cnt1 (c : Dev nD) (t : Fin cfg1.N) (r : Fin 200) (u : Fin 1) :
    iblk1 V c 1 t (ix2 r u) = (V c main_v0 : S100000x1.Idx → Elt F .i32) (ix2 (pil1 t r) u) := by
  obtain ⟨e0, e1⟩ := idx1_1 t
  unfold iblk1
  rw [View.read_apply]
  show V c main_v0 (((cfg1.win 1).blk t).view.emb (ix2 r u)) = V c main_v0 (ix2 (pil1 t r) u)
  refine congrArg (V c main_v0) (funext fun a => Fin.ext ?_)
  match a with
  | ⟨0, _⟩ => show win1_1.index t (0 : Fin 2) * 200 + 1 * r.val = 200 * t.val + r.val; rw [e0]; omega
  | ⟨1, _⟩ => show win1_1.index t (1 : Fin 2) * 1 + 1 * u.val = u.val; rw [e1]; omega

/-- The centre block at point `t`: coordinate `ch2` of its pillar `r` is that of the array's pillar `200 t + r`. -/
theorem ctr1 (c : Dev nD) (t : Fin cfg1.N) (r : Fin 200) (ch2 : Fin 2) :
    iblk1 V c 2 t (ix2 r ch2) = (V c main_arg2 : S100000x2.Idx → Elt F .f32) (ix2 (pil1 t r) ch2) := by
  obtain ⟨e0, e1⟩ := idx1_2 t
  unfold iblk1
  rw [View.read_apply]
  show V c main_arg2 (((cfg1.win 2).blk t).view.emb (ix2 r ch2)) = V c main_arg2 (ix2 (pil1 t r) ch2)
  refine congrArg (V c main_arg2) (funext fun a => Fin.ext ?_)
  match a with
  | ⟨0, _⟩ => show win1_2.index t (0 : Fin 2) * 200 + 1 * r.val = 200 * t.val + r.val; rw [e0]; omega
  | ⟨1, _⟩ => show win1_2.index t (1 : Fin 2) * 2 + 1 * ch2.val = ch2.val; rw [e1]; omega

/-! ## The blocks that are the whole array at every point -/

/-- The first weight piece's block is the piece itself. -/
theorem wa1 (c : Dev nD) (t : Fin cfg1.N) (k : Fin 4) (o : Fin 64) :
    iblk1 V c 3 t (ix2 k o) = (V c main_v2 : S4x64.Idx → Elt F .f32) (ix2 k o) := by
  obtain ⟨e0, e1⟩ := idx1_3 t
  unfold iblk1
  rw [View.read_apply]
  show V c main_v2 (((cfg1.win 3).blk t).view.emb (ix2 k o)) = V c main_v2 (ix2 k o)
  refine congrArg (V c main_v2) (funext fun a => Fin.ext ?_)
  match a with
  | ⟨0, _⟩ => show win1_3.index t (0 : Fin 2) * 4 + 1 * k.val = k.val; rw [e0]; omega
  | ⟨1, _⟩ => show win1_3.index t (1 : Fin 2) * 64 + 1 * o.val = o.val; rw [e1]; omega

/-- The second weight piece's block is the piece itself. -/
theorem wb1 (c : Dev nD) (t : Fin cfg1.N) (k : Fin 3) (o : Fin 64) :
    iblk1 V c 4 t (ix2 k o) = (V c main_v3 : S3x64.Idx → Elt F .f32) (ix2 k o) := by
  obtain ⟨e0, e1⟩ := idx1_4 t
  unfold iblk1
  rw [View.read_apply]
  show V c main_v3 (((cfg1.win 4).blk t).view.emb (ix2 k o)) = V c main_v3 (ix2 k o)
  refine congrArg (V c main_v3) (funext fun a => Fin.ext ?_)
  match a with
  | ⟨0, _⟩ => show win1_4.index t (0 : Fin 2) * 3 + 1 * k.val = k.val; rw [e0]; omega
  | ⟨1, _⟩ => show win1_4.index t (1 : Fin 2) * 64 + 1 * o.val = o.val; rw [e1]; omega

/-- The third weight piece's block is the piece itself. -/
theorem wc1 (c : Dev nD) (t : Fin cfg1.N) (k : Fin 2) (o : Fin 64) :
    iblk1 V c 5 t (ix2 k o) = (V c main_v4 : S2x64.Idx → Elt F .f32) (ix2 k o) := by
  obtain ⟨e0, e1⟩ := idx1_5 t
  unfold iblk1
  rw [View.read_apply]
  show V c main_v4 (((cfg1.win 5).blk t).view.emb (ix2 k o)) = V c main_v4 (ix2 k o)
  refine congrArg (V c main_v4) (funext fun a => Fin.ext ?_)
  match a with
  | ⟨0, _⟩ => show win1_5.index t (0 : Fin 2) * 2 + 1 * k.val = k.val; rw [e0]; omega
  | ⟨1, _⟩ => show win1_5.index t (1 : Fin 2) * 64 + 1 * o.val = o.val; rw [e1]; omega

/-- The first row's block is the row itself. -/
theorem row6 (c : Dev nD) (t : Fin cfg1.N) (u : Fin 1) (o : Fin 64) :
    iblk1 V c 6 t (ix2 u o) = (V c main_v14 : S1x64.Idx → Elt F .f32) (ix2 u o) := by
  obtain ⟨e0, e1⟩ := idx1_6 t
  unfold iblk1
  rw [View.read_apply]
  show V c main_v14 (((cfg1.win 6).blk t).view.emb (ix2 u o)) = V c main_v14 (ix2 u o)
  refine congrArg (V c main_v14) (funext fun a => Fin.ext ?_)
  match a with
  | ⟨0, _⟩ => show win1_6.index t (0 : Fin 2) * 1 + 1 * u.val = u.val; rw [e0]; omega
  | ⟨1, _⟩ => show win1_6.index t (1 : Fin 2) * 64 + 1 * o.val = o.val; rw [e1]; omega

/-- The second row's block is the row itself. -/
theorem row7 (c : Dev nD) (t : Fin cfg1.N) (u : Fin 1) (o : Fin 64) :
    iblk1 V c 7 t (ix2 u o) = (V c main_v15 : S1x64.Idx → Elt F .f32) (ix2 u o) := by
  obtain ⟨e0, e1⟩ := idx1_7 t
  unfold iblk1
  rw [View.read_apply]
  show V c main_v15 (((cfg1.win 7).blk t).view.emb (ix2 u o)) = V c main_v15 (ix2 u o)
  refine congrArg (V c main_v15) (funext fun a => Fin.ext ?_)
  match a with
  | ⟨0, _⟩ => show win1_7.index t (0 : Fin 2) * 1 + 1 * u.val = u.val; rw [e0]; omega
  | ⟨1, _⟩ => show win1_7.index t (1 : Fin 2) * 64 + 1 * o.val = o.val; rw [e1]; omega

/-- The third row's block is the row itself. -/
theorem row8 (c : Dev nD) (t : Fin cfg1.N) (u : Fin 1) (o : Fin 64) :
    iblk1 V c 8 t (ix2 u o) = (V c main_v16 : S1x64.Idx → Elt F .f32) (ix2 u o) := by
  obtain ⟨e0, e1⟩ := idx1_8 t
  unfold iblk1
  rw [View.read_apply]
  show V c main_v16 (((cfg1.win 8).blk t).view.emb (ix2 u o)) = V c main_v16 (ix2 u o)
  refine congrArg (V c main_v16) (funext fun a => Fin.ext ?_)
  match a with
  | ⟨0, _⟩ => show win1_8.index t (0 : Fin 2) * 1 + 1 * u.val = u.val; rw [e0]; omega
  | ⟨1, _⟩ => show win1_8.index t (1 : Fin 2) * 64 + 1 * o.val = o.val; rw [e1]; omega

/-- The fourth row's block is the row itself. -/
theorem row9 (c : Dev nD) (t : Fin cfg1.N) (u : Fin 1) (o : Fin 64) :
    iblk1 V c 9 t (ix2 u o) = (V c main_v17 : S1x64.Idx → Elt F .f32) (ix2 u o) := by
  obtain ⟨e0, e1⟩ := idx1_9 t
  unfold iblk1
  rw [View.read_apply]
  show V c main_v17 (((cfg1.win 9).blk t).view.emb (ix2 u o)) = V c main_v17 (ix2 u o)
  refine congrArg (V c main_v17) (funext fun a => Fin.ext ?_)
  match a with
  | ⟨0, _⟩ => show win1_9.index t (0 : Fin 2) * 1 + 1 * u.val = u.val; rw [e0]; omega
  | ⟨1, _⟩ => show win1_9.index t (1 : Fin 2) * 64 + 1 * o.val = o.val; rw [e1]; omega

/-! ## The result's blocks -/

/-- Element `(r, o)` of the result block of point `t` sits at `(200 t + r, o)` in the result array. -/
theorem out_emb (t : Fin cfg1.N) (r : Fin 200) (o : Fin 64) :
    ((cfg1.win 10).blk t).view.emb (ix2 r o) = (ix2 (pil1 t r) o : S100000x64.Idx) := by
  obtain ⟨e0, e1⟩ := idx1_10 t
  funext a
  apply Fin.ext
  match a with
  | ⟨0, _⟩ => show win1_10.index t (0 : Fin 2) * 200 + 1 * r.val = 200 * t.val + r.val; rw [e0]; omega
  | ⟨1, _⟩ => show win1_10.index t (1 : Fin 2) * 64 + 1 * o.val = o.val; rw [e1]; omega

/-- An index of the result array is in point `t`'s block iff each coordinate is in the block's range on its axis. -/
theorem mem_out (t : Fin cfg1.N) (i : S100000x64.Idx) :
    i ∈ ((cfg1.win 10).blk t).view.set ↔ ∀ a : Fin 2, win1_10.index t a * S200x64.size a ≤ (i a).val
      ∧ (i a).val < win1_10.index t a * S200x64.size a + S200x64.size a := by
  show i ∈ ((View.whole main_v18).slice (win1_10.rect t)).set ↔ _
  rw [View.set_slice_whole, Rect.mem_set_unit]
  exact Iff.rfl

/-- The point whose block holds pillar `n`: `n / 200`. -/
abbrev pointOf (n : Fin 100000) : Fin cfg1.N :=
  ⟨n.val / 200, by rw [show cfg1.N = 500 from N_1]; omega⟩

/-- Every index of the result array lies in the block some point writes back: pillar `n` in that of point `n / 200`. -/
theorem out_cover : ∀ i : S100000x64.Idx, ∃ t : Fin cfg1.N, (cfg1.win 10).flush t = true ∧ i ∈ ((cfg1.win 10).blk t).view.set := by
  intro i
  have h0 : (i 0).val < 100000 := (i 0).isLt
  have h1 : (i 1).val < 64 := (i 1).isLt
  refine ⟨pointOf ⟨(i 0).val, h0⟩, flush1_10 _, ?_⟩
  obtain ⟨e0, e1⟩ := idx1_10 (pointOf ⟨(i 0).val, h0⟩)
  rw [mem_out]
  intro a
  match a with
  | ⟨0, _⟩ =>
    show win1_10.index (pointOf ⟨(i 0).val, h0⟩) (0 : Fin 2) * 200 ≤ (i 0).val
      ∧ (i 0).val < win1_10.index (pointOf ⟨(i 0).val, h0⟩) (0 : Fin 2) * 200 + 200
    rw [e0]
    show (i 0).val / 200 * 200 ≤ (i 0).val ∧ (i 0).val < (i 0).val / 200 * 200 + 200
    omega
  | ⟨1, _⟩ =>
    show win1_10.index (pointOf ⟨(i 0).val, h0⟩) (1 : Fin 2) * 64 ≤ (i 1).val
      ∧ (i 1).val < win1_10.index (pointOf ⟨(i 0).val, h0⟩) (1 : Fin 2) * 64 + 64
    rw [e1]
    omega

/-- Every index of the result array is pillar `r` of some point `t`'s block: `t = n / 200`, `r = n % 200`. -/
theorem out_split (i : S100000x64.Idx) : ∃ (t : Fin cfg1.N) (r : Fin 200), i = ix2 (pil1 t r) (i 1) := by
  have h0 : (i 0).val < 100000 := (i 0).isLt
  refine ⟨pointOf ⟨(i 0).val, h0⟩, ⟨(i 0).val % 200, Nat.mod_lt _ (by decide)⟩, ?_⟩
  funext a
  match a with
  | ⟨0, _⟩ =>
    apply Fin.ext
    show (i 0).val = 200 * ((i 0).val / 200) + (i 0).val % 200
    omega
  | ⟨1, _⟩ => rfl

end Cert.KernelIdeal.BlockReads

end
-- ==== Proof.PoolValueBlock.lean ====
/-
  One pillar's pooled value, and the block the second kernel stores, entry by entry.

  For one pillar (its 32 x 4 points, its count word, its centre), the three weight pieces and one channel's mean,
  variance, scale and shift, the pooled value of output channel o is the maximum over the 32 slots, folded from minus
  infinity, of the slot's masked activation normalised, scaled, shifted and clipped below at 0. The block the second
  kernel stores holds, at pillar r and channel o, exactly this value of the block's pillar r: the stored maximum is
  taken over the product of the linear layer and the mask, and these are the specification's contraction and
  indicator on that pillar.
-/
import proofs.«144879_j40235253629489_2_alg».proof.Proof.Gen.KernelIdeal.Skeleton
import proofs.«144879_j40235253629489_2_alg».proof.Proof.PillarSpec
import proofs.«144879_j40235253629489_2_alg».proof.Proof.BodyAct
import proofs.«144879_j40235253629489_2_alg».proof.Proof.BodyStats

noncomputable section

namespace Cert.KernelIdeal.PoolValue

open Cert.KernelIdeal Cert.KernelIdeal.Gen Idealize.ShloMosaic Idealize.ShloMosaic.ValueIdx

/-- The pooled value of one pillar in output channel o: the maximum over its slots of the normalised, scaled,
    shifted and clipped masked activation (mean m, variance s, scale g, shift b of that channel). -/
def poolOf (vv : Fin 32 → Fin 4 → EReal) (cn : BitVec 32) (ct : Fin 2 → EReal)
    (wa : Fin 4 → Fin 64 → EReal) (wb : Fin 3 → Fin 64 → EReal) (wc : Fin 2 → Fin 64 → EReal)
    (m s g b : EReal) (o : Fin 64) : EReal :=
  (Finset.univ : Finset (Fin 32)).fold max Cert.Pillar.floorWord
    (fun p => Cert.Pillar.unitOf (Cert.Pillar.act vv cn ct wa wb wc p o) m s g b)

/-- Equal data give equal pooled values. -/
theorem poolOf_congr {vv vv' : Fin 32 → Fin 4 → EReal} {cn cn' : BitVec 32} {ct ct' : Fin 2 → EReal}
    {wa wa' : Fin 4 → Fin 64 → EReal} {wb wb' : Fin 3 → Fin 64 → EReal} {wc wc' : Fin 2 → Fin 64 → EReal}
    {m m' s s' g g' b b' : EReal} (hv : vv = vv') (hn : cn = cn') (ht : ct = ct') (ha : wa = wa') (hb : wb = wb')
    (hc : wc = wc') (hm : m = m') (hs : s = s') (hg : g = g') (hb' : b = b') (o : Fin 64) :
    poolOf vv cn ct wa wb wc m s g b o = poolOf vv' cn' ct' wa' wb' wc' m' s' g' b' o := by
  subst hv hn ht ha hb hc hm hs hg hb'
  rfl

/-- The stored block at pillar r, channel o is the pooled value of the loaded blocks' pillar r. -/
theorem block_pool (x0 : Vec Ideal S200x32x4 .f32) (x1 : Vec Ideal S200x1 .i32) (x2 : Vec Ideal S200x2 .f32)
    (x3 : Vec Ideal S4x64 .f32) (x4 : Vec Ideal S3x64 .f32) (x5 : Vec Ideal S2x64 .f32)
    (x6 x7 x8 x9 : Vec Ideal S1x64 .f32) (r : Fin 200) (o : Fin 64) :
    k1_pay1 (F := Ideal) (k1_pay3 x0 x2 x1 x3 x4 x5) (k1_pay4 x1) x6 x7 x8 x9 (ix2 r o)
      = poolOf (fun p ch => x0 (ix3 r p ch)) (x1 (ix2 r 0)) (fun ch => x2 (ix2 r ch))
          (fun k o => x3 (ix2 k o)) (fun k o => x4 (ix2 k o)) (fun k o => x5 (ix2 k o))
          (x6 (ix2 0 o)) (x7 (ix2 0 o)) (x8 (ix2 0 o)) (x9 (ix2 0 o)) o := by
  refine (BodyStats.k1_pool _ _ x6 x7 x8 x9 r o).trans ?_
  unfold poolOf
  refine congrArg (fun f : Fin 32 → EReal => (Finset.univ : Finset (Fin 32)).fold max Cert.Pillar.floorWord f)
    (funext fun p => ?_)
  refine congrArg (fun a : EReal => Cert.Pillar.unitOf a (x6 (ix2 0 o)) (x7 (ix2 0 o)) (x8 (ix2 0 o)) (x9 (ix2 0 o))) ?_
  unfold Cert.Pillar.act
  exact congrArg₂ (· * ·) (BodyAct.k1_lin x0 x2 x1 x3 x4 x5 r p o) (BodyAct.k1_keep x1 r p)

end Cert.KernelIdeal.PoolValue

end
-- ==== Proof.PoolValue.lean ====
/-
  The second kernel's result array as one function of the buffers the kernel is entered with.

  The kernel runs over 500 grid points; point t loads the voxels, counts and centres of pillars 200 t .. 200 t + 199,
  the three weight pieces and the four rows (mean, variance, scale, shift), and writes back a [200, 64] block that
  becomes rows 200 t .. 200 t + 199 of the result. Entry (r, o) of that block is the pooled value of the loaded
  blocks' pillar r in channel o, and the loaded blocks' pillar r is the arrays' pillar 200 t + r, the weights and rows
  being the same at every point. So the block a point writes back is the restriction, to its rows, of one function
  of the entry contents: pillar n, channel o is the pooled value of pillar n. The 500 blocks fill the result array,
  which therefore ends holding that function everywhere.
-/
import proofs.«144879_j40235253629489_2_alg».proof.Proof.Gen.KernelIdeal.Frame
import proofs.«144879_j40235253629489_2_alg».proof.Proof.PillarSpec
import proofs.«144879_j40235253629489_2_alg».proof.Proof.StatsPieces
import proofs.«144879_j40235253629489_2_alg».proof.Proof.BlockReads1
import proofs.«144879_j40235253629489_2_alg».proof.Proof.PoolValueBlock
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.PoolValue

open Cert.KernelIdeal Cert.KernelIdeal.Gen

variable (V : (c : Dev nD) → (b : Ref sig .tc) → Buf (Elt Ideal) ((c : Thread nD τ).loc b))

/-- Pillar n, channel o of the pooled array, from the entry contents: the maximum over the pillar's 32 slots, folded
    from minus infinity, of the masked activation normalised by the channel's mean and variance rows, scaled,
    shifted and clipped below at 0. -/
def pooledAt (c : Dev nD) (n : Fin 100000) (o : Fin 64) : EReal :=
  (Finset.univ : Finset (Fin 32)).fold max Cert.Pillar.floorWord (fun p => Cert.Pillar.unitOf
    (Cert.Pillar.act (fun p ch => (V c main_arg0 : S100000x32x4.Idx → EReal) (ix3 n p ch))
      ((V c main_v0 : S100000x1.Idx → BitVec 32) (ix2 n 0))
      (fun ch => (V c main_arg2 : S100000x2.Idx → EReal) (ix2 n ch))
      (fun k o => (V c main_v2 : S4x64.Idx → EReal) (ix2 k o)) (fun k o => (V c main_v3 : S3x64.Idx → EReal) (ix2 k o))
      (fun k o => (V c main_v4 : S2x64.Idx → EReal) (ix2 k o)) p o)
    ((V c main_v14 : S1x64.Idx → EReal) (ix2 0 o)) ((V c main_v15 : S1x64.Idx → EReal) (ix2 0 o))
    ((V c main_v16 : S1x64.Idx → EReal) (ix2 0 o)) ((V c main_v17 : S1x64.Idx → EReal) (ix2 0 o)))

/-- The same, as the pooled value of pillar n's data. -/
theorem pooledAt_eq (c : Dev nD) (n : Fin 100000) (o : Fin 64) :
    pooledAt V c n o
      = poolOf (fun p ch => (V c main_arg0 : S100000x32x4.Idx → EReal) (ix3 n p ch))
          ((V c main_v0 : S100000x1.Idx → BitVec 32) (ix2 n 0))
          (fun ch => (V c main_arg2 : S100000x2.Idx → EReal) (ix2 n ch))
          (fun k o => (V c main_v2 : S4x64.Idx → EReal) (ix2 k o)) (fun k o => (V c main_v3 : S3x64.Idx → EReal) (ix2 k o))
          (fun k o => (V c main_v4 : S2x64.Idx → EReal) (ix2 k o))
          ((V c main_v14 : S1x64.Idx → EReal) (ix2 0 o)) ((V c main_v15 : S1x64.Idx → EReal) (ix2 0 o))
          ((V c main_v16 : S1x64.Idx → EReal) (ix2 0 o)) ((V c main_v17 : S1x64.Idx → EReal) (ix2 0 o)) o := rfl

/-- The pooled array, index by index. -/
def pooledOf (c : Dev nD) : S100000x64.Idx → EReal := fun i => pooledAt V c (i 0) (i 1)

/-- What point t writes back is block t of the pooled array: the stored block's entry (r, o) is the pooled value of
    the loaded blocks' pillar r, every loaded block read where its window puts it in its array, and the entry lands at
    row 200 t + r of the result. -/
theorem flushed_eq (c : Dev nD) (t : Fin cfg1.N) :
    (dat1 V c).flushed 10 t = ((cfg1.win 10).blk t).view.read (Elt Ideal) (pooledOf V c) := by
  show (cfg1.win 10).cut (grid1.coords t) ((dat1 V c).after 10 t) = _
  rw [after1_10 V c t]
  rw [Pieces.out1_10_eq (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t)]
  funext j
  have h0 : (j 0).val < 200 := (j 0).isLt
  have h1 : (j 1).val < 64 := (j 1).isLt
  obtain ⟨r, o, rfl⟩ : ∃ (r : Fin 200) (o : Fin 64), j = ix2 r o :=
    ⟨⟨_, h0⟩, ⟨_, h1⟩, funext fun a => by match a with | ⟨0, _⟩ => rfl | ⟨1, _⟩ => rfl⟩
  rw [View.read_apply, BlockReads.out_emb t r o]
  show _ = pooledAt V c (BlockReads.pil1 t r) o
  rw [pooledAt_eq]
  refine (block_pool (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) r o).trans ?_
  exact poolOf_congr (funext fun p => funext fun ch => BlockReads.vox1 V c t r p ch) (BlockReads.cnt1 V c t r 0)
    (funext fun ch => BlockReads.ctr1 V c t r ch) (funext fun k => funext fun o' => BlockReads.wa1 V c t k o')
    (funext fun k => funext fun o' => BlockReads.wb1 V c t k o') (funext fun k => funext fun o' => BlockReads.wc1 V c t k o')
    (BlockReads.row6 V c t 0 o) (BlockReads.row7 V c t 0 o) (BlockReads.row8 V c t 0 o) (BlockReads.row9 V c t 0 o) o

/-- After the second kernel the result array holds the pooled value of every pillar and channel. -/
theorem final10 (c : Dev nD) : (dat1 V c).arrAt 10 cfg1.N = pooledOf V c :=
  (dat1 V c).arrAt_eq_of_cover 10 (pooledOf V c) (fun t _ => flushed_eq V c t) BlockReads.out_cover

end Cert.KernelIdeal.PoolValue

end
-- ==== Proof.KernelValue.lean ====
/-
  The idealized kernel program's result, over the extended reals, is the specification in its first spellings
  (indicator after the contraction; variance as mean of squares minus squared mean) of the six argument arrays - for
  every input, finite or not. The result buffer holds the second kernel's result array, which is pooled from the
  buffers that kernel is entered with; those are the arguments (the weight as its three transposed pieces, the
  counts as a column) and the four rows of per-channel statistics, which are the specification's mean and variance
  of the activations of all pillars and the scale and shift arguments.
-/
import proofs.«144879_j40235253629489_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import proofs.«144879_j40235253629489_2_alg».proof.Proof.Boundaries
import proofs.«144879_j40235253629489_2_alg».proof.Proof.StatsLink
import proofs.«144879_j40235253629489_2_alg».proof.Proof.PoolValue
import proofs.«144879_j40235253629489_2_alg».proof.Proof.PillarSpec
set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

open Cert.KernelIdeal.StatsLink (acts)

/-- One pillar's activation as the second kernel computes it from its entry buffers is that pillar's activation from
    the argument arrays. -/
theorem act_at (c : Dev nD) (n : Fin 100000) (p : Fin 32) (o : Fin 64) :
    Cert.Pillar.act (fun p ch => (V3 m ρ c main_arg0 : S100000x32x4.Idx → EReal) (ix3 n p ch))
        ((V3 m ρ c main_v0 : S100000x1.Idx → BitVec 32) (ix2 n 0))
        (fun ch => (V3 m ρ c main_arg2 : S100000x2.Idx → EReal) (ix2 n ch))
        (fun k o => (V3 m ρ c main_v2 : S4x64.Idx → EReal) (ix2 k o)) (fun k o => (V3 m ρ c main_v3 : S3x64.Idx → EReal) (ix2 k o))
        (fun k o => (V3 m ρ c main_v4 : S2x64.Idx → EReal) (ix2 k o)) p o
      = acts m c n p o := by
  rw [Cert.KernelIdeal.Boundaries.vox, Cert.KernelIdeal.Boundaries.cnt, Cert.KernelIdeal.Boundaries.ctr,
    Cert.KernelIdeal.Boundaries.wa, Cert.KernelIdeal.Boundaries.wb, Cert.KernelIdeal.Boundaries.wc]
  show _ = Cert.Pillar.act _ _ _ _ _ _ p o
  congr 1
  · exact Cert.KernelIdeal.HostBefore.counts_apply m ρ c n 0
  · exact funext fun k => funext fun o => Cert.KernelIdeal.HostBefore.wa_apply m ρ c k o
  · exact funext fun k => funext fun o => Cert.KernelIdeal.HostBefore.wb_apply m ρ c k o
  · exact funext fun k => funext fun o => Cert.KernelIdeal.HostBefore.wc_apply m ρ c k o

/-- Pillar n, channel o of the second kernel's result array. -/
theorem pooledAt_eq (c : Dev nD) (n : Fin 100000) (o : Fin 64) :
    Cert.KernelIdeal.PoolValue.pooledAt (V3 m ρ) c n o
      = (Finset.univ : Finset (Fin 32)).fold max Cert.Pillar.floorWord (fun p => Cert.Pillar.unitOf (acts m c n p o)
          (Cert.Pillar.mean (acts m c) o) (Cert.Pillar.var (acts m c) o)
          ((m ((c : Thread nD τ).loc main_arg4) : S64.Idx → EReal) (ix1 o)) ((m ((c : Thread nD τ).loc main_arg5) : S64.Idx → EReal) (ix1 o))) := by
  unfold Cert.KernelIdeal.PoolValue.pooledAt
  rw [Cert.KernelIdeal.StatsLink.mean_row, Cert.KernelIdeal.StatsLink.var_row, Cert.KernelIdeal.StatsLink.scale_row,
    Cert.KernelIdeal.StatsLink.shift_row]
  exact congrArg (fun f : Fin 32 → EReal => (Finset.univ : Finset (Fin 32)).fold max Cert.Pillar.floorWord f)
    (funext fun p => by rw [act_at])

/-- THE RESULT: the result buffer's contents at the last boundary are the specification of the argument arrays. -/
theorem result_eq (c : Dev nD) :
    W4 m ρ c (Proc.devRef .tc main_v18)
      = Cert.Pillar.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) :=
  (W4_arr m ρ c 10).trans ((Cert.KernelIdeal.PoolValue.final10 (V3 m ρ) c).trans (funext fun i => by
    obtain ⟨n, o, rfl⟩ : ∃ (n : Fin 100000) (o : Fin 64), i = ix2 n o := ⟨i 0, i 1, eq_ix2 i⟩
    show Cert.KernelIdeal.PoolValue.pooledAt (V3 m ρ) c n o = _
    rw [pooledAt_eq]
    rfl))

end Cert.KernelIdeal.KernelValue

end
-- ==== Proof.RefAct.lean ====
/-
  The reference program's activation, read at one slot of one pillar.

  The program builds, for every pillar n and slot p, a row of 9 features by laying three arrays end to end
  along the last axis (the 4 channels; the first 3 channels minus the pillar's centroid; the first 2 channels
  minus the pillar's centre), multiplies the whole row by the slot's liveness indicator, and contracts the row
  with the 9 weights of each output channel. Here each of those steps is read at the index (n, p, k) and
  identified with the specification's name for it: the indicator is `Pillar.keep`, the centroid
  `Pillar.centroid`, the joined row `Pillar.feat` (one case per joined piece), and the contraction
  `Pillar.actROf`.
-/
import proofs.«144879_j40235253629489_2_alg».proof.Proof.Gen.ReferenceIdeal.Read
import proofs.«144879_j40235253629489_2_alg».proof.Proof.PillarSpec

noncomputable section

namespace Cert.ReferenceIdeal.RefValue

open Cert.ReferenceIdeal Cert.ReferenceIdeal.Gen Cert.ReferenceIdeal.Read Idealize.ShloMosaic Idealize.ShloMosaic.ValueIdx

variable (x0 : (⟨S100000x32x4, .f32⟩ : BufTy).Contents (Elt Ideal)) (x1 : (⟨S100000, .i32⟩ : BufTy).Contents (Elt Ideal))
  (x2 : (⟨S100000x2, .f32⟩ : BufTy).Contents (Elt Ideal)) (x3 : (⟨S64x9, .f32⟩ : BufTy).Contents (Elt Ideal))

/-! ## The liveness indicator and the count -/

/-- The broadcast mask at (n, p, k), whatever k: the one-bit answer of "count of pillar n > p" (signed), read as 0 or 1. -/
theorem keep_read (n : Fin 100000) (p : Fin 32) (k : Fin 9) :
    val_main_v23 (F := Ideal) x1 (ix3 n p k) = Pillar.keep (x1 (ix1 n)) p := by
  rw [val_main_v23_apply, val_main_v22_apply, val_main_v21_apply, val_main_v20_apply, val_main_v18_apply,
    val_main_v15_apply, val_main_v19_apply, val_main_v17_apply, val_main_v16_apply]
  have e : idx_main_v15 (idx_main_v18 (idx_main_v21 (idx_main_v23 (ix3 n p k)))) = ix1 n :=
    funext fun a => Fin.ext (by match a with | ⟨0, _⟩ => rfl)
  rw [e]
  rfl

/-- The count of pillar n, converted to a float and broadcast over the 3 centroid channels. -/
theorem count_read (n : Fin 100000) (c : Fin 3) :
    val_main_v5 (F := Ideal) x1 (ix3 n (0 : Fin 1) c) = Pillar.count (x1 (ix1 n)) := by
  rw [val_main_v5_apply, val_main_v1_apply, val_main_v0_apply]
  have e : idx_main_v1 (idx_main_v5 (ix3 n (0 : Fin 1) c)) = ix1 n :=
    funext fun a => Fin.ext (by match a with | ⟨0, _⟩ => rfl)
  rw [e]
  rfl

/-! ## The centroid -/

/-- Channel c of pillar n summed over all 32 slots: the sum starts from the zero word, which adds nothing. -/
theorem slotsum_read (n : Fin 100000) (c : Fin 3) :
    val_main_v4 (F := Ideal) x0 (ix3 n (0 : Fin 1) c) = ∑ p : Fin 32, x0 (ix3 n p (Fin.castLE (by decide) c)) := by
  rw [val_main_v4_apply, val_main_v3_apply, val_main_cst_apply, Ideal.ofBits_def, Ideal.ofBits_zero_f32, zero_add]
  refine Finset.sum_congr rfl fun q _ => ?_
  rw [val_main_v2_apply]
  exact congrArg x0 (funext fun a => Fin.ext (by match a with | ⟨0, _⟩ => rfl | ⟨1, _⟩ => rfl | ⟨2, _⟩ => rfl))

/-- The centroid broadcast to slot p: that sum over the count. -/
theorem centroid_read (n : Fin 100000) (p : Fin 32) (c : Fin 3) :
    val_main_v8 (F := Ideal) x0 x1 (ix3 n p c)
      = Pillar.centroid (fun p c => x0 (ix3 n p c)) (x1 (ix1 n)) c := by
  rw [val_main_v8_apply, val_main_v6_apply]
  have e : idx_main_v8 (ix3 n p c) = ix3 n (0 : Fin 1) c :=
    funext fun a => Fin.ext (by match a with | ⟨0, _⟩ => rfl | ⟨1, _⟩ => rfl | ⟨2, _⟩ => rfl)
  rw [e, slotsum_read, count_read]
  rfl

/-! ## The two difference pieces -/

/-- Channels 0..2 of slot p minus the centroid. -/
theorem offcentroid_read (n : Fin 100000) (p : Fin 32) (c : Fin 3) :
    val_main_v9 (F := Ideal) x0 x1 (ix3 n p c)
      = x0 (ix3 n p (Fin.castLE (by decide) c)) - Pillar.centroid (fun p c => x0 (ix3 n p c)) (x1 (ix1 n)) c := by
  rw [val_main_v9_apply, val_main_v7_apply, centroid_read]
  have e : idx_main_v7 (ix3 n p c) = ix3 n p (Fin.castLE (by decide) c) :=
    funext fun a => Fin.ext (by match a with | ⟨0, _⟩ => rfl | ⟨1, _⟩ => rfl | ⟨2, _⟩ => rfl)
  rw [e]
  rfl

/-- Channels 0..1 of slot p minus the pillar's centre. -/
theorem offcentre_read (n : Fin 100000) (p : Fin 32) (c : Fin 2) :
    val_main_v13 (F := Ideal) x0 x2 (ix3 n p c) = x0 (ix3 n p (Fin.castLE (by decide) c)) - x2 (ix2 n c) := by
  rw [val_main_v13_apply, val_main_v10_apply, val_main_v12_apply, val_main_v11_apply]
  have e : idx_main_v10 (ix3 n p c) = ix3 n p (Fin.castLE (by decide) c) :=
    funext fun a => Fin.ext (by match a with | ⟨0, _⟩ => rfl | ⟨1, _⟩ => rfl | ⟨2, _⟩ => rfl)
  have e' : idx_main_v11 (idx_main_v12 (ix3 n p c)) = ix2 n c :=
    funext fun a => Fin.ext (by match a with | ⟨0, _⟩ => rfl | ⟨1, _⟩ => rfl)
  rw [e, e']
  rfl

/-! ## The joined row of 9 features

Three arrays of 4, 3 and 2 columns laid end to end: column k of the result is column k of the first piece
when k < 4, column k - 4 of the second when 4 ≤ k < 7, column k - 7 of the third otherwise. -/

section Join

variable (y0 : S100000x32x4.Idx → EReal) (y1 : S100000x32x3.Idx → EReal) (y2 : S100000x32x2.Idx → EReal)
  (h : Shape.Concatenates [S100000x32x4, S100000x32x3, S100000x32x2] S100000x32x9 2)

theorem join_first (n : Fin 100000) (p : Fin 32) (k : Fin 9) (hk : k.val < 4) :
    concatenate S100000x32x9 2 [⟨S100000x32x4, y0⟩, ⟨S100000x32x3, y1⟩, ⟨S100000x32x2, y2⟩] h (ix3 n p k)
      = y0 (ix3 n p ⟨k.val, hk⟩) :=
  concatenate_apply_piece (t := S100000x32x9) 2 [⟨S100000x32x4, y0⟩, ⟨S100000x32x3, y1⟩, ⟨S100000x32x2, y2⟩] h (ix3 n p k) 0
    (by show (0 : Nat) < 3; omega) S100000x32x4 y0 rfl rfl 0 rfl (ix3 n p ⟨k.val, hk⟩)
    (fun b hb => by match b with | ⟨0, _⟩ => rfl | ⟨1, _⟩ => rfl | ⟨2, _⟩ => exact absurd rfl hb)
    (by show 0 + k.val = k.val; omega)

theorem join_second (n : Fin 100000) (p : Fin 32) (k : Fin 9) (hk : ¬ k.val < 4) (hk' : k.val < 7) :
    concatenate S100000x32x9 2 [⟨S100000x32x4, y0⟩, ⟨S100000x32x3, y1⟩, ⟨S100000x32x2, y2⟩] h (ix3 n p k)
      = y1 (ix3 n p ⟨k.val - 4, by omega⟩) :=
  concatenate_apply_piece (t := S100000x32x9) 2 [⟨S100000x32x4, y0⟩, ⟨S100000x32x3, y1⟩, ⟨S100000x32x2, y2⟩] h (ix3 n p k) 1
    (by show (1 : Nat) < 3; omega) S100000x32x3 y1 rfl rfl 4 rfl (ix3 n p ⟨k.val - 4, by omega⟩)
    (fun b hb => by match b with | ⟨0, _⟩ => rfl | ⟨1, _⟩ => rfl | ⟨2, _⟩ => exact absurd rfl hb)
    (by show 4 + (k.val - 4) = k.val; omega)

theorem join_third (n : Fin 100000) (p : Fin 32) (k : Fin 9) (hk : ¬ k.val < 7) :
    concatenate S100000x32x9 2 [⟨S100000x32x4, y0⟩, ⟨S100000x32x3, y1⟩, ⟨S100000x32x2, y2⟩] h (ix3 n p k)
      = y2 (ix3 n p ⟨k.val - 7, by have := k.isLt; omega⟩) :=
  concatenate_apply_piece (t := S100000x32x9) 2 [⟨S100000x32x4, y0⟩, ⟨S100000x32x3, y1⟩, ⟨S100000x32x2, y2⟩] h (ix3 n p k) 2
    (by show (2 : Nat) < 3; omega) S100000x32x2 y2 rfl rfl 7 rfl
    (ix3 n p ⟨k.val - 7, by have := k.isLt; omega⟩)
    (fun b hb => by match b with | ⟨0, _⟩ => rfl | ⟨1, _⟩ => rfl | ⟨2, _⟩ => exact absurd rfl hb)
    (by show 7 + (k.val - 7) = k.val; omega)

end Join

/-- The joined row at (n, p, k) is feature k of slot p of pillar n. -/
theorem feat_read (n : Fin 100000) (p : Fin 32) (k : Fin 9) :
    val_main_v14 (F := Ideal) x0 x1 x2 (ix3 n p k)
      = Pillar.feat (fun p c => x0 (ix3 n p c)) (x1 (ix1 n)) (fun c => x2 (ix2 n c)) p k := by
  unfold val_main_v14 Pillar.feat
  by_cases h4 : k.val < 4
  · rw [dif_pos h4]
    exact join_first x0 _ _ _ n p k h4
  · rw [dif_neg h4]
    by_cases h7 : k.val < 7
    · rw [dif_pos h7]
      refine (join_second x0 _ _ _ n p k h4 h7).trans ?_
      rw [offcentroid_read]
      rfl
    · rw [dif_neg h7]
      refine (join_third x0 _ _ _ n p k h7).trans ?_
      rw [offcentre_read]
      rfl

/-! ## The contraction -/

/-- The reference's activation at (n, p, o): every feature times the indicator, contracted with channel o's 9 weights. -/
theorem act_read (n : Fin 100000) (p : Fin 32) (o : Fin 64) :
    val_main_v25 (F := Ideal) x0 x1 x2 x3 (ix3 n p o) = Pillar.actROf x0 x1 x2 x3 n p o := by
  rw [val_main_v25_apply]
  unfold Pillar.actROf Pillar.actR
  refine Finset.sum_congr rfl fun k _ => ?_
  have el : lidx_main_v25 (ix3 n p o) k = ix3 n p k :=
    funext fun a => Fin.ext (by match a with | ⟨0, _⟩ => rfl | ⟨1, _⟩ => rfl | ⟨2, _⟩ => rfl)
  have er : ridx_main_v25 (ix3 n p o) k = ix2 o k :=
    funext fun a => Fin.ext (by match a with | ⟨0, _⟩ => rfl | ⟨1, _⟩ => rfl)
  rw [el, er, val_main_v24_apply, feat_read, keep_read]
  rfl

/-- The same as one equation between functions of the three coordinates. -/
theorem act_fun :
    (fun (n : Fin 100000) (p : Fin 32) (o : Fin 64) => val_main_v25 (F := Ideal) x0 x1 x2 x3 (ix3 n p o))
      = Pillar.actROf x0 x1 x2 x3 :=
  funext fun n => funext fun p => funext fun o => act_read x0 x1 x2 x3 n p o

end Cert.ReferenceIdeal.RefValue

end
-- ==== Proof.RefStats.lean ====
/-
  The reference program's statistics and its last steps, read at an index, over whatever array the
  contraction produced.

  A float sum over the first two axes of a 100000 x 32 x 64 array into its 64 channels is, at channel o, the
  initial value plus the sum of the entries whose last coordinate is o; those entries are exactly the
  (n, p, o), so the sum is the double sum over pillars n and slots p. With that, the program's mean and
  variance of channel o are the specification's `mean` and `varR` (mean of squared deviations) of the
  contraction's output, every later step is pointwise in (n, p, o) with the per-channel values broadcast, and
  the final reduction over slots is the fold of max from minus infinity.
-/
import proofs.«144879_j40235253629489_2_alg».proof.Proof.Gen.ReferenceIdeal.Read
import proofs.«144879_j40235253629489_2_alg».proof.Proof.PillarSpec

noncomputable section

namespace Cert.ReferenceIdeal.RefValue

open Cert.ReferenceIdeal Cert.ReferenceIdeal.Gen Cert.ReferenceIdeal.Read Idealize.ShloMosaic Idealize.ShloMosaic.ValueIdx

/-! ## A sum over the two leading axes -/

/-- Dropping the two leading coordinates of a rank-3 index keeps its last one. -/
theorem drop_lead2 {n0 n1 n2 : ℕ} (h : (⟨3, ![n0, n1, n2]⟩ : Shape).ReducesTo [0, 1] ⟨1, ![n2]⟩)
    (i : (⟨3, ![n0, n1, n2]⟩ : Shape).Idx) : h.drop i = ix1 (i 2) :=
  funext fun b => Fin.ext (by
    match b with
    | ⟨0, _⟩ => exact h.drop_apply_val_of_eq i 0 2 (by show (0 : ℕ) < 1; omega) rfl)

/-- The entries that reduce to channel o, summed, are the double sum over the two leading coordinates of the
    entries (n, p, o): an entry reduces to o exactly when its last coordinate is o, and then it is (its first, its
    second, o). Stated for any three extents. -/
theorem sum_filter_drop_lead2 {n0 n1 n2 : ℕ} (h : (⟨3, ![n0, n1, n2]⟩ : Shape).ReducesTo [0, 1] ⟨1, ![n2]⟩)
    (x : (⟨3, ![n0, n1, n2]⟩ : Shape).Idx → EReal) (o : Fin n2) :
    ∑ i ∈ Finset.univ.filter (fun i => h.drop i = ix1 o), x i = ∑ n : Fin n0, ∑ p : Fin n1, x (ix3 n p o) := by
  refine Eq.trans ?_ (Fintype.sum_prod_type' (fun (n : Fin n0) (p : Fin n1) => x (ix3 n p o)))
  have last : ∀ i ∈ Finset.univ.filter (fun i => h.drop i = ix1 o), ix3 (i 0) (i 1) o = i := fun i hi => by
    have e : ix1 (i 2) = ix1 o := (drop_lead2 h i).symm.trans (Finset.mem_filter.1 hi).2
    have e2 : i 2 = o := congrFun e 0
    rw [← e2]
    exact (eq_ix3 i).symm
  refine Finset.sum_nbij' (fun i => ((i 0 : Fin n0), (i 1 : Fin n1))) (fun np => ix3 np.1 np.2 o) ?_ ?_ ?_ ?_ ?_
  · intro i _; exact Finset.mem_univ _
  · intro np _; exact Finset.mem_filter.2 ⟨Finset.mem_univ _, drop_lead2 h _⟩
  · intro i hi; exact last i hi
  · intro np _; rfl
  · intro i hi; exact congrArg x (last i hi).symm

/-- So the host's float sum of a 100000 x 32 x 64 array over its two leading axes, at channel o: the initial value
    plus the double sum over pillars and slots. -/
theorem hostReduceAdd_lead2 (h : S100000x32x64.ReducesTo [0, 1] S64) (x : S100000x32x64.Idx → EReal) (init : EReal)
    (o : Fin 64) :
    Ideal.hostReduceAdd h x init (ix1 o) = init + ∑ n : Fin 100000, ∑ p : Fin 32, x (ix3 n p o) := by
  unfold Ideal.hostReduceAdd
  exact congrArg (init + ·) (sum_filter_drop_lead2 h x o)

/-! ## Mean and variance of a channel -/

variable (x0 : (⟨S100000x32x4, .f32⟩ : BufTy).Contents (Elt Ideal)) (x1 : (⟨S100000, .i32⟩ : BufTy).Contents (Elt Ideal))
  (x2 : (⟨S100000x2, .f32⟩ : BufTy).Contents (Elt Ideal)) (x3 : (⟨S64x9, .f32⟩ : BufTy).Contents (Elt Ideal))
  (x4 x5 : (⟨S64, .f32⟩ : BufTy).Contents (Elt Ideal))

/-- The program's mean of channel o: the sum from the zero word over the slot count. -/
theorem mean_read (o : Fin 64) :
    val_main_v28 (F := Ideal) x0 x1 x2 x3 (ix1 o)
      = Pillar.mean (fun n p o => val_main_v25 (F := Ideal) x0 x1 x2 x3 (ix3 n p o)) o := by
  rw [val_main_v28_apply, val_main_v27_apply, val_main_cst_1_apply]
  unfold val_main_v26
  generalize val_main_v25 (F := Ideal) x0 x1 x2 x3 = y
  simp only [Host.reduceAdd, Ideal.hostReduceAdd_def]
  rw [hostReduceAdd_lead2, val_main_cst_0_apply, Ideal.ofBits_def, Ideal.ofBits_zero_f32, zero_add]
  rfl

/-- The deviation from the mean, as the program forms it for the variance. -/
theorem dev_read (n : Fin 100000) (p : Fin 32) (o : Fin 64) :
    val_main_v31 (F := Ideal) x0 x1 x2 x3 (ix3 n p o)
      = val_main_v25 (F := Ideal) x0 x1 x2 x3 (ix3 n p o)
        - Pillar.mean (fun n p o => val_main_v25 (F := Ideal) x0 x1 x2 x3 (ix3 n p o)) o := by
  rw [val_main_v31_apply, val_main_v30_apply, val_main_v29_apply]
  have e : idx_main_v29 (idx_main_v30 (ix3 n p o)) = ix1 o :=
    funext fun a => Fin.ext (by match a with | ⟨0, _⟩ => rfl)
  rw [e, mean_read]
  rfl

/-- The program's variance of channel o: the mean of the squared deviations. -/
theorem var_read (o : Fin 64) :
    val_main_v35 (F := Ideal) x0 x1 x2 x3 (ix1 o)
      = Pillar.varR (fun n p o => val_main_v25 (F := Ideal) x0 x1 x2 x3 (ix3 n p o)) o := by
  rw [val_main_v35_apply, val_main_v34_apply, val_main_cst_3_apply]
  have sq : ∀ (n : Fin 100000) (p : Fin 32), val_main_v32 (F := Ideal) x0 x1 x2 x3 (ix3 n p o)
      = (val_main_v25 (F := Ideal) x0 x1 x2 x3 (ix3 n p o)
          - Pillar.mean (fun n p o => val_main_v25 (F := Ideal) x0 x1 x2 x3 (ix3 n p o)) o)
        * (val_main_v25 (F := Ideal) x0 x1 x2 x3 (ix3 n p o)
          - Pillar.mean (fun n p o => val_main_v25 (F := Ideal) x0 x1 x2 x3 (ix3 n p o)) o) := fun n p => by
    rw [val_main_v32_apply, dev_read]
    rfl
  unfold val_main_v33
  generalize val_main_v32 (F := Ideal) x0 x1 x2 x3 = y at sq ⊢
  simp only [Host.reduceAdd, Ideal.hostReduceAdd_def]
  rw [hostReduceAdd_lead2, val_main_cst_2_apply, Ideal.ofBits_def, Ideal.ofBits_zero_f32, zero_add]
  simp only [sq]
  rfl

/-! ## Normalise, scale, shift, clip -/

/-- One entry after the normalisation, the scale and shift by the two per-channel vectors, and the clip at 0. -/
theorem unit_read (n : Fin 100000) (p : Fin 32) (o : Fin 64) :
    val_main_v51 (F := Ideal) x0 x1 x2 x3 x4 x5 (ix3 n p o)
      = Pillar.unitOf (val_main_v25 (F := Ideal) x0 x1 x2 x3 (ix3 n p o))
          (Pillar.mean (fun n p o => val_main_v25 (F := Ideal) x0 x1 x2 x3 (ix3 n p o)) o)
          (Pillar.varR (fun n p o => val_main_v25 (F := Ideal) x0 x1 x2 x3 (ix3 n p o)) o)
          (x4 (ix1 o)) (x5 (ix1 o)) := by
  rw [val_main_v51_apply, val_main_v50_apply, val_main_v47_apply, val_main_v44_apply, val_main_v38_apply,
    val_main_v37_apply, val_main_v36_apply, val_main_v43_apply, val_main_v42_apply, val_main_v41_apply,
    val_main_v40_apply, val_main_v39_apply, val_main_cst_4_apply, val_main_v46_apply, val_main_v45_apply,
    val_main_v49_apply, val_main_v48_apply, val_main_call0_v0_apply, val_main_call0_cst_apply]
  have e1 : idx_main_v36 (idx_main_v37 (ix3 n p o)) = ix1 o :=
    funext fun a => Fin.ext (by match a with | ⟨0, _⟩ => rfl)
  have e2 : idx_main_v42 (idx_main_v43 (ix3 n p o)) = ix1 o :=
    funext fun a => Fin.ext (by match a with | ⟨0, _⟩ => rfl)
  have e3 : idx_main_v45 (idx_main_v46 (ix3 n p o)) = ix1 o :=
    funext fun a => Fin.ext (by match a with | ⟨0, _⟩ => rfl)
  have e4 : idx_main_v48 (idx_main_v49 (ix3 n p o)) = ix1 o :=
    funext fun a => Fin.ext (by match a with | ⟨0, _⟩ => rfl)
  rw [e1, e2, e3, e4, mean_read, var_read]
  simp only [Ideal.ofBits_def, Ideal.ofBits_zero_f32]
  rfl

/-! ## The maximum over slots -/

/-- The result at (n, o): the fold of max, from the minus-infinity word, of the clipped entries over the 32 slots. -/
theorem pool_read (n : Fin 100000) (o : Fin 64) :
    val_main_v52 (F := Ideal) x0 x1 x2 x3 x4 x5 (ix2 n o)
      = (Finset.univ : Finset (Fin 32)).fold max Pillar.floorWord
          (fun p => val_main_v51 (F := Ideal) x0 x1 x2 x3 x4 x5 (ix3 n p o)) := by
  unfold val_main_v52
  generalize val_main_v51 (F := Ideal) x0 x1 x2 x3 x4 x5 = y
  have h : S100000x32x64.Reduces [1] S100000x64 := by decide
  refine (Host.reduce_eq_fold_single _ y _ reducesTo_S100000x32x64_S100000x64_d1 h h_S_ (ix2 n o)).trans ?_
  have e : (y ∘ h.lift (ix2 n o)) = fun p : Fin 32 => y (ix3 n p o) :=
    funext fun p => congrArg y (funext fun a => Fin.ext (by
      match a with | ⟨0, _⟩ => rfl | ⟨1, _⟩ => rfl | ⟨2, _⟩ => rfl))
  rw [e]
  rfl

end Cert.ReferenceIdeal.RefValue

end
-- ==== Proof.RefValue.lean ====
/-
  The reference program computes the specification's second spelling.

  Its contraction is `Pillar.actROf` of the argument arrays (the indicator applied to every feature before one
  contraction over all 9), its mean and variance of a channel are `Pillar.mean` and `Pillar.varR` (mean of
  squared deviations) of that activation, each entry is then normalised, scaled, shifted and clipped as
  `Pillar.unitOf` says, and the result at pillar n and channel o is the maximum of those entries over the 32
  slots, folded from minus infinity: that is `Pillar.resultR`, index by index. No step uses anything about the
  inputs' values.
-/
import proofs.«144879_j40235253629489_2_alg».proof.Proof.RefAct
import proofs.«144879_j40235253629489_2_alg».proof.Proof.RefStats

noncomputable section

namespace Cert.ReferenceIdeal.RefValue

open Cert.ReferenceIdeal Cert.ReferenceIdeal.Gen Cert.ReferenceIdeal.Read Idealize.ShloMosaic Idealize.ShloMosaic.ValueIdx

variable (x0 : (⟨S100000x32x4, .f32⟩ : BufTy).Contents (Elt Ideal)) (x1 : (⟨S100000, .i32⟩ : BufTy).Contents (Elt Ideal))
  (x2 : (⟨S100000x2, .f32⟩ : BufTy).Contents (Elt Ideal)) (x3 : (⟨S64x9, .f32⟩ : BufTy).Contents (Elt Ideal))
  (x4 x5 : (⟨S64, .f32⟩ : BufTy).Contents (Elt Ideal))

/-- The program's mean of channel o is the specification's mean of the activation. -/
theorem mean_eq (o : Fin 64) :
    val_main_v28 (F := Ideal) x0 x1 x2 x3 (ix1 o) = Pillar.mean (Pillar.actROf x0 x1 x2 x3) o := by
  rw [mean_read, act_fun]

/-- The program's variance of channel o is the specification's mean of squared deviations of the activation. -/
theorem var_eq (o : Fin 64) :
    val_main_v35 (F := Ideal) x0 x1 x2 x3 (ix1 o) = Pillar.varR (Pillar.actROf x0 x1 x2 x3) o := by
  rw [var_read, act_fun]

/-- One clipped entry, in the specification's words. -/
theorem unit_eq (n : Fin 100000) (p : Fin 32) (o : Fin 64) :
    val_main_v51 (F := Ideal) x0 x1 x2 x3 x4 x5 (ix3 n p o)
      = Pillar.unitOf (Pillar.actROf x0 x1 x2 x3 n p o) (Pillar.mean (Pillar.actROf x0 x1 x2 x3) o)
          (Pillar.varR (Pillar.actROf x0 x1 x2 x3) o) (x4 (ix1 o)) (x5 (ix1 o)) := by
  rw [unit_read, act_fun, act_read]

/-- The reference program's result is the specification's, in its second spelling. -/
theorem result_eq (x0 : (⟨S100000x32x4, .f32⟩ : BufTy).Contents (Elt Ideal)) (x1 : (⟨S100000, .i32⟩ : BufTy).Contents (Elt Ideal))
    (x2 : (⟨S100000x2, .f32⟩ : BufTy).Contents (Elt Ideal)) (x3 : (⟨S64x9, .f32⟩ : BufTy).Contents (Elt Ideal))
    (x4 x5 : (⟨S64, .f32⟩ : BufTy).Contents (Elt Ideal)) :
    Cert.ReferenceIdeal.Read.val_main_v52 (F := Ideal) x0 x1 x2 x3 x4 x5 = Cert.Pillar.resultR x0 x1 x2 x3 x4 x5 := by
  funext j
  obtain ⟨n, o, rfl⟩ : ∃ (n : Fin 100000) (o : Fin 64), j = ix2 n o := ⟨j 0, j 1, eq_ix2 j⟩
  rw [pool_read]
  have e : (fun p : Fin 32 => val_main_v51 (F := Ideal) x0 x1 x2 x3 x4 x5 (ix3 n p o))
      = fun p => Pillar.unitOf (Pillar.actROf x0 x1 x2 x3 n p o) (Pillar.mean (Pillar.actROf x0 x1 x2 x3) o)
          (Pillar.varR (Pillar.actROf x0 x1 x2 x3) o) (x4 (ix1 o)) (x5 (ix1 o)) :=
    funext fun p => unit_eq x0 x1 x2 x3 x4 x5 n p o
  rw [e]
  rfl

end Cert.ReferenceIdeal.RefValue

end
-- ==== Proof.FiniteInputs.lean ====
/-
  From the precondition to finiteness of the float inputs.

  The precondition is the conjunction, over the five float arrays, of "every element x satisfies |x| < +infinity",
  each conjunct spelt as a reduction by "and" of a one-bit array, started from 1. If the whole is 1 then every
  conjunct is 1, so every element's comparison is 1. On the extended reals |x| = max x (-x) is below the top element
  exactly when x is neither infinity, that is, when x is the embedding of a real.
-/
import Mathlib.Data.EReal.Basic
import Idealize.ShloMosaic.Lib.ReduceAll
import Idealize.ShloMosaic.Lib.ValueIdx
import Idealize.ShloMosaic.PureOps.Ideal
import proofs.«144879_j40235253629489_2_alg».proof.Pre_finite_inputs

noncomputable section

namespace Cert.FiniteInputs

open Idealize.ShloMosaic Cert.Pre_finite_inputs

instance : Subsingleton S_.Idx := ⟨fun a b => funext fun d => d.elim0⟩

/-- The f32 word of plus infinity is the top element. -/
theorem ofBits_inf : Ideal.ofBits .f32 0x7F800000#32 = ⊤ := by
  simp [Ideal.ofBits, Ideal.ieee]

/-- An extended real whose absolute value compares below plus infinity is a real. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = r := by
  have h1 : BitVec.ofBool (decide (max x (-x) < Ideal.ofBits .f32 0x7F800000#32)) = 1#1 := h
  rw [ofBits_inf] at h1
  have h2 : max x (-x) < ⊤ := by
    by_contra hc
    rw [decide_eq_false hc] at h1
    exact absurd h1 (by decide)
  induction x using EReal.rec with
  | bot => simp at h2
  | coe r => exact ⟨r, rfl⟩
  | top => simp at h2

variable [Cert.Pre_finite_inputs.Facts]

/-- Under the precondition every entry of the five float arrays is a real. -/
theorem finite_all_of_pre (x0 : FVec Ideal S100000x32x4 .f32) (x1 : IVec S100000 32) (x2 : FVec Ideal S100000x2 .f32)
    (x3 : FVec Ideal S64x9 .f32) (x4 x5 : FVec Ideal S64 .f32)
    (h : Cert.Pre_finite_inputs.fn (F := Ideal) x0 x1 x2 x3 x4 x5 = (fun _ => 1#1)) :
    (∀ i, ∃ r : ℝ, x0 i = r) ∧ (∀ i, ∃ r : ℝ, x2 i = r) ∧ (∀ i, ∃ r : ℝ, x3 i = r) ∧ (∀ i, ∃ r : ℝ, x4 i = r)
      ∧ (∀ i, ∃ r : ℝ, x5 i = r) := by
  have h0 := congrFun h ValueIdx.ix0
  dsimp only [fn, fn_part1] at h0
  obtain ⟨h1234, e5⟩ := IntOp.andi_eq_one.1 h0
  obtain ⟨h123, e4⟩ := IntOp.andi_eq_one.1 h1234
  obtain ⟨h12, e3⟩ := IntOp.andi_eq_one.1 h123
  obtain ⟨e0, e2⟩ := IntOp.andi_eq_one.1 h12
  exact ⟨fun i => real_of_abs_lt (x0 i) (Host.reduce_andi_all _ _ _ _ _ e0 i),
    fun i => real_of_abs_lt (x2 i) (Host.reduce_andi_all _ _ _ _ _ e2 i),
    fun i => real_of_abs_lt (x3 i) (Host.reduce_andi_all _ _ _ _ _ e3 i),
    fun i => real_of_abs_lt (x4 i) (Host.reduce_andi_all _ _ _ _ _ e4 i),
    fun i => real_of_abs_lt (x5 i) (Host.reduce_andi_all _ _ _ _ _ e5 i)⟩

/-- Under the precondition every entry of the point, centre and weight arrays is a real. -/
theorem finite_of_pre (x0 : FVec Ideal S100000x32x4 .f32) (x1 : IVec S100000 32) (x2 : FVec Ideal S100000x2 .f32)
    (x3 : FVec Ideal S64x9 .f32) (x4 x5 : FVec Ideal S64 .f32)
    (h : Cert.Pre_finite_inputs.fn (F := Ideal) x0 x1 x2 x3 x4 x5 = (fun _ => 1#1)) :
    (∀ i, ∃ r : ℝ, x0 i = r) ∧ (∀ i, ∃ r : ℝ, x2 i = r) ∧ (∀ i, ∃ r : ℝ, x3 i = r) :=
  have a := finite_all_of_pre x0 x1 x2 x3 x4 x5 h
  ⟨a.1, a.2.1, a.2.2.1⟩

end Cert.FiniteInputs

end
-- ==== Proof.lean ====
/-
  The certificate's five claims.

  Both programs compute, for 100000 pillars of 32 point slots, a 9-feature linear layer per live slot, a
  normalisation of each of the 64 output channels by the mean and biased variance of its activations over all
  3200000 slots, a scale, a shift, a clip at 0, and the maximum over each pillar's slots.

  The kernel program does it in two passes over blocks of 200 pillars: the first accumulates, per channel, the sum of
  the activations and the sum of their squares across the 500 blocks; between the passes the mean is the sum over the
  number of slots and the variance the mean of squares minus the squared mean; the second pass recomputes the
  activations and pools. It multiplies by the liveness indicator after the contraction. The reference multiplies
  every feature by the indicator first, contracts all 9 features at once, and takes the variance as the mean of
  squared deviations.

  Over the extended reals the two activations agree for every input: the indicator is 0 or 1, at 0 both sides are 0
  and at 1 it drops out (a pillar whose count is 0 has every slot dead, so its infinite centroid never reaches a
  sum). The two variances agree when every activation is a real number, which the precondition gives: the inputs are
  finite, and a live slot's pillar has a positive count. Everything else is the same operations on the same words.
-/
import proofs.«144879_j40235253629489_2_alg».proof.Defs
import proofs.«144879_j40235253629489_2_alg».proof.Proof.Gen.Kernel
import proofs.«144879_j40235253629489_2_alg».proof.Proof.Gen.Kernel.Skeleton
import proofs.«144879_j40235253629489_2_alg».proof.Proof.Gen.Kernel.Launch
import proofs.«144879_j40235253629489_2_alg».proof.Proof.Gen.Kernel.Points
import proofs.«144879_j40235253629489_2_alg».proof.Proof.Gen.Kernel.Frame
import proofs.«144879_j40235253629489_2_alg».proof.Proof.Gen.KernelIdeal
import proofs.«144879_j40235253629489_2_alg».proof.Proof.Gen.KernelIdeal.Skeleton
import proofs.«144879_j40235253629489_2_alg».proof.Proof.Gen.KernelIdeal.Launch
import proofs.«144879_j40235253629489_2_alg».proof.Proof.Gen.KernelIdeal.Points
import proofs.«144879_j40235253629489_2_alg».proof.Proof.Gen.KernelIdeal.Frame
import proofs.«144879_j40235253629489_2_alg».proof.Proof.Gen.ReferenceIdeal
import proofs.«144879_j40235253629489_2_alg».proof.Proof.Gen.ReferenceIdeal.Run
import proofs.«144879_j40235253629489_2_alg».proof.Proof.Gen.ReferenceIdeal.Read
import proofs.«144879_j40235253629489_2_alg».proof.Proof.Gen.Pre_finite_inputs
import proofs.«144879_j40235253629489_2_alg».proof.Proof.KernelRun
import proofs.«144879_j40235253629489_2_alg».proof.Proof.KernelValue
import proofs.«144879_j40235253629489_2_alg».proof.Proof.RefValue
import proofs.«144879_j40235253629489_2_alg».proof.Proof.PillarLaws
import proofs.«144879_j40235253629489_2_alg».proof.Proof.FiniteInputs
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the same result: the kernel's is the
    specification in its first spellings, the reference's in its second, and the two agree on finite inputs. -/
theorem algebraic : Cert.algebraic_KernelIdeal_ReferenceIdeal := by
  intro m ρ m' ρ' hpre hagree
  refine ⟨fun c => Cert.Pillar.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v52_eq, Cert.ReferenceIdeal.RefValue.result_eq, e0, e1, e2, e3, e4, e5]
    obtain ⟨hv, hctr, hw⟩ := Cert.FiniteInputs.finite_of_pre _ _ _ _ _ _ (hpre c)
    exact Cert.Pillar.resultR_eq_result hv hctr hw

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
